-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x4096 : Shape := ⟨2, ![4, 4096]⟩
abbrev S100000 : Shape := ⟨1, ![100000]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S4x4096 32) (main_arg1 : IVec S100000 32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg0 main_v0
  let main_c_0 : IVec S_ 32 := constantI S_ 32 99999#32
  let main_v2 : IVec S4x4096 32 := broadcastInDim S4x4096 ![] bcast_S_S4x4096 main_c_0
  let main_v3 : IVec S4x4096 1 := cmpi .sle main_arg0 main_v2
  let main_v4 : IVec S4x4096 1 := andi main_v1 main_v3
  let main_c_1 : IVec S_ 1 := constantI S_ 1 1#1
  let main_v5 : IVec S_ 1 := (fun x v => Host.reduce IntOp.andi x v reducesTo_S4x4096_S_d0_1 h_S_) main_v4 main_c_1
  let main_c_2 : IVec S_ 32 := constantI S_ 32 0#32
  let main_v6 : IVec S100000 32 := broadcastInDim S100000 ![] bcast_S_S100000 main_c_2
  let main_v7 : IVec S100000 1 := cmpi .sge main_arg1 main_v6
  let main_c_3 : IVec S_ 32 := constantI S_ 32 15#32
  let main_v8 : IVec S100000 32 := broadcastInDim S100000 ![] bcast_S_S100000 main_c_3
  let main_v9 : IVec S100000 1 := cmpi .sle main_arg1 main_v8
  let main_v10 : IVec S100000 1 := andi main_v7 main_v9
  let main_c_4 : IVec S_ 1 := constantI S_ 1 1#1
  let main_v11 : IVec S_ 1 := (fun x v => Host.reduce IntOp.andi x v reducesTo_S100000_S_d0 h_S_) main_v10 main_c_4
  let main_v12 : IVec S_ 1 := andi main_v5 main_v11
  main_v12
-- ==== Kernel.lean ====
abbrev S4x4096 : Shape := ⟨2, ![4, 4096]⟩
abbrev S100000 : Shape := ⟨1, ![100000]⟩
abbrev S128x128 : Shape := ⟨2, ![128, 128]⟩
abbrev S8x128 : Shape := ⟨2, ![8, 128]⟩
abbrev S_ : Shape := ⟨0, ![]⟩
abbrev S8 : Shape := ⟨1, ![8]⟩
abbrev S1x128 : Shape := ⟨2, ![1, 128]⟩
abbrev S128 : Shape := ⟨1, ![128]⟩
abbrev S1 : Shape := ⟨1, ![1]⟩
abbrev S2x128 : Shape := ⟨2, ![2, 128]⟩

abbrev nBuf : Table → Nat
  | .hbm => 5
  | .local .scVector .vmem => 2
  | _ => 0

abbrev bufTy : (tb : Table) → Fin (nBuf tb) → BufTy
  | .hbm, ⟨0, _⟩ => ⟨S4x4096, .i32⟩
  | .hbm, ⟨1, _⟩ => ⟨S100000, .i32⟩
  | .hbm, ⟨2, _⟩ => ⟨S128x128, .i32⟩
  | .hbm, ⟨3, _⟩ => ⟨S128x128, .i32⟩
  | .hbm, ⟨4, _⟩ => ⟨S4x4096, .i32⟩
  | .local .scVector .vmem, ⟨0, _⟩ => ⟨S8x128, .i32⟩
  | .local .scVector .vmem, ⟨1, _⟩ => ⟨S8x128, .i32⟩
  | _, _ => ⟨S4x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let arg0 : BitVec 32 := BitVec.ofNat 32 (i 0).val
  let v0 : BitVec 32 := Scalar.addi arg1 arg0
  let c8_i32 : BitVec 32 := 8#32
  let v1 : BitVec 32 := Scalar.muli v0 c8_i32
  let c0_i32 : BitVec 32 := 0#32
  ![v1.toNat, 0]
def k0_off2 (i : grid0.Coords) (c0_i32_56 : BitVec 32) : Fin 2 → Nat :=
  let arg1 : BitVec 32 := BitVec.ofNat 32 (i 1).val
  let arg0 : BitVec 32 := BitVec.ofNat 32 (i 0).val
  let v0 : BitVec 32 := Scalar.addi arg1 arg0
  let c8_i32 : BitVec 32 := 8#32
  let v1 : BitVec 32 := Scalar.muli v0 c8_i32
  let v76 : BitVec 32 := Scalar.addi v1 c0_i32_56
  let c0_i32_59 : BitVec 32 := 0#32
  ![v76.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x4096_S128x128 : S4x4096.ShapeCasts S128x128
  inb_S8x128_S1x128_0_0 : ∀ a, (![0, 0] : Fin 2 → Nat) a + S1x128.size a ≤ S8x128.size a
  squeezes_S1x128_S128 : S1x128.Squeezes S128
  inb_S100000_S100000_0 : ∀ a, (![0] : Fin 1 → Nat) a + S100000.size a ≤ S100000.size a
  inb_S8_S1_0 : ∀ a, (![0] : Fin 1 → Nat) a + S1.size a ≤ S8.size a
  squeezes_S1_S_ : S1.Squeezes S_
  gathers_S100000_S128 : S100000.Gathers 0 S128
  inb_S8x128_S1x128_1_0 : ∀ a, (![1, 0] : Fin 2 → Nat) a + S1x128.size a ≤ S8x128.size a
  inb_S8_S1_1 : ∀ a, (![1] : Fin 1 → Nat) a + S1.size a ≤ S8.size a
  inb_S8x128_S1x128_2_0 : ∀ a, (![2, 0] : Fin 2 → Nat) a + S1x128.size a ≤ S8x128.size a
  inb_S8_S1_2 : ∀ a, (![2] : Fin 1 → Nat) a + S1.size a ≤ S8.size a
  inb_S8x128_S1x128_3_0 : ∀ a, (![3, 0] : Fin 2 → Nat) a + S1x128.size a ≤ S8x128.size a
  inb_S8_S1_3 : ∀ a, (![3] : Fin 1 → Nat) a + S1.size a ≤ S8.size a
  inb_S8x128_S1x128_4_0 : ∀ a, (![4, 0] : Fin 2 → Nat) a + S1x128.size a ≤ S8x128.size a
  inb_S8_S1_4 : ∀ a, (![4] : Fin 1 → Nat) a + S1.size a ≤ S8.size a
  inb_S8x128_S1x128_5_0 : ∀ a, (![5, 0] : Fin 2 → Nat) a + S1x128.size a ≤ S8x128.size a
  inb_S8_S1_5 : ∀ a, (![5] : Fin 1 → Nat) a + S1.size a ≤ S8.size a
  inb_S8x128_S1x128_6_0 : ∀ a, (![6, 0] : Fin 2 → Nat) a + S1x128.size a ≤ S8x128.size a
  inb_S8_S1_6 : ∀ a, (![6] : Fin 1 → Nat) a + S1.size a ≤ S8.size a
  inb_S8x128_S1x128_7_0 : ∀ a, (![7, 0] : Fin 2 → Nat) a + S1x128.size a ≤ S8x128.size a
  inb_S8_S1_7 : ∀ a, (![7] : Fin 1 → Nat) a + S1.size a ≤ S8.size a
  inb_S8x128_S2x128_0_0 : ∀ a, (![0, 0] : Fin 2 → Nat) a + S2x128.size a ≤ S8x128.size a
  inb_S8x128_S2x128_2_0 : ∀ a, (![2, 0] : Fin 2 → Nat) a + S2x128.size a ≤ S8x128.size a
  inb_S8x128_S2x128_4_0 : ∀ a, (![4, 0] : Fin 2 → Nat) a + S2x128.size a ≤ S8x128.size a
  inb_S8x128_S2x128_6_0 : ∀ a, (![6, 0] : Fin 2 → Nat) a + S2x128.size a ≤ S8x128.size a
  shapeCasts_S128x128_S4x4096 : S128x128.ShapeCasts S4x4096
  hcc0_scratch2 : 0 + S_.numel ≤ 10
  hcc0_scratch3 : 1 + S8.numel ≤ 10
  hcc0_scratch4 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x128.size a ≤ S128x128.size a
  k0_off2_inb : ∀ i : grid0.Coords, ∀ (r : Fin 4), ∀ a, (k0_off2 i (BitVec.ofNat 32 (2 * r.val))) a + S2x128.size a ≤ S128x128.size a

variable [Facts₀]

abbrev cc0_scratch2 : DmaSems sig S_ := SemArray.consecutive 0 S_ hcc0_scratch2
abbrev cc0_scratch3 : DmaSems sig S8 := SemArray.consecutive 1 S8 hcc0_scratch3
abbrev cc0_scratch4 : DmaSems sig S_ := SemArray.consecutive 9 S_ hcc0_scratch4

class Facts : Prop extends Facts₀ where

variable [Facts]
-- ==== ReferenceIdeal.lean ====
abbrev S4x4096 : Shape := ⟨2, ![4, 4096]⟩
abbrev S100000 : Shape := ⟨1, ![100000]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S100000, .i32⟩
  | .hbm, ⟨2, _⟩ => ⟨S_, .i32⟩
  | .hbm, ⟨3, _⟩ => ⟨S4x4096, .i32⟩
  | .hbm, ⟨4, _⟩ => ⟨S4x4096, .i1⟩
  | .hbm, ⟨5, _⟩ => ⟨S_, .i32⟩
  | .hbm, ⟨6, _⟩ => ⟨S4x4096, .i32⟩
  | .hbm, ⟨7, _⟩ => ⟨S4x4096, .i32⟩
  | .hbm, ⟨8, _⟩ => ⟨S4x4096, .i32⟩
  | .hbm, ⟨9, _⟩ => ⟨S4x4096x1, .i32⟩
  | .hbm, ⟨10, _⟩ => ⟨S1, .i32⟩
  | .hbm, ⟨11, _⟩ => ⟨S_, .i32⟩
  | .hbm, ⟨12, _⟩ => ⟨S4x4096x1, .i32⟩
  | .hbm, ⟨13, _⟩ => ⟨S4x4096x1, .i1⟩
  | .hbm, ⟨14, _⟩ => ⟨S1x1x1, .i32⟩
  | .hbm, ⟨15, _⟩ => ⟨S4x4096x1, .i32⟩
  | .hbm, ⟨16, _⟩ => ⟨S4x4096x1, .i1⟩
  | .hbm, ⟨17, _⟩ => ⟨S4x4096x1, .i1⟩
  | .hbm, ⟨18, _⟩ => ⟨S_, .i1⟩
  | .hbm, ⟨19, _⟩ => ⟨S4x4096, .i1⟩
  | .hbm, ⟨20, _⟩ => ⟨S4x4096, .i32⟩
  | .hbm, ⟨21, _⟩ => ⟨S_, .i32⟩
  | .hbm, ⟨22, _⟩ => ⟨S4x4096, .i32⟩
  | .hbm, ⟨23, _⟩ => ⟨S4x4096, .i32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_c_4 : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  gather_S100000_S4x4096x1_S4x4096_n_0_n_n_0_2_1_wf : GatherDims.WF S100000 S4x4096x1 S4x4096 [] [0] [] [0] [] 2 ![1]

variable [Facts₀]

def gather_S100000_S4x4096x1_S4x4096_n_0_n_n_0_2_1 : GatherDims S100000 S4x4096x1 S4x4096 where
  offsetDims := []
  collapsedSliceDims := [0]
  operandBatchingDims := []
  startIndicesBatchingDims := []
  startIndexMap := [0]
  indexVectorDim := 2
  sliceSizes := ![1]
  wf := gather_S100000_S4x4096x1_S4x4096_n_0_n_n_0_2_1_wf

class Facts : Prop extends Facts₀ where

variable [Facts]
-- ==== Proof.PreRange.lean ====
/-
  What the precondition says of the token ids. The printed predicate is the conjunction of two "for all"
  statements, each a reduction by "and" of an array of one-bit words down to a single word; the first
  array holds, at every place of the ids, the bit of (0 ≤ id) ∧ (id ≤ 99999), both compares signed. When
  the predicate's single word is 1, the first reduction's word is 1, so every bit it folded is 1, so both
  compares hold at every place: every id, read as a signed integer, lies in [0, 99999]; read as a natural
  number it is therefore below 100000. Nothing here touches a float, so the statement holds at every
  instance of the float operations.
-/
import proofs.«204486_g55619826483824_cont_9to1c4b_296_25_alg».proof.Pre_input_domain
import Idealize.ShloMosaic.Lib.ReduceAll
import Idealize.ShloMosaic.Lib.ValueIdx

namespace Cert.PreRange

open Idealize.ShloMosaic Idealize.ShloMosaic.ValueIdx

/-- The shape of a single word has a single index. -/
instance : Subsingleton Cert.Pre_input_domain.S_.Idx := ⟨fun a b => funext fun d => d.elim0⟩

/-- Every id lies in [0, 99999] as a signed integer. -/
theorem ids_range {F : FTy → Type} [FloatOps F] [Cert.Pre_input_domain.Facts]
    (x : IVec Cert.Pre_input_domain.S4x4096 32) (t : IVec Cert.Pre_input_domain.S100000 32)
    (h : Cert.Pre_input_domain.fn (F := F) x t = fun _ => 1#1) :
    ∀ y, 0 ≤ (x y).toInt ∧ (x y).toInt ≤ 99999 := by
  intro y
  have h0 := congrFun h ValueIdx.ix0
  dsimp only [Cert.Pre_input_domain.fn] at h0
  -- the last "and" joins the two reductions: the first is 1
  have h1 := (IntOp.andi_eq_one.1 h0).1
  -- a reduction by "and" that is 1 folded only 1s: the bit at y is 1
  have h2 := Host.reduce_andi_all _ _ _ _ _ h1 y
  -- that bit is the "and" of the two compares at y
  obtain ⟨hge, hle⟩ := IntOp.andi_eq_one.1 h2
  have hge' := IntOp.cmpi_sge.1 hge
  have hle' := IntOp.cmpi_sle.1 hle
  exact ⟨hge', hle'⟩

/-- Every id is below 100000 as a natural number. -/
theorem ids_lt {F : FTy → Type} [FloatOps F] [Cert.Pre_input_domain.Facts]
    (x : IVec Cert.Pre_input_domain.S4x4096 32) (t : IVec Cert.Pre_input_domain.S100000 32)
    (h : Cert.Pre_input_domain.fn (F := F) x t = fun _ => 1#1) :
    ∀ y, (x y).toNat < 100000 := by
  intro y
  obtain ⟨h0, h1⟩ := ids_range (F := F) x t h y
  have := BitVec.toInt_eq_toNat_cond (x y)
  have hlt := (x y).isLt
  split at this <;> omega

end Cert.PreRange
-- ==== Proof.RefOps.lean ====
/-
  The reference program as a straight line. Its @main is one call of the outlined "take", whose body calls the
  outlined "where" once; a call means the callee's body run on the caller's buffers, so with both bodies
  substituted at their call sites @main is the list of their twenty-two host operations, in order, each
  writing the buffer that call's record names for it. A straight line over whole buffers runs to its end from
  any memory, and each buffer then holds the fold of the operations' results over what the launch gave it.
-/
import proofs.«204486_g55619826483824_cont_9to1c4b_296_25_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The twenty-two operations: "take"'s own twenty-one around the one select of "where" (the seventh), over the
    buffers of @main's single call. The ids are @main's first argument, the table its second. -/
abbrev ops : List (HloOp τ sig (Elt F)) :=
  [ TRef.nullary main_call0.c (constantI S_ 32 0#32),
    TRef.unary main_call0.c main_call0.v0 (broadcastInDim S4x4096 ![] bcast_S_S4x4096),
    TRef.binary (.of main_arg0) main_call0.v0 main_call0.v1 (cmpi .slt),
    TRef.nullary main_call0.c_0 (constantI S_ 32 100000#32),
    TRef.unary main_call0.c_0 main_call0.v2 (broadcastInDim S4x4096 ![] bcast_S_S4x4096),
    TRef.binary (.of main_arg0) main_call0.v2 main_call0.v3 addi,
    TRef.ternary main_call0.v1 main_call0.v3 (.of main_arg0) main_call0.call0.v0 select,
    TRef.unary main_call0.call0.v0 main_call0.v5 (broadcastInDim S4x4096x1 ![0, 1] bcast_S4x4096_S4x4096x1_0_1),
    TRef.nullary main_call0.c_1 (constantI S1 32 99999#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg1) main_call0.v5 main_call0.v13 (fun x i => Host.gather gather_S100000_S4x4096x1_S4x4096_n_0_n_n_0_2_1 x i),
    TRef.nullary main_call0.c_4 (constantI S_ 32 2147483648#32),
    TRef.unary main_call0.c_4 main_call0.v14 (broadcastInDim S4x4096 ![] bcast_S_S4x4096),
    TRef.ternary main_call0.v12 main_call0.v13 main_call0.v14 main_call0.v15 select ]

set_option maxRecDepth 1024 in
/-- @main is that straight line: the two bodies unfolded at their calls, sequencing re-associated. -/
theorem main_eq (c : Dev nD) : main (F := F) c = seq ops := by
  simp only [main, fn_take.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

/-- From any memory with zero counters every weakly fair execution of @main terminates, and every buffer ends at
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  What the reference's line computes, as one function of the ids and the table: idx = (x < 0 ? x + 100000 : x);
  the mask at a place is the "and", over the trailing unit axis, of (0 ≤ idx) ∧ (idx ≤ 99999), both compares
  signed; the result is the gather of the table at idx (each start index read signed and clamped into
  [0, 99999]) where the mask is 1, and the least 32-bit integer elsewhere.
-/
import proofs.«204486_g55619826483824_cont_9to1c4b_296_25_alg».proof.ReferenceIdeal

noncomputable section

namespace Cert.ReferenceIdeal.RefRun

open Cert.ReferenceIdeal Idealize.ShloMosaic
open Cert.ReferenceIdeal.Facts₀ Cert.ReferenceIdeal.Facts

variable [Cert.ReferenceIdeal.Facts]

/-- The index array: an id below zero moved up by the table's length, any other id itself. -/
def idxOf (x : IVec S4x4096 32) : IVec S4x4096 32 :=
  select (cmpi .slt x (broadcastInDim S4x4096 ![] bcast_S_S4x4096 (constantI S_ 32 0#32)))
    (addi x (broadcastInDim S4x4096 ![] bcast_S_S4x4096 (constantI S_ 32 100000#32))) x

/-- The index array with its trailing unit axis. -/
def idx3 (x : IVec S4x4096 32) : IVec S4x4096x1 32 :=
  broadcastInDim S4x4096x1 ![0, 1] bcast_S4x4096_S4x4096x1_0_1 (idxOf x)

/-- The in-range bits: (0 ≤ idx) ∧ (idx ≤ 99999), signed. -/
def inRange (x : IVec S4x4096 32) : IVec S4x4096x1 1 :=
  andi (cmpi .sge (idx3 x) (broadcastInDim S4x4096x1 ![] bcast_S_S4x4096x1 (constantI S_ 32 0#32)))
    (cmpi .sle (idx3 x) (broadcastInDim S4x4096x1 ![0, 1, 2] bcast_S1x1x1_S4x4096x1_0_1_2
      (broadcastInDim S1x1x1 ![2] bcast_S1_S1x1x1_2 (constantI S1 32 99999#32))))

/-- The mask: the in-range bits folded by "and" over the trailing axis, from 1. -/
def mask (x : IVec S4x4096 32) : IVec S4x4096 1 :=
  Host.reduce IntOp.andi (inRange x) (constantI S_ 1 1#1) reducesTo_S4x4096x1_S4x4096_d2 h_S_

/-- The reference's result as a function of the ids and the table. -/
def out (x : IVec S4x4096 32) (t : IVec S100000 32) : IVec S4x4096 32 :=
  select (mask x) (Host.gather gather_S100000_S4x4096x1_S4x4096_n_0_n_n_0_2_1 t (idx3 x))
    (broadcastInDim S4x4096 ![] bcast_S_S4x4096 (constantI S_ 32 2147483648#32))

/-! The five definitions, as equations to rewrite with. -/

theorem idxOf_def (x : IVec S4x4096 32) :
    idxOf x = select (cmpi .slt x (broadcastInDim S4x4096 ![] bcast_S_S4x4096 (constantI S_ 32 0#32)))
      (addi x (broadcastInDim S4x4096 ![] bcast_S_S4x4096 (constantI S_ 32 100000#32))) x := rfl

theorem idx3_def (x : IVec S4x4096 32) :
    idx3 x = broadcastInDim S4x4096x1 ![0, 1] bcast_S4x4096_S4x4096x1_0_1 (idxOf x) := rfl

theorem inRange_def (x : IVec S4x4096 32) :
    inRange x = andi (cmpi .sge (idx3 x) (broadcastInDim S4x4096x1 ![] bcast_S_S4x4096x1 (constantI S_ 32 0#32)))
      (cmpi .sle (idx3 x) (broadcastInDim S4x4096x1 ![0, 1, 2] bcast_S1x1x1_S4x4096x1_0_1_2
        (broadcastInDim S1x1x1 ![2] bcast_S1_S1x1x1_2 (constantI S1 32 99999#32)))) := rfl

theorem mask_def (x : IVec S4x4096 32) :
    mask x = Host.reduce IntOp.andi (inRange x) (constantI S_ 1 1#1) reducesTo_S4x4096x1_S4x4096_d2 h_S_ := rfl

theorem out_def (x : IVec S4x4096 32) (t : IVec S100000 32) :
    out x t = select (mask x) (Host.gather gather_S100000_S4x4096x1_S4x4096_n_0_n_n_0_2_1 t (idx3 x))
      (broadcastInDim S4x4096 ![] bcast_S_S4x4096 (constantI S_ 32 2147483648#32)) := rfl

end Cert.ReferenceIdeal.RefRun

end
-- ==== Proof.RefValue.lean ====
/-
  The fold of the reference's line, read at the result buffer and at the two argument buffers. At the result
  buffer it is the function of the ids and the table that the line composes (each operation's result read at its
  own buffer is its function of its operands' contents, and at any other buffer what was there); no operation
  writes an argument buffer, so those hold what the launch gave them.
-/
import proofs.«204486_g55619826483824_cont_9to1c4b_296_25_alg».proof.Proof.RefOps
import proofs.«204486_g55619826483824_cont_9to1c4b_296_25_alg».proof.Proof.RefTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

attribute [local irreducible] Host.reduce Host.gather in
set_option maxRecDepth 4096 in
/-- The fold of the line at the result buffer is the composed function of the two argument buffers' contents; the
    moves between a buffer's own type and the type of the value it holds are the identity at these literal buffers. -/
theorem out_eq (V : Valuation τ sig (Elt F)) :
    after (ops (F := F)) V (main_v0 : DevRef τ sig) = out (V (main_arg0 : DevRef τ sig)) (V (main_arg1 : DevRef τ sig)) := by
  after_results
  dsimp only [TRef.ofBuf, TRef.toBuf, cast_eq]
  rfl

/-- No operation writes the ids' buffer … -/
theorem arg0_eq (V : Valuation τ sig (Elt F)) :
    after (ops (F := F)) V (main_arg0 : DevRef τ sig) = V (main_arg0 : DevRef τ sig) := by
  simp only [after_cons, after_nil]
  rfl

/-- … nor the table's. -/
theorem arg1_eq (V : Valuation τ sig (Elt F)) :
    after (ops (F := F)) V (main_arg1 : DevRef τ sig) = V (main_arg1 : DevRef τ sig) := by
  simp only [after_cons, after_nil]
  rfl

end Cert.ReferenceIdeal.RefRun

end
-- ==== Proof.Spec.lean ====
/-
  The lookup both programs compute. A table of 100000 words and an array of token ids: every entry of the
  result is the table's word at the id found at that place, the id read as a natural number and clamped to
  the table's last row (an id below 100000 is its own row). The array's shape plays no part: the lookup acts
  place by place, so it passes through any re-laying of the ids (a reshape before it is a reshape after it).
-/
import Idealize.ShloMosaic.PureOps
import Idealize.ShloMosaic.Lib.ValueIdx
import Idealize.ShloMosaic.Lib.Pipeline.Value

noncomputable section

namespace Cert.Spec

open Idealize.ShloMosaic Idealize.ShloMosaic.ValueIdx

/-- The table's shape. -/
abbrev ST : Shape := ⟨1, ![100000]⟩

/-- The table's row a word names: the word as a natural number, clamped to the last row. -/
def rowOfWord (w : BitVec 32) : Fin 100000 := ⟨min w.toNat 99999, by omega⟩

/-- A word below 100000 names its own row. -/
theorem rowOfWord_of_lt {w : BitVec 32} (h : w.toNat < 100000) : rowOfWord w = ⟨w.toNat, h⟩ :=
  Fin.ext (by show min w.toNat 99999 = w.toNat; omega)

/-- The table read at the row a word names. -/
def tableAt (t : IVec ST 32) (w : BitVec 32) : BitVec 32 := t (ix1 (rowOfWord w))

/-- The lookup, place by place, over ids of any shape. -/
def lookup {s : Shape} (x : IVec s 32) (t : IVec ST 32) : IVec s 32 := fun y => tableAt t (x y)

theorem lookup_apply {s : Shape} (x : IVec s 32) (t : IVec ST 32) (y : s.Idx) : lookup x t y = tableAt t (x y) := rfl

/-- The lookup passes through a re-laying of the ids: re-laying the result of the lookup is the lookup of the
    re-laid ids. -/
theorem shapeCast_lookup {s u : Shape} (x : IVec s 32) (t : IVec ST 32) (h : s.ShapeCasts u) :
    shapeCast u (lookup x t) h = lookup (shapeCast u x h) t := rfl

end Cert.Spec

end
-- ==== Proof.RefLookup.lean ====
/-
  Under the precondition the reference's function is the lookup. When every id lies in [0, 99999]: no id is
  negative, so the index array is the ids; both range compares hold at every place, so every bit the mask folds
  is 1 and, folded from 1, the mask is 1; the select therefore takes the gather; and a nonnegative id read as a
  signed integer is the id read as a natural number, so the gather's clamped row is the row the id names.
-/
import proofs.«204486_g55619826483824_cont_9to1c4b_296_25_alg».proof.Proof.RefTerm
import proofs.«204486_g55619826483824_cont_9to1c4b_296_25_alg».proof.Proof.Spec
import Idealize.ShloMosaic.Lib.ReduceAll
import Idealize.ShloMosaic.Lib.ValueIdx
import Idealize.ShloMosaic.Lib.Pipeline.Value

noncomputable section

namespace Cert.ReferenceIdeal.RefRun

open Cert.ReferenceIdeal Idealize.ShloMosaic Idealize.ShloMosaic.ValueIdx
open Cert.ReferenceIdeal.Facts₀ Cert.ReferenceIdeal.Facts

/-- A left fold by "and" from 1 over one-bit words that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_of_all_one f l fun n hn => h n (List.mem_cons_of_mem _ hn)

/-- A reduction by "and" from an initial 1 of an array of 1s is 1 at every result index. -/
theorem reduce_andi_of_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_of_all_one x _ fun i _ => hx i

variable [Cert.ReferenceIdeal.Facts]

/-- A 32-bit word whose signed value is nonnegative reads the same signed and unsigned. -/
theorem toInt_toNat_of_nonneg {w : BitVec 32} (h : 0 ≤ w.toInt) : w.toInt.toNat = w.toNat := by
  have h1 := BitVec.toInt_eq_toNat_cond w
  have h2 := w.isLt
  split at h1 <;> omega

section
variable (x : IVec S4x4096 32) (hx : ∀ y, 0 ≤ (x y).toInt ∧ (x y).toInt ≤ 99999)
include hx

/-- No id is negative: the index array is the ids. -/
theorem idxOf_apply (y : S4x4096.Idx) : idxOf x y = x y := by
  rw [idxOf_def, select_apply]
  have hc : cmpi .slt x (broadcastInDim S4x4096 ![] bcast_S_S4x4096 (constantI S_ 32 0#32)) y = 0#1 := by
    refine eq_zero_of_ne_one fun h => ?_
    have h1 : (x y).toInt < (0#32 : BitVec 32).toInt := IntOp.cmpi_slt.1 h
    have h2 := (hx y).1
    rw [show (0#32 : BitVec 32).toInt = 0 from by decide] at h1
    omega
  rw [hc, select_zero]

/-- Every entry of the index array with its unit axis is an id in range. -/
theorem idx3_range (i : S4x4096x1.Idx) : 0 ≤ (idx3 x i).toInt ∧ (idx3 x i).toInt ≤ 99999 := by
  rw [idx3_def]
  show 0 ≤ (idxOf x _).toInt ∧ (idxOf x _).toInt ≤ 99999
  rw [idxOf_apply x hx]
  exact hx _

/-- The index array read at a place's start-index position is the id at that place. -/
theorem idx3_takeIdx (y : S4x4096.Idx) : idx3 x (takeIdx y) = x y := by
  rw [idx3_def, broadcastInDim_apply _ _ _ (takeIdx y) y (fun a => match a with | ⟨0, _⟩ => rfl | ⟨1, _⟩ => rfl), idxOf_apply x hx]

/-- Both compares hold everywhere: every in-range bit is 1. -/
theorem inRange_apply (i : S4x4096x1.Idx) : inRange x i = 1#1 := by
  obtain ⟨h0, h1⟩ := idx3_range x hx i
  rw [inRange_def]
  refine IntOp.andi_eq_one.2 ⟨IntOp.cmpi_sge.2 ?_, IntOp.cmpi_sle.2 ?_⟩
  · show (0#32 : BitVec 32).toInt ≤ (idx3 x i).toInt
    rw [show (0#32 : BitVec 32).toInt = 0 from by decide]; exact h0
  · show (idx3 x i).toInt ≤ (99999#32 : BitVec 32).toInt
    rw [show (99999#32 : BitVec 32).toInt = 99999 from by decide]; exact h1

/-- The mask is 1 everywhere. -/
theorem mask_apply (y : S4x4096.Idx) : mask x y = 1#1 :=
  (congrFun (mask_def x) y).trans (reduce_andi_of_all_one _ _ _ _ (fun _ => rfl) (inRange_apply x hx) y)

/-- Under the range hypothesis the reference's function is the lookup. -/
theorem out_lookup (t : IVec S100000 32) : out x t = Cert.Spec.lookup x t := by
  funext y
  rw [out_def, select_apply, mask_apply x hx, select_one, Cert.Spec.lookup_apply]
  show Host.gather (takeDims 100000 4 4096 gather_S100000_S4x4096x1_S4x4096_n_0_n_n_0_2_1_wf) t (idx3 x) y = _
  rw [gather_take_apply (by decide)]
  show t (ix1 ⟨_, _⟩) = t (ix1 (Cert.Spec.rowOfWord (x y)))
  refine congrArg t (congrArg ix1 (Fin.ext ?_))
  show min (idx3 x (takeIdx y)).toInt.toNat (100000 - 1) = min (x y).toNat 99999
  rw [idx3_takeIdx x hx, toInt_toNat_of_nonneg (hx y).1]

end

end Cert.ReferenceIdeal.RefRun

end
-- ==== Proof.RefRun.lean ====
/-
  The reference's run, its result named by the specification. From any memory of which the precondition holds,
  with zero counters, every weakly fair execution of the reference's @main terminates; its result buffer then
  holds the lookup of the table (the second argument) at the ids (the first argument), and both argument
  buffers hold what they held at launch. The run is the straight line's; the result buffer holds the line's
  composed function of the arguments; the precondition puts every id in [0, 99999]; and on such ids that
  function is the lookup.
-/
import proofs.«204486_g55619826483824_cont_9to1c4b_296_25_alg».proof.Defs
import proofs.«204486_g55619826483824_cont_9to1c4b_296_25_alg».proof.Proof.RefOps
import proofs.«204486_g55619826483824_cont_9to1c4b_296_25_alg».proof.Proof.RefValue
import proofs.«204486_g55619826483824_cont_9to1c4b_296_25_alg».proof.Proof.RefLookup
import proofs.«204486_g55619826483824_cont_9to1c4b_296_25_alg».proof.Proof.PreRange
import proofs.«204486_g55619826483824_cont_9to1c4b_296_25_alg».proof.Proof.Spec

noncomputable section

namespace Cert.ReferenceIdeal.RefRun

open Idealize.ShloMosaic Idealize.ShloMosaic.TcCoe Idealize.SL.Sem Idealize.ShloMosaic.StableHlo

theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.lookup (m ((c.tc : Thread Cert.ReferenceIdeal.nD Cert.ReferenceIdeal.τ).loc Cert.ReferenceIdeal.main_arg0))
                               (m ((c.tc : Thread Cert.ReferenceIdeal.nD Cert.ReferenceIdeal.τ).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run Cert.ReferenceIdeal.defs _ _).mono
    (fun _ h c =>
      ⟨(h c Cert.ReferenceIdeal.main_v0).trans
          ((out_eq (launchContents m c)).trans
            (out_lookup _ (Cert.PreRange.ids_range (F := Ideal) _ _ (hpre c)) _)),
        (h c Cert.ReferenceIdeal.main_arg0).trans (arg0_eq (launchContents m c)),
        (h c Cert.ReferenceIdeal.main_arg1).trans (arg1_eq (launchContents m c))⟩)
    (run_main (F := Ideal) m g)

end Cert.ReferenceIdeal.RefRun

end
-- ==== Proof.IdealSide.Common.lean ====
/-
  What the parts of the kernel's certificate share. The program as the launch theorem sees it; the ghost state
  (the handshakes' rounds beside a copy of the transfers' counters: a tile only starts local copies and waits for
  them, so no schedule is needed); the five arrays of a device and what each holds at each moment — the ids
  re-laid as 128 rows of 128, the table, the rows looked up, and their re-laying as the result —; the eight rows of
  the ids and of the output that tile `i` owns, and the share of the table it reads.
-/
import proofs.«204486_g55619826483824_cont_9to1c4b_296_25_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Value
import Idealize.ShloMosaic.Lib.Tactic
import proofs.«204486_g55619826483824_cont_9to1c4b_296_25_alg».proof.Proof.Gen.KernelIdeal
import proofs.«204486_g55619826483824_cont_9to1c4b_296_25_alg».proof.Proof.Gen.KernelIdeal.Skeleton
import proofs.«204486_g55619826483824_cont_9to1c4b_296_25_alg».proof.Proof.Spec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The ids as given (4 × 4096), the table, the ids re-laid (128 × 128), the rows looked up (128 × 128), the
    result (4 × 4096): as locations of device `d`. -/
abbrev aLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- What the re-laid ids hold once @main's first line has run: the given ids at the new shape. -/
def X2 (d : Dev nD) : Buf (Elt F) (xLoc d) := (shapeCast S128x128 (m (aLoc d) : IVec S4x4096 32) shapeCasts_S4x4096_S128x128 : IVec S128x128 32)
/-- What the looked-up rows hold once the call is over: the table at each re-laid id. -/
def OUT (d : Dev nD) : Buf (Elt F) (oLoc d) := (Cert.Spec.lookup (X2 m d : IVec S128x128 32) (m (tLoc d) : IVec S100000 32) : IVec S128x128 32)
/-- What the result holds at the end: the looked-up rows at the given ids' shape — the lookup of the given ids. -/
def RES (d : Dev nD) : Buf (Elt F) (rLoc d) := (Cert.Spec.lookup (m (aLoc d) : IVec S4x4096 32) (m (tLoc d) : IVec S100000 32) : IVec S4x4096 32)

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)

/-- Tile `i` owns rows `8i … 8i+7` of the re-laid ids and of the looked-up rows: the `i`-th of sixteen parts along
    axis 0 (pairwise disjoint, covering the array). -/
theorem rdiv : 16 ∣ S128x128.size 0 := ⟨8, rfl⟩
abbrev rowsOf (i : Fin 16) : Rect S128x128 := Rect.part (s := S128x128) (a₀ := 0) rdiv i
abbrev xRowSet (i : Fin 16) : Finset S128x128.Idx := ((xV).view.slice (rowsOf i)).set

/-- The output's 128 rows as 64 windows of two rows; tile `i` owns windows `4i … 4i+3`, one per copy-out. -/
theorem wdiv : 64 ∣ S128x128.size 0 := ⟨2, rfl⟩
abbrev winOf (k : Fin 64) : Rect S128x128 := Rect.part (s := S128x128) (a₀ := 0) wdiv k
abbrev oWinSet (k : Fin 64) : Finset S128x128.Idx := ((oV).view.slice (winOf k)).set
def wix (i : Fin 16) (r : Fin 4) : Fin 64 := ⟨r.val + 4 * i.val, by omega⟩

/-- Tile `i`'s read share of the table: the `i`-th of sixteen tokens of the full share. -/
abbrev tq (i : Fin 16) : PosShare TreeShare := Transfers.shareTok fullShare 16 i

variable [FloatOps F]

/-! ## What the handshakes carry -/

abbrev tPts (d : Dev nD) : sProp 𝕄 := tLoc d ↦{fullShare} m (tLoc d)
abbrev xPts (d : Dev nD) (f : Buf (Elt F) (xLoc d)) : sProp 𝕄 := xLoc d ↦{fullShare} f
abbrev oPts (d : Dev nD) (f : Buf (Elt F) (oLoc d)) : sProp 𝕄 := oLoc d ↦{fullShare} f
abbrev tShPts (d : Dev nD) (i : Fin 16) : sProp 𝕄 := tLoc d ↦{tq i} m (tLoc d)
abbrev xRowPts (d : Dev nD) (i : Fin 16) (f : Buf (Elt F) (xLoc d)) : sProp 𝕄 := xLoc d ↦[xRowSet i]{fullShare} f
abbrev oWinPts (d : Dev nD) (k : Fin 64) (f : Buf (Elt F) (oLoc d)) : sProp 𝕄 := oLoc d ↦[oWinSet k]{fullShare} f
abbrev oRowPts (d : Dev nD) (i : Fin 16) (f : Buf (Elt F) (oLoc d)) : sProp 𝕄 := bigSep Finset.univ fun r : Fin 4 => oWinPts d (wix i r) f

/-- The one call takes the table, the re-laid ids and the output array whole; each task its share of the table, its
    eight rows of the ids and of the output, and brings them back, the output's rows holding the table at those ids. -/
def P : (K (F := F)).Pay (nD := nD) (Val := Elt F) (Name := ℕ) (U := UU) where
  st := fun q d _ => match q with | 0 => iprop(tPts m d ∗ xPts d (X2 m d) ∗ oPts d (m (oLoc d)))
  dn := fun q d _ => match q with | 0 => iprop(tPts m d ∗ xPts d (X2 m d) ∗ oPts d (OUT m d))
  go := fun q d _ i => match q with
    | 0 => iprop(tShPts m d (Fin.cast nSub_zero i) ∗ xRowPts d (Fin.cast nSub_zero i) (X2 m d) ∗ oRowPts d (Fin.cast nSub_zero i) (m (oLoc d)))
  td := fun q d _ i => match q with
    | 0 => iprop(tShPts m d (Fin.cast nSub_zero i) ∗ xRowPts d (Fin.cast nSub_zero i) (X2 m d) ∗ oRowPts d (Fin.cast nSub_zero i) (OUT m d))
  x := fun _ _ => iprop(emp)

instance P_storable : (P (F := F) m).IsStorable where
  st q d _ := match q with
    | 0 => (inferInstance : BI.Storable (upEmb : UEmb _ 𝕄) iprop(tPts m d ∗ xPts d (X2 m d) ∗ oPts d (m (oLoc d))))
  dn q d _ := match q with
    | 0 => (inferInstance : BI.Storable (upEmb : UEmb _ 𝕄) iprop(tPts m d ∗ xPts d (X2 m d) ∗ oPts d (OUT m d)))
  go q d _ i := match q with
    | 0 => (inferInstance : BI.Storable (upEmb : UEmb _ 𝕄)
      iprop(tShPts m d (Fin.cast nSub_zero i) ∗ xRowPts d (Fin.cast nSub_zero i) (X2 m d) ∗ oRowPts d (Fin.cast nSub_zero i) (m (oLoc d))))
  td q d _ i := match q with
    | 0 => (inferInstance : BI.Storable (upEmb : UEmb _ 𝕄)
      iprop(tShPts m d (Fin.cast nSub_zero i) ∗ xRowPts d (Fin.cast nSub_zero i) (X2 m d) ∗ oRowPts d (Fin.cast nSub_zero i) (OUT m d)))

/-- What the proof asks of the launch memory: every id is below 100000, a row of the table. -/
def PreOK : Prop := ∀ (d : Dev nD) (j : S4x4096.Idx), ((m (aLoc d) : IVec S4x4096 32) j).toNat < 100000

end Cert.KernelIdeal.Hand

end
-- ==== Proof.IdealSide.TileDefs.lean ====
/-
  A tile's task, named. The tile at grid point `L` runs on vector subcore `L 1` of SparseCore `L 0`. It copies its
  eight rows of the re-laid ids into its index scratch; for each row `j` it gathers, into row `j` of its value
  scratch, the table's words at the ids of that row; and it copies the value scratch out, two rows at a time, to its
  eight rows of the output. Here: the memrefs as the program slices them, and the contents each copy carries — the
  ids as they land, the words row `j`'s gather brings, the value scratch once all eight rows are written, and the two
  rows each copy-out reads of it.
-/
import proofs.«204486_g55619826483824_cont_9to1c4b_296_25_alg».proof.Proof.IdealSide.Common

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)
local notation "sV" => (Memref.whole Cert.KernelIdeal.cc0_scratch0 : Memref Cert.KernelIdeal.sig Kind.scVector Space.vmem Cert.KernelIdeal.S8x128 EltTy.i32)
local notation "rV" => (Memref.whole Cert.KernelIdeal.cc0_scratch1 : Memref Cert.KernelIdeal.sig Kind.scVector Space.vmem Cert.KernelIdeal.S8x128 EltTy.i32)

variable [FloatOps F]
variable (d : Dev nD) (L : grid0.Coords)

/-- The SparseCore and the vector subcore of grid point `L`. -/
abbrev cV (L : grid0.Coords) : Fin τ.nSC := (L 0).castLE hcore0
abbrev jV (L : grid0.Coords) : Fin τ.nSub := (L 1).castLE hsub0

/-- The tile's eight rows of the re-laid ids, its four two-row windows of the output, and the whole table: as the
    program slices them. -/
abbrev xBlk (L : grid0.Coords) : Memref sig .scVector .hbm S8x128 .i32 := (xV).slice (Rect.unit (s := S128x128) (k0_off1 L) S8x128.size (k0_off1_inb L)) (fun _ => rfl)
abbrev oWin0 (L : grid0.Coords) : Memref sig .scVector .hbm S2x128 .i32 := (oV).slice (Rect.unit (s := S128x128) (k0_off2 L 0#32) S2x128.size (k0_off2_inb L 0)) (fun _ => rfl)
abbrev oWin1 (L : grid0.Coords) : Memref sig .scVector .hbm S2x128 .i32 := (oV).slice (Rect.unit (s := S128x128) (k0_off2 L 2#32) S2x128.size (k0_off2_inb L 1)) (fun _ => rfl)
abbrev oWin2 (L : grid0.Coords) : Memref sig .scVector .hbm S2x128 .i32 := (oV).slice (Rect.unit (s := S128x128) (k0_off2 L 4#32) S2x128.size (k0_off2_inb L 2)) (fun _ => rfl)
abbrev oWin3 (L : grid0.Coords) : Memref sig .scVector .hbm S2x128 .i32 := (oV).slice (Rect.unit (s := S128x128) (k0_off2 L 6#32) S2x128.size (k0_off2_inb L 3)) (fun _ => rfl)
abbrev tAll : Memref sig .scVector .hbm S100000 .i32 := (tV).slice (Rect.unit (s := S100000) ![0] S100000.size inb_S100000_S100000_0) (fun _ => rfl)

/-- Row `j` of the index scratch and of the value scratch, as a vector of 128 words; rows `j, j+1` of the value
    scratch as a 2 × 128 block. -/
abbrev sRow (j : ℕ) (hk : ∀ a, (![j, 0] : Fin 2 → Nat) a + S1x128.size a ≤ S8x128.size a) : Memref sig .scVector .vmem S128 .i32 :=
  ((sV).slice (Rect.unit (s := S8x128) ![j, 0] S1x128.size hk) (fun _ => rfl)).squeeze S128 squeezes_S1x128_S128
abbrev rRow (j : ℕ) (hk : ∀ a, (![j, 0] : Fin 2 → Nat) a + S1x128.size a ≤ S8x128.size a) : Memref sig .scVector .vmem S128 .i32 :=
  ((rV).slice (Rect.unit (s := S8x128) ![j, 0] S1x128.size hk) (fun _ => rfl)).squeeze S128 squeezes_S1x128_S128
abbrev rPair (j : ℕ) (hk : ∀ a, (![j, 0] : Fin 2 → Nat) a + S2x128.size a ≤ S8x128.size a) : Memref sig .scVector .vmem S2x128 .i32 :=
  (rV).slice (Rect.unit (s := S8x128) ![j, 0] S2x128.size hk) (fun _ => rfl)

/-- The eight gathers' DMA semaphores, as the program names them. -/
abbrev gsem0 : DmaSem sig := ((cc0_scratch3.slice (Rect.unit (s := S8) ![0] S1.size inb_S8_S1_0)).squeeze S_ squeezes_S1_S_).sem
abbrev gsem1 : DmaSem sig := ((cc0_scratch3.slice (Rect.unit (s := S8) ![1] S1.size inb_S8_S1_1)).squeeze S_ squeezes_S1_S_).sem
abbrev gsem2 : DmaSem sig := ((cc0_scratch3.slice (Rect.unit (s := S8) ![2] S1.size inb_S8_S1_2)).squeeze S_ squeezes_S1_S_).sem
abbrev gsem3 : DmaSem sig := ((cc0_scratch3.slice (Rect.unit (s := S8) ![3] S1.size inb_S8_S1_3)).squeeze S_ squeezes_S1_S_).sem
abbrev gsem4 : DmaSem sig := ((cc0_scratch3.slice (Rect.unit (s := S8) ![4] S1.size inb_S8_S1_4)).squeeze S_ squeezes_S1_S_).sem
abbrev gsem5 : DmaSem sig := ((cc0_scratch3.slice (Rect.unit (s := S8) ![5] S1.size inb_S8_S1_5)).squeeze S_ squeezes_S1_S_).sem
abbrev gsem6 : DmaSem sig := ((cc0_scratch3.slice (Rect.unit (s := S8) ![6] S1.size inb_S8_S1_6)).squeeze S_ squeezes_S1_S_).sem
abbrev gsem7 : DmaSem sig := ((cc0_scratch3.slice (Rect.unit (s := S8) ![7] S1.size inb_S8_S1_7)).squeeze S_ squeezes_S1_S_).sem

/-- The ids as they land in the index scratch: the tile's eight rows of the re-laid ids `fx`. -/
abbrev idsLanded (L : grid0.Coords) (fx : Buf (Elt F) (xLoc d)) : S8x128.Idx → Elt F .i32 :=
  ReadAs.same.apply ((xBlk L).view.read (Elt F) fx)

/-- The index scratch after the fetch (whatever it held before: `fs`). -/
abbrev idsBuf (L : grid0.Coords) (fx : Buf (Elt F) (xLoc d)) (fs : Buf (Elt F) ((V d (cV L) (jV L)).loc cc0_scratch0)) :
    Buf (Elt F) ((V d (cV L) (jV L)).loc cc0_scratch0) := View.write (Elt F) (sV).view fs (idsLanded d L fx) Finset.univ

/-- Every id the tile fetched is a row of the table, when every re-laid id is: stated for each row `row` of the index
    scratch read as a list, over whatever the scratch held before. -/
theorem ids_inb (fx : Buf (Elt F) (xLoc d)) (hfx : ∀ j, ((fx : IVec S128x128 32) j).toNat < 100000)
    (fs : Buf (Elt F) ((V d (cV L) (jV L)).loc cc0_scratch0)) (pay : S8x128.Idx → Elt F .i32) (hpay : pay = idsLanded d L fx)
    (row : Fin 2 → Nat) (hk : ∀ a, row a + S1x128.size a ≤ S8x128.size a) (hq : (Rect.unit (s := S8x128) row S1x128.size hk).shape.Squeezes S128) :
    ∀ x, (View.read (Elt F) (((sV).slice (Rect.unit (s := S8x128) row S1x128.size hk) (fun _ => rfl)).squeeze S128 hq).view
      (View.write (Elt F) (sV).view fs pay Finset.univ) x).toNat < 100000 := by
  subst hpay; intro x
  rw [View.write_whole_univ]; unfold idsLanded; rw [ReadAs.apply_same, View.read_apply]
  rw [show ∀ j, (xBlk L).view.read (Elt F) fx j = fx ((xBlk L).view.emb j) from fun j => (View.read_apply _ _).trans (cast_eq _ _)]
  exact hfx _

/-- What row `j`'s gather brings: for each of the row's 128 places, the table's word at the id found there. -/
abbrev gathered (L : grid0.Coords) (fx : Buf (Elt F) (xLoc d)) (ft : Buf (Elt F) (tLoc d)) (fs : Buf (Elt F) ((V d (cV L) (jV L)).loc cc0_scratch0))
    (j : ℕ) (hk : ∀ a, (![j, 0] : Fin 2 → Nat) a + S1x128.size a ≤ S8x128.size a)
    (hin : ∀ x, (View.read (Elt F) (sRow j hk).view (idsBuf d L fx fs) x).toNat < S100000.size gathers_S100000_S128.axis) : S128.Idx → Elt F .i32 :=
  SparseCore.gatherPayload gathers_S100000_S128 (View.read (Elt F) (tAll).view ft)
    (SparseCore.rows (View.read (Elt F) (sRow j hk).view (idsBuf d L fx fs)) (rfl : S128.numel = S128.size gathers_S100000_S128.axis') hin)

/-- The value scratch once the eight rows `g 0 … g 7` are written over what it held before (`fr`). -/
abbrev valBuf (L : grid0.Coords) (fr : Buf (Elt F) ((V d (cV L) (jV L)).loc cc0_scratch1)) (g0 g1 g2 g3 g4 g5 g6 g7 : S128.Idx → Elt F .i32) :
    Buf (Elt F) ((V d (cV L) (jV L)).loc cc0_scratch1) :=
  View.write (Elt F) (rRow 7 inb_S8x128_S1x128_7_0).view
    (View.write (Elt F) (rRow 6 inb_S8x128_S1x128_6_0).view
      (View.write (Elt F) (rRow 5 inb_S8x128_S1x128_5_0).view
        (View.write (Elt F) (rRow 4 inb_S8x128_S1x128_4_0).view
          (View.write (Elt F) (rRow 3 inb_S8x128_S1x128_3_0).view
            (View.write (Elt F) (rRow 2 inb_S8x128_S1x128_2_0).view
              (View.write (Elt F) (rRow 1 inb_S8x128_S1x128_1_0).view
                (View.write (Elt F) (rRow 0 inb_S8x128_S1x128_0_0).view fr g0 Finset.univ)
                g1 Finset.univ) g2 Finset.univ) g3 Finset.univ) g4 Finset.univ) g5 Finset.univ) g6 Finset.univ) g7 Finset.univ

/-- What the copy-out of rows `j, j+1` carries: those two rows of the value scratch. -/
abbrev outPay (L : grid0.Coords) (j : ℕ) (hk : ∀ a, (![j, 0] : Fin 2 → Nat) a + S2x128.size a ≤ S8x128.size a)
    (w : Buf (Elt F) ((V d (cV L) (jV L)).loc cc0_scratch1)) : S2x128.Idx → Elt F .i32 :=
  ReadAs.same.apply (View.read (Elt F) (rPair j hk).view w)

end Cert.KernelIdeal.Hand

end
-- ==== Proof.IdealSide.TileGeom.lean ====
/-
  Where things sit in a tile's two scratch arrays. Row `k` of an 8 × 128 scratch, taken as a vector of 128 words (the
  1 × 128 block at row `k` with its unit axis dropped), puts column `b` of the vector at place (`k`, `b`) of the scratch;
  the 2 × 128 block at row `j` puts its place (`a`, `b`) at (`j + a`, `b`). So a write through row `k` changes exactly the
  places whose row coordinate is `k`, and after the eight rows have been written one after the other, place (`a`, `b`)
  holds column `b` of the `a`-th payload, whatever the scratch held before. Likewise the index scratch, once the tile's
  8 × 128 block of ids has been copied over it whole, read through its row `j` gives row `j` of that block.
-/
import proofs.«204486_g55619826483824_cont_9to1c4b_296_25_alg».proof.Proof.IdealSide.TileDefs

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UU ℕ

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)
local notation "sV" => (Memref.whole Cert.KernelIdeal.cc0_scratch0 : Memref Cert.KernelIdeal.sig Kind.scVector Space.vmem Cert.KernelIdeal.S8x128 EltTy.i32)
local notation "rV" => (Memref.whole Cert.KernelIdeal.cc0_scratch1 : Memref Cert.KernelIdeal.sig Kind.scVector Space.vmem Cert.KernelIdeal.S8x128 EltTy.i32)

variable [FloatOps F]
variable (d : Dev nD) (L : grid0.Coords)

/-- Dropping the unit axis: the place of column `b` of a 128-vector in the 1 × 128 block it was squeezed from. -/
theorem sq_ix1 (h : S128.numel = (⟨2, ![1, 128]⟩ : Shape).numel) (b : Fin 128) :
    Shape.reshapeEquiv h (ix1 b) = ix2 (0 : Fin 1) b :=
  Shape.reshapeEquiv_eq_of_rowMajor h (by rw [Shape.rowMajor_val_two, Shape.rowMajor_val_one]; simp)

theorem rRow_emb (k : ℕ) (hk : ∀ a, (![k, 0] : Fin 2 → Nat) a + S1x128.size a ≤ S8x128.size a) (hk8 : k < 8) (b : Fin 128) :
    (rRow k hk).view.emb (ix1 b) = ix2 (⟨k, hk8⟩ : Fin 8) b := by
  funext a; apply Fin.ext
  show ((Rect.unit (s := S8x128) ![k, 0] S1x128.size hk).emb (Shape.reshapeEquiv _ (ix1 b)) a).val = _
  rw [Rect.emb_apply, sq_ix1]
  match a with
  | ⟨0, _⟩ => simp
  | ⟨1, _⟩ => simp

/-- The elements row `k` of the value scratch occupies: the indices whose row coordinate is `k`. -/
theorem rRow_not_mem (k : ℕ) (hk : ∀ a, (![k, 0] : Fin 2 → Nat) a + S1x128.size a ≤ S8x128.size a) (a : Fin 8) (b : Fin 128)
    (hne : a.val ≠ k) : (ix2 a b : S8x128.Idx) ∉ (rRow k hk).view.setOn Finset.univ := by
  rw [View.setOn_univ, Memref.set_view_squeeze]
  show _ ∉ ((rV).view.slice (Rect.unit (s := S8x128) ![k, 0] S1x128.size hk)).set
  rw [View.set_slice_whole, Rect.mem_set_unit]
  intro h
  obtain ⟨h1, h2⟩ := h 0
  have h1' : k ≤ a.val := h1
  have h2' : a.val < k + 1 := h2
  omega

/-- One row's write, read at any place of the scratch: the payload's column on the written row, the old contents elsewhere. -/
theorem rRow_write_ix2 (k : ℕ) (hk : ∀ a, (![k, 0] : Fin 2 → Nat) a + S1x128.size a ≤ S8x128.size a) (hk8 : k < 8)
    (f : (rRow k hk).view.ty.Contents (Elt F)) (g : S128.Idx → Elt F .i32) (a : Fin 8) (b : Fin 128) :
    View.write (Elt F) (rRow k hk).view f g Finset.univ (ix2 a b) = if a.val = k then g (ix1 b) else f (ix2 a b) := by
  by_cases h : a.val = k
  · rw [if_pos h]
    have e : (ix2 a b : S8x128.Idx) = (rRow k hk).view.emb (ix1 b) := by
      rw [rRow_emb k hk hk8 b]; congr 1; exact Fin.ext h
    rw [e, View.write_emb_of_mem _ _ (Finset.mem_univ _)]; exact cast_eq _ _
  · rw [if_neg h]; exact View.write_of_not_mem _ _ _ (rRow_not_mem k hk a b h)

/-- The value scratch after the eight row writes, read at row `a`, column `b`: row `a`'s payload at column `b`. -/
theorem valBuf_row (fr : Buf (Elt F) ((V d (cV L) (jV L)).loc cc0_scratch1)) (g0 g1 g2 g3 g4 g5 g6 g7 : S128.Idx → Elt F .i32)
    (a : Fin 8) (b : Fin 128) :
    valBuf d L fr g0 g1 g2 g3 g4 g5 g6 g7 (ix2 a b) = (![g0, g1, g2, g3, g4, g5, g6, g7] a) (ix1 b) := by
  unfold valBuf
  rw [rRow_write_ix2 7 _ (by omega), rRow_write_ix2 6 _ (by omega), rRow_write_ix2 5 _ (by omega), rRow_write_ix2 4 _ (by omega),
    rRow_write_ix2 3 _ (by omega), rRow_write_ix2 2 _ (by omega), rRow_write_ix2 1 _ (by omega), rRow_write_ix2 0 _ (by omega)]
  fin_cases a <;> rfl

theorem sRow_emb (k : ℕ) (hk : ∀ a, (![k, 0] : Fin 2 → Nat) a + S1x128.size a ≤ S8x128.size a) (hk8 : k < 8) (b : Fin 128) :
    (sRow k hk).view.emb (ix1 b) = ix2 (⟨k, hk8⟩ : Fin 8) b := by
  funext a; apply Fin.ext
  show ((Rect.unit (s := S8x128) ![k, 0] S1x128.size hk).emb (Shape.reshapeEquiv _ (ix1 b)) a).val = _
  rw [Rect.emb_apply, sq_ix1]
  match a with
  | ⟨0, _⟩ => simp
  | ⟨1, _⟩ => simp

/-- The index scratch after the fetch, read through row `j`: the tile's block of the ids at row `j`. -/
theorem idsBuf_row (fx : Buf (Elt F) (xLoc d)) (fs : Buf (Elt F) ((V d (cV L) (jV L)).loc cc0_scratch0))
    (j : ℕ) (hk : ∀ a, (![j, 0] : Fin 2 → Nat) a + S1x128.size a ≤ S8x128.size a) (hj : j < 8) (b : Fin 128) :
    View.read (Elt F) (sRow j hk).view (idsBuf d L fx fs) (ix1 b)
      = (fx : IVec S128x128 32) ((xBlk L).view.emb (ix2 (⟨j, hj⟩ : Fin 8) b)) := by
  rw [View.read_apply, sRow_emb j hk hj b]
  unfold idsBuf
  rw [View.write_whole_univ]; unfold idsLanded; rw [ReadAs.apply_same, View.read_apply]
  rfl

/-- A rank-one index is found again from its row-major position, which is its one coordinate. -/
theorem rowMajor_symm_ix1 (b : Fin 128) (k : Fin S128.numel) (hk : k.val = b.val) : S128.rowMajor.symm k = ix1 b := by
  rw [Equiv.symm_apply_eq]; apply Fin.ext; rw [Shape.rowMajor_val_one]; exact hk

/-- Rows `j, j+1` of the value scratch as a 2 × 128 block: place (`ya`, `yb`) of the block is row `j + ya`, column `yb`. -/
theorem rPair_emb (j : ℕ) (hk : ∀ a, (![j, 0] : Fin 2 → Nat) a + S2x128.size a ≤ S8x128.size a) (ya : Fin 2) (yb : Fin 128)
    (hj : j + ya.val < 8) : (rPair j hk).view.emb (ix2 ya yb) = ix2 (⟨j + ya.val, hj⟩ : Fin 8) yb := by
  funext a; apply Fin.ext
  show ((Rect.unit (s := S8x128) ![j, 0] S2x128.size hk).emb (ix2 ya yb) a).val = _
  rw [Rect.emb_apply]
  match a with
  | ⟨0, _⟩ => simp
  | ⟨1, _⟩ => simp

end Cert.KernelIdeal.Hand

end
-- ==== Proof.IdealSide.TileValue.lean ====
/-
  What a tile's copy-outs write is the lookup. Row `j`'s gather brings, at column `b`, the table's word at the row named
  by the id at (`j`, `b`) of the tile's block of ids; an id below 100000 names its own row, so this is the lookup's value at
  that id. Hence the value scratch, once the eight gathers have landed, holds at (`a`, `b`) the lookup of the id at
  (`a`, `b`) of the block. The copy-out of rows `j, j+1` lands on the two-row window of the output that starts `j` rows
  below the tile's first row; place (`a`, `b`) of that window and place (`j + a`, `b`) of the tile's block of ids are the
  same index of the 128 × 128 array, so every element of the window ends up holding the lookup at its own index.
-/
import proofs.«204486_g55619826483824_cont_9to1c4b_296_25_alg».proof.Proof.IdealSide.TileGeom

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UU ℕ

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)
local notation "sV" => (Memref.whole Cert.KernelIdeal.cc0_scratch0 : Memref Cert.KernelIdeal.sig Kind.scVector Space.vmem Cert.KernelIdeal.S8x128 EltTy.i32)
local notation "rV" => (Memref.whole Cert.KernelIdeal.cc0_scratch1 : Memref Cert.KernelIdeal.sig Kind.scVector Space.vmem Cert.KernelIdeal.S8x128 EltTy.i32)

variable [FloatOps F]
variable (d : Dev nD) (L : grid0.Coords)

/-- What row `j`'s gather brings at column `b`: the table read at the row the id at (row `j`, column `b`) of the tile's block names. -/
theorem gathered_apply (fx : Buf (Elt F) (xLoc d)) (ft : Buf (Elt F) (tLoc d)) (fs : Buf (Elt F) ((V d (cV L) (jV L)).loc cc0_scratch0))
    (j : ℕ) (hk : ∀ a, (![j, 0] : Fin 2 → Nat) a + S1x128.size a ≤ S8x128.size a)
    (hin : ∀ x, (View.read (Elt F) (sRow j hk).view (idsBuf d L fx fs) x).toNat < S100000.size gathers_S100000_S128.axis)
    (hj : j < 8) (b : Fin 128) :
    gathered d L fx ft fs j hk hin (ix1 b)
      = Cert.Spec.tableAt (ft : IVec S100000 32) ((fx : IVec S128x128 32) ((xBlk L).view.emb (ix2 (⟨j, hj⟩ : Fin 8) b))) := by
  have hw := idsBuf_row d L fx fs j hk hj b
  have hlt := hin (ix1 b)
  rw [hw] at hlt
  unfold gathered SparseCore.gatherPayload Cert.Spec.tableAt
  rw [View.read_apply]
  refine (cast_eq _ _).trans (congrArg (ft : IVec S100000 32) ?_)
  funext a; apply Fin.ext
  match a with
  | ⟨0, _⟩ =>
    show 0 + 1 * ((gathers_S100000_S128.idx _ (ix1 b)) gathers_S100000_S128.axis).val = min _ 99999
    rw [Shape.Gathers.idx_axis]
    show 0 + 1 * (View.read (Elt F) (sRow j hk).view (idsBuf d L fx fs) (S128.rowMajor.symm _)).toNat = _
    rw [rowMajor_symm_ix1 b]
    · rw [hw]
      have : S100000.size gathers_S100000_S128.axis = 100000 := rfl
      omega
    · rfl

/-- The value scratch once all eight gathers have landed holds, at row `a` and column `b`, the table's word at the
    id found at row `a`, column `b` of the tile's block of ids. -/
theorem valBuf_lookup (fx : Buf (Elt F) (xLoc d)) (ft : Buf (Elt F) (tLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis)
    (a : Fin 8) (b : Fin 128) :
    valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7) (ix2 a b)
      = Cert.Spec.tableAt (ft : IVec S100000 32) ((fx : IVec S128x128 32) ((xBlk L).view.emb (ix2 a b))) := by
  rw [valBuf_row]
  fin_cases a
  · exact gathered_apply d L fx ft fs 0 _ h0 (by omega) b
  · exact gathered_apply d L fx ft fs 1 _ h1 (by omega) b
  · exact gathered_apply d L fx ft fs 2 _ h2 (by omega) b
  · exact gathered_apply d L fx ft fs 3 _ h3 (by omega) b
  · exact gathered_apply d L fx ft fs 4 _ h4 (by omega) b
  · exact gathered_apply d L fx ft fs 5 _ h5 (by omega) b
  · exact gathered_apply d L fx ft fs 6 _ h6 (by omega) b
  · exact gathered_apply d L fx ft fs 7 _ h7 (by omega) b

/-- One copy-out, read back: a two-row window of the output placed `j` rows below the tile's first row, written whole with
    rows `j, j+1` of a value scratch that holds the looked-up words of the tile's block, holds the lookup on its elements. -/
theorem out_window_gen (off : Fin 2 → ℕ) (inb : ∀ a, off a + S2x128.size a ≤ S128x128.size a)
    (j : ℕ) (hk : ∀ a, (![j, 0] : Fin 2 → Nat) a + S2x128.size a ≤ S8x128.size a) (hj : j + 2 ≤ 8)
    (hoff : off = ![8 * (L 1).val + 8 * (L 0).val + j, 0])
    (fx : Buf (Elt F) (xLoc d)) (ft : Buf (Elt F) (tLoc d)) (fo : Buf (Elt F) (oLoc d))
    (W : Buf (Elt F) ((V d (cV L) (jV L)).loc cc0_scratch1))
    (hW : ∀ (a : Fin 8) (b : Fin 128), W (ix2 a b)
      = Cert.Spec.tableAt (ft : IVec S100000 32) ((fx : IVec S128x128 32) ((xBlk L).view.emb (ix2 a b)))) :
    ∀ i ∈ ((oV).slice (Rect.unit (s := S128x128) off S2x128.size inb) (fun _ => rfl)).view.set,
      (((oV).slice (Rect.unit (s := S128x128) off S2x128.size inb) (fun _ => rfl)).view.writes (Elt F) fo
          [⟨Rect.whole S2x128, outPay d L j hk W⟩]) i
        = (Cert.Spec.lookup (fx : IVec S128x128 32) (ft : IVec S100000 32) : IVec S128x128 32) i := by
  intro i hi
  obtain ⟨y, -, rfl⟩ := Finset.mem_map.mp hi
  have hrd := congrFun (View.read_writes_whole ((oV).slice (Rect.unit (s := S128x128) off S2x128.size inb) (fun _ => rfl)).view fo (outPay d L j hk W)) y
  rw [View.read_apply] at hrd
  refine ((cast_eq _ _).symm.trans hrd).trans ?_
  obtain ⟨ya, yb, rfl⟩ : ∃ (ya : Fin 2) (yb : Fin 128), y = ix2 ya yb := ⟨y 0, y 1, eq_ix2 y⟩
  unfold outPay
  rw [ReadAs.apply_same, View.read_apply]
  refine (cast_eq _ _).trans ?_
  rw [rPair_emb j hk ya yb (by omega), hW, Cert.Spec.lookup_apply]
  refine congrArg (fun z => Cert.Spec.tableAt (ft : IVec S100000 32) ((fx : IVec S128x128 32) z)) ?_
  subst hoff
  funext a; apply Fin.ext
  show (k0_off1 L a + 1 * (ix2 (⟨j + ya.val, _⟩ : Fin 8) yb a).val) = (![8 * (L 1).val + 8 * (L 0).val + j, 0] : Fin 2 → ℕ) a + 1 * (ix2 ya yb a).val
  rw [k0_off1_eq]
  match a with
  | ⟨0, _⟩ =>
    show 8 * (L 1).val + 8 * (L 0).val + 1 * (j + ya.val) = 8 * (L 1).val + 8 * (L 0).val + j + 1 * ya.val
    omega
  | ⟨1, _⟩ => rfl

/-- The copy-out of rows 0, 1 of the value scratch: every element of the tile's output window 0 holds the lookup. -/
theorem out_window0 (fx : Buf (Elt F) (xLoc d)) (ft : Buf (Elt F) (tLoc d)) (fo : Buf (Elt F) (oLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis) :
    ∀ i ∈ (oWin0 L).view.set,
      ((oWin0 L).view.writes (Elt F) fo [⟨Rect.whole S2x128, outPay d L 0 inb_S8x128_S2x128_0_0
        (valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7))⟩]) i
        = (Cert.Spec.lookup (fx : IVec S128x128 32) (ft : IVec S100000 32) : IVec S128x128 32) i :=
  out_window_gen d L _ (k0_off2_inb L 0) 0 inb_S8x128_S2x128_0_0 (by omega) (k0_off2_eq L 0) fx ft fo _
    (valBuf_lookup d L fx ft fs fr h0 h1 h2 h3 h4 h5 h6 h7)

/-- The copy-out of rows 2, 3 of the value scratch: every element of the tile's output window 1 holds the lookup. -/
theorem out_window1 (fx : Buf (Elt F) (xLoc d)) (ft : Buf (Elt F) (tLoc d)) (fo : Buf (Elt F) (oLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis) :
    ∀ i ∈ (oWin1 L).view.set,
      ((oWin1 L).view.writes (Elt F) fo [⟨Rect.whole S2x128, outPay d L 2 inb_S8x128_S2x128_2_0
        (valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7))⟩]) i
        = (Cert.Spec.lookup (fx : IVec S128x128 32) (ft : IVec S100000 32) : IVec S128x128 32) i :=
  out_window_gen d L _ (k0_off2_inb L 1) 2 inb_S8x128_S2x128_2_0 (by omega) (k0_off2_eq L 1) fx ft fo _
    (valBuf_lookup d L fx ft fs fr h0 h1 h2 h3 h4 h5 h6 h7)

/-- The copy-out of rows 4, 5 of the value scratch: every element of the tile's output window 2 holds the lookup. -/
theorem out_window2 (fx : Buf (Elt F) (xLoc d)) (ft : Buf (Elt F) (tLoc d)) (fo : Buf (Elt F) (oLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis) :
    ∀ i ∈ (oWin2 L).view.set,
      ((oWin2 L).view.writes (Elt F) fo [⟨Rect.whole S2x128, outPay d L 4 inb_S8x128_S2x128_4_0
        (valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7))⟩]) i
        = (Cert.Spec.lookup (fx : IVec S128x128 32) (ft : IVec S100000 32) : IVec S128x128 32) i :=
  out_window_gen d L _ (k0_off2_inb L 2) 4 inb_S8x128_S2x128_4_0 (by omega) (k0_off2_eq L 2) fx ft fo _
    (valBuf_lookup d L fx ft fs fr h0 h1 h2 h3 h4 h5 h6 h7)

/-- The copy-out of rows 6, 7 of the value scratch: every element of the tile's output window 3 holds the lookup. -/
theorem out_window3 (fx : Buf (Elt F) (xLoc d)) (ft : Buf (Elt F) (tLoc d)) (fo : Buf (Elt F) (oLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis) :
    ∀ i ∈ (oWin3 L).view.set,
      ((oWin3 L).view.writes (Elt F) fo [⟨Rect.whole S2x128, outPay d L 6 inb_S8x128_S2x128_6_0
        (valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7))⟩]) i
        = (Cert.Spec.lookup (fx : IVec S128x128 32) (ft : IVec S100000 32) : IVec S128x128 32) i :=
  out_window_gen d L _ (k0_off2_inb L 3) 6 inb_S8x128_S2x128_6_0 (by omega) (k0_off2_eq L 3) fx ft fo _
    (valBuf_lookup d L fx ft fs fr h0 h1 h2 h3 h4 h5 h6 h7)

end Cert.KernelIdeal.Hand

end
-- ==== Proof.IdealSide.Rows.lean ====
/-
  The program's slices are the parts the launch deals. The tile at grid point `L` fetches rows `8·(L 1) … 8·(L 1)+7`
  of the re-laid ids: part `L 1` of the sixteen eight-row parts. Its copy-out number `r` lands on rows
  `8·(L 1)+2r, 8·(L 1)+2r+1` of the output: part `4·(L 1)+r` of the sixty-four two-row parts. (The grid has one
  SparseCore, so the core coordinate `L 0` is zero and adds nothing to an offset.) And the whole arrays are the
  disjoint unions of their parts: the ids of sixteen, the output of sixty-four, taken four by four.
-/
import proofs.«204486_g55619826483824_cont_9to1c4b_296_25_alg».proof.Proof.IdealSide.TileDefs

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)
local notation "sV" => (Memref.whole Cert.KernelIdeal.cc0_scratch0 : Memref Cert.KernelIdeal.sig Kind.scVector Space.vmem Cert.KernelIdeal.S8x128 EltTy.i32)
local notation "rV" => (Memref.whole Cert.KernelIdeal.cc0_scratch1 : Memref Cert.KernelIdeal.sig Kind.scVector Space.vmem Cert.KernelIdeal.S8x128 EltTy.i32)

variable (L : grid0.Coords)

theorem bound_one : grid0.bound 1 = 16 := rfl
/-- The tile's number among the sixteen. -/
abbrev jL (L : grid0.Coords) : Fin 16 := Fin.cast bound_one (L 1)

/-- The grid has one SparseCore. -/
theorem core_zero : (L 0).val = 0 := by
  have h : (L 0).val < 1 := (L 0).isLt
  omega

theorem xBlk_rect_eq : Rect.unit (s := S128x128) (k0_off1 L) S8x128.size (k0_off1_inb L) = rowsOf (jL L) := by
  unfold rowsOf Rect.part Rect.block
  congr 1 <;> funext a
  · rw [k0_off1_eq, core_zero]
    match a with
    | 0 => simp [Shape.partIx, Shape.partSize]; omega
    | 1 => simp [Shape.partIx, Shape.partSize]
  · match a with
    | 0 => simp [Shape.partSize]
    | 1 => simp [Shape.partSize]

theorem off2_eq (r : Fin 4) : k0_off2 L (BitVec.ofNat 32 (2 * r.val)) = ![8 * (L 1).val + 2 * r.val, 0] := by
  rw [k0_off2_eq, core_zero]; simp

theorem oWin_rect_eq (r : Fin 4) :
    Rect.unit (s := S128x128) (k0_off2 L (BitVec.ofNat 32 (2 * r.val))) S2x128.size (k0_off2_inb L r) = winOf (wix (jL L) r) := by
  unfold winOf Rect.part Rect.block
  congr 1 <;> funext a
  · rw [off2_eq]
    match a with
    | 0 => simp [Shape.partIx, Shape.partSize, wix]; omega
    | 1 => simp [Shape.partIx, Shape.partSize]
  · match a with
    | 0 => simp [Shape.partSize]
    | 1 => simp [Shape.partSize]

theorem set_xBlk : (xBlk L).view.set = xRowSet (jL L) := by
  show ((xV).view.slice (Rect.unit (s := S128x128) (k0_off1 L) S8x128.size (k0_off1_inb L))).set = ((xV).view.slice (rowsOf (jL L))).set
  rw [xBlk_rect_eq]
theorem set_oWin0 : (oWin0 L).view.set = oWinSet (wix (jL L) 0) := by
  show ((oV).view.slice (Rect.unit (s := S128x128) (k0_off2 L (BitVec.ofNat 32 (2 * (0 : Fin 4).val))) S2x128.size (k0_off2_inb L 0))).set = _
  rw [oWin_rect_eq]
theorem set_oWin1 : (oWin1 L).view.set = oWinSet (wix (jL L) 1) := by
  show ((oV).view.slice (Rect.unit (s := S128x128) (k0_off2 L (BitVec.ofNat 32 (2 * (1 : Fin 4).val))) S2x128.size (k0_off2_inb L 1))).set = _
  rw [oWin_rect_eq]
theorem set_oWin2 : (oWin2 L).view.set = oWinSet (wix (jL L) 2) := by
  show ((oV).view.slice (Rect.unit (s := S128x128) (k0_off2 L (BitVec.ofNat 32 (2 * (2 : Fin 4).val))) S2x128.size (k0_off2_inb L 2))).set = _
  rw [oWin_rect_eq]
theorem set_oWin3 : (oWin3 L).view.set = oWinSet (wix (jL L) 3) := by
  show ((oV).view.slice (Rect.unit (s := S128x128) (k0_off2 L (BitVec.ofNat 32 (2 * (3 : Fin 4).val))) S2x128.size (k0_off2_inb L 3))).set = _
  rw [oWin_rect_eq]

end Cert.KernelIdeal.Hand

end
-- ==== Proof.IdealSide.Split.lean ====
/-
  How the call's operands split among the sixteen tiles and come back. The table is read by every tile and written
  by none: the full share gives each tile one read token and keeps a remainder, and remainder and tokens join back to
  the full share. The re-laid ids are the disjoint union of sixteen eight-row parts, one per tile. The output is the
  disjoint union of sixty-four two-row windows; window number r + 4·i is tile i's r-th, so the sixty-four regroup as
  sixteen fours. Each array's whole points-to is therefore the separating product of its parts', at any contents:
  the same equation splits the output at its launch contents and joins it at its final contents.
-/
import proofs.«204486_g55619826483824_cont_9to1c4b_296_25_alg».proof.Proof.IdealSide.Rows

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)

variable (m : (ℓ : Loc nD τ sig) → Buf (Elt F) ℓ)

/-! ## The parts are disjoint and cover -/

/-- A tile's rows of the ids, as elements of the array: the part's own elements. -/
theorem xRowSet_eq (i : Fin 16) : xRowSet i = (rowsOf i).set := by
  show ((View.whole (main_v0_scv : Ref sig .scVector)).slice (rowsOf i)).set = _
  rw [View.set_slice]; exact Finset.map_refl
/-- A window of the output, as elements of the array: the part's own elements. -/
theorem oWinSet_eq (k : Fin 64) : oWinSet k = (winOf k).set := by
  show ((View.whole (main_v1_scv : Ref sig .scVector)).slice (winOf k)).set = _
  rw [View.set_slice]; exact Finset.map_refl

theorem xrows_disjoint : ∀ i ∈ (Finset.univ : Finset (Fin 16)), ∀ j ∈ (Finset.univ : Finset (Fin 16)), i ≠ j → Disjoint (xRowSet i) (xRowSet j) :=
  fun i _ j _ h => by rw [xRowSet_eq, xRowSet_eq]; exact Rect.part_disjoint rdiv h
theorem owins_disjoint : ∀ k ∈ (Finset.univ : Finset (Fin 64)), ∀ l ∈ (Finset.univ : Finset (Fin 64)), k ≠ l → Disjoint (oWinSet k) (oWinSet l) :=
  fun k _ l _ h => by rw [oWinSet_eq, oWinSet_eq]; exact Rect.part_disjoint wdiv h
theorem xrows_cover : (Finset.univ : Finset (Fin 16)).biUnion xRowSet = Finset.univ :=
  (Finset.biUnion_congr rfl fun i _ => xRowSet_eq i).trans (Rect.biUnion_part rdiv)
theorem owins_cover : (Finset.univ : Finset (Fin 64)).biUnion oWinSet = Finset.univ :=
  (Finset.biUnion_congr rfl fun k _ => oWinSet_eq k).trans (Rect.biUnion_part wdiv)

/-! ## Sixty-four windows are sixteen fours -/

/-- A separating product over the sixty-four windows, taken tile by tile and, within a tile, copy-out by copy-out:
    window r + 4·i is the pair (i, r) under the usual numbering of a product of two finite ranges. -/
theorem bigSep_wins (Φ : Fin 64 → sProp 𝕄) :
    bigSep Finset.univ Φ = bigSep Finset.univ fun i : Fin 16 => bigSep Finset.univ fun r : Fin 4 => Φ (wix i r) := by
  rw [bigSep_univ_equiv (finProdFinEquiv : Fin 16 × Fin 4 ≃ Fin 64) Φ, bigSep_univ_prod]
  exact bigSep_congr fun i _ => bigSep_congr fun r _ => congrArg Φ (Fin.ext rfl)

/-- A separating product over the tasks of the call is one over the sixteen tile numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The whole arrays as the products of their parts -/

/-- The ids whole are the sixteen tiles' rows. -/
theorem xPts_rows (d : Dev nD) (f : Buf (Elt F) (xLoc d)) :
    (xPts d f : sProp 𝕄) = bigSep Finset.univ fun i : Fin 16 => xRowPts d i f := by
  show (xLoc d ↦{fullShare} f : sProp 𝕄) = bigSep Finset.univ fun i : Fin 16 => xLoc d ↦[xRowSet i]{fullShare} f
  rw [← pointsTo_biUnion Finset.univ (ℓ := xLoc d) xRowSet xrows_disjoint, xrows_cover]; try rfl

/-- The output whole is its sixty-four windows … -/
theorem oPts_wins (d : Dev nD) (f : Buf (Elt F) (oLoc d)) :
    (oPts d f : sProp 𝕄) = bigSep Finset.univ fun k : Fin 64 => oWinPts d k f := by
  show (oLoc d ↦{fullShare} f : sProp 𝕄) = bigSep Finset.univ fun k : Fin 64 => oLoc d ↦[oWinSet k]{fullShare} f
  rw [← pointsTo_biUnion Finset.univ (ℓ := oLoc d) oWinSet owins_disjoint, owins_cover]; try rfl

/-- … that is, the sixteen tiles' four windows each. -/
theorem oPts_rows (d : Dev nD) (f : Buf (Elt F) (oLoc d)) :
    (oPts d f : sProp 𝕄) = bigSep Finset.univ fun i : Fin 16 => oRowPts d i f := by
  rw [oPts_wins, bigSep_wins]

/-- A tile's four windows, spelt out. -/
theorem oRowPts_four (d : Dev nD) (i : Fin 16) (f : Buf (Elt F) (oLoc d)) :
    (oRowPts d i f : sProp 𝕄) = iprop(oWinPts d (wix i 0) f ∗ oWinPts d (wix i 1) f ∗ oWinPts d (wix i 2) f ∗ oWinPts d (wix i 3) f) := by
  show (bigSep (Finset.univ : Finset (Fin 4)) fun r => oWinPts d (wix i r) f) = _
  rw [show (Finset.univ : Finset (Fin 4)) = {0, 1, 2, 3} by decide, SparseCore.bigSep_insert' (by decide),
    SparseCore.bigSep_insert' (by decide), SparseCore.bigSep_insert' (by decide), bigSep_singleton]

/-! ## The split -/

variable [FloatOps F]

theorem vecSplit : (K (F := F)).VecSplit' (P m) 0 := by
  intro d c
  show iprop(tPts m d ∗ xPts d (X2 m d) ∗ oPts d (m (oLoc d))) ⊢ |={Set.univ}=> iprop(
      (bigSep Finset.univ fun i : Fin ((K (F := F)).nSub 0) =>
        iprop(tShPts m d (Fin.cast nSub_zero i) ∗ xRowPts d (Fin.cast nSub_zero i) (X2 m d) ∗ oRowPts d (Fin.cast nSub_zero i) (m (oLoc d))))
      ∗ ((bigSep Finset.univ fun i : Fin ((K (F := F)).nSub 0) =>
          iprop(tShPts m d (Fin.cast nSub_zero i) ∗ xRowPts d (Fin.cast nSub_zero i) (X2 m d) ∗ oRowPts d (Fin.cast nSub_zero i) (OUT m d)))
          -∗ iprop(tPts m d ∗ xPts d (X2 m d) ∗ oPts d (OUT m d))))
  rw [bigSep_tasks (F := F) (fun i => iprop(tShPts m d i ∗ xRowPts d i (X2 m d) ∗ oRowPts d i (m (oLoc d)))),
    bigSep_tasks (F := F) (fun i => iprop(tShPts m d i ∗ xRowPts d i (X2 m d) ∗ oRowPts d i (OUT m d))),
    bigSep_sep', bigSep_sep', bigSep_sep', bigSep_sep']
  rw [xPts_rows d (X2 m d), oPts_rows d (m (oLoc d)), oPts_rows d (OUT m d)]
  iintro ⟨Ht, Hx, Ho⟩
  -- the table: one read token per tile, the remainder kept for the way back
  ihave Ht' := (Transfers.pointsTo_toks_split fullShare 16) $$ Ht
  icases Ht' with ⟨Hrem, Htoks⟩
  imodintro
  isplitl [Htoks Hx Ho]
  · isplitl [Htoks]; · iexact Htoks
    isplitl [Hx]; · iexact Hx
    iexact Ho
  iintro ⟨Htoks, Hx, Ho⟩
  isplitl [Hrem Htoks]
  · iapply (Transfers.pointsTo_toks_join fullShare 16)
    isplitl [Hrem]; · iexact Hrem
    iexact Htoks
  isplitl [Hx]; · iexact Hx
  iexact Ho

end Cert.KernelIdeal.Hand

end
-- ==== Proof.IdealSide.TileBody.lean ====
/-
  A tile's task, run once at a symbolic grid point. The tile is handed its read share of the table, its eight rows of
  the re-laid ids and its four two-row windows of the output, and owns two scratch buffers and ten DMA semaphores.
  No copy it starts touches the source or the destination of another copy that is still pending: the fetch is waited
  for before any row of the index scratch is read as a list; row `j`'s gather writes row `j` of the value scratch
  only, and the copy-out of rows `2r, 2r+1` starts after those two gathers were waited for; the four copy-outs land
  on four disjoint windows. Every id is a row of the table (the precondition), so every gather's list names rows that
  exist. At the end each window holds the table at the ids of its two rows (the value lemmas), the shares and the
  scratch are back, every semaphore is at zero.
-/
import proofs.«204486_g55619826483824_cont_9to1c4b_296_25_alg».proof.Proof.IdealSide.TileValue
import proofs.«204486_g55619826483824_cont_9to1c4b_296_25_alg».proof.Proof.IdealSide.Split

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)
local notation "sV" => (Memref.whole Cert.KernelIdeal.cc0_scratch0 : Memref Cert.KernelIdeal.sig Kind.scVector Space.vmem Cert.KernelIdeal.S8x128 EltTy.i32)
local notation "rV" => (Memref.whole Cert.KernelIdeal.cc0_scratch1 : Memref Cert.KernelIdeal.sig Kind.scVector Space.vmem Cert.KernelIdeal.S8x128 EltTy.i32)

variable (m : (ℓ : Loc nD τ sig) → Buf (Elt F) ℓ)
variable [FloatOps F]
variable (d : Dev nD) (L : grid0.Coords)

/-! ## The tile's own semaphores and scratch buffers -/

abbrev cell0 (d : Dev nD) (L : grid0.Coords) : GSem nD τ sig := (V d (cV L) (jV L), SemLoc.dma (cc0_scratch2.sem))
abbrev cell1 (d : Dev nD) (L : grid0.Coords) : GSem nD τ sig := (V d (cV L) (jV L), SemLoc.dma gsem0)
abbrev cell2 (d : Dev nD) (L : grid0.Coords) : GSem nD τ sig := (V d (cV L) (jV L), SemLoc.dma gsem1)
abbrev cell3 (d : Dev nD) (L : grid0.Coords) : GSem nD τ sig := (V d (cV L) (jV L), SemLoc.dma gsem2)
abbrev cell4 (d : Dev nD) (L : grid0.Coords) : GSem nD τ sig := (V d (cV L) (jV L), SemLoc.dma gsem3)
abbrev cell5 (d : Dev nD) (L : grid0.Coords) : GSem nD τ sig := (V d (cV L) (jV L), SemLoc.dma gsem4)
abbrev cell6 (d : Dev nD) (L : grid0.Coords) : GSem nD τ sig := (V d (cV L) (jV L), SemLoc.dma gsem5)
abbrev cell7 (d : Dev nD) (L : grid0.Coords) : GSem nD τ sig := (V d (cV L) (jV L), SemLoc.dma gsem6)
abbrev cell8 (d : Dev nD) (L : grid0.Coords) : GSem nD τ sig := (V d (cV L) (jV L), SemLoc.dma gsem7)
abbrev cell9 (d : Dev nD) (L : grid0.Coords) : GSem nD τ sig := (V d (cV L) (jV L), SemLoc.dma (cc0_scratch4.sem))

omit [FloatOps F] in
theorem cell_ne {a b : DmaSem sig} (h : a ≠ b) : ((V d (cV L) (jV L), SemLoc.dma a) : GSem nD τ sig) ≠ (V d (cV L) (jV L), SemLoc.dma b) :=
  fun e => h (SemLoc.dma.inj (Prod.mk.inj e).2)

/-- The cells that are none of the ten. -/
abbrev restCells (d : Dev nD) (L : grid0.Coords) : Finset (GSem nD τ sig) := (((((((((((ownCells (V d (cV L) (jV L))).erase (cell0 d L)).erase (cell1 d L)).erase (cell2 d L)).erase (cell3 d L)).erase (cell4 d L)).erase (cell5 d L)).erase (cell6 d L)).erase (cell7 d L)).erase (cell8 d L)).erase (cell9 d L))

omit [FloatOps F] in
/-- The tile's own semaphores at zero: the fetch's, the eight gathers', the copy-outs', and the rest. -/
theorem ownSems0_V :
    (ownSems0 (V d (cV L) (jV L)) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0 ∗ semVal (cell7 d L) 0 ∗ semVal (cell8 d L) 0 ∗ semVal (cell9 d L) 0
          ∗ bigSep (restCells d L) fun g => semVal g 0) := by
  unfold SparseCore.Cfg.ownSems0
  rw [SparseCore.bigSep_erase' ((mem_ownCells (g := cell0 d L)).mpr ⟨rfl, by show (SemLoc.dma (cc0_scratch2.sem) : SemLoc sig).isScoped .scVector = true; decide⟩),
    SparseCore.bigSep_erase' (Finset.mem_erase.mpr ⟨cell_ne d L (by decide), (mem_ownCells (g := cell1 d L)).mpr ⟨rfl, by show (SemLoc.dma gsem0 : SemLoc sig).isScoped .scVector = true; decide⟩⟩),
    SparseCore.bigSep_erase' (Finset.mem_erase.mpr ⟨cell_ne d L (by decide), Finset.mem_erase.mpr ⟨cell_ne d L (by decide), (mem_ownCells (g := cell2 d L)).mpr ⟨rfl, by show (SemLoc.dma gsem1 : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell3 d L)).mpr ⟨rfl, by show (SemLoc.dma gsem2 : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell4 d L)).mpr ⟨rfl, by show (SemLoc.dma gsem3 : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell5 d L)).mpr ⟨rfl, by show (SemLoc.dma gsem4 : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell6 d L)).mpr ⟨rfl, by show (SemLoc.dma gsem5 : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell7 d L)).mpr ⟨rfl, by show (SemLoc.dma gsem6 : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell8 d L)).mpr ⟨rfl, by show (SemLoc.dma gsem7 : SemLoc sig).isScoped .scVector = true; decide⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell9 d L)).mpr ⟨rfl, by show (SemLoc.dma (cc0_scratch4.sem) : SemLoc sig).isScoped .scVector = true; decide⟩⟩⟩⟩⟩⟩⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem pts_xBlk (f : Buf (Elt F) (xLoc d)) :
    ((xBlk L).view.loc (V d (cV L) (jV L)) ↦[(xBlk L).view.set]{fullShare} f : sProp 𝕄) = xLoc d ↦[xRowSet (jL L)]{fullShare} f := by
  rw [set_xBlk]
omit [FloatOps F] in
theorem pts_oWin0 (f : Buf (Elt F) (oLoc d)) :
    ((oWin0 L).view.loc (V d (cV L) (jV L)) ↦[(oWin0 L).view.set]{fullShare} f : sProp 𝕄) = oWinPts d (wix (jL L) 0) f := by
  rw [set_oWin0]
omit [FloatOps F] in
theorem pts_oWin1 (f : Buf (Elt F) (oLoc d)) :
    ((oWin1 L).view.loc (V d (cV L) (jV L)) ↦[(oWin1 L).view.set]{fullShare} f : sProp 𝕄) = oWinPts d (wix (jL L) 1) f := by
  rw [set_oWin1]
omit [FloatOps F] in
theorem pts_oWin2 (f : Buf (Elt F) (oLoc d)) :
    ((oWin2 L).view.loc (V d (cV L) (jV L)) ↦[(oWin2 L).view.set]{fullShare} f : sProp 𝕄) = oWinPts d (wix (jL L) 2) f := by
  rw [set_oWin2]
omit [FloatOps F] in
theorem pts_oWin3 (f : Buf (Elt F) (oLoc d)) :
    ((oWin3 L).view.loc (V d (cV L) (jV L)) ↦[(oWin3 L).view.set]{fullShare} f : sProp 𝕄) = oWinPts d (wix (jL L) 3) f := by
  rw [set_oWin3]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- Every re-laid id is a row of the table when every given id is. -/
theorem X2_lt (hpre : PreOK m) : ∀ j, ((X2 m d : IVec S128x128 32) j).toNat < 100000 := by
  intro j; exact hpre d _

set_option maxHeartbeats 8000000 in
/-- The task on vector subcore `(L 0, L 1)` of device `d`: the fetch of its eight rows of ids and its wait; the eight
    gathers, each reading the table through its own read token; their waits two by two, each pair followed by the
    copy-out of its two rows; the four copy-outs' waits. At the end the tile's four output windows hold the table at
    the ids of its rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tShPts m d (jL L) ∗ xRowPts d (jL L) (X2 m d) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__router_gather L tV (Memref.isWhole_whole _) xV (Memref.isWhole_whole _) oV (Memref.isWhole_whole _)
            sV (Memref.isWhole_whole _) rV (Memref.isWhole_whole _) cc0_scratch2 cc0_scratch3 cc0_scratch4)
          fun _ => iprop((tShPts m d (jL L) ∗ xRowPts d (jL L) (X2 m d) ∗ oRowPts d (jL L) (OUT m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V,
    oRowPts_four, oRowPts_four]
  iintro ⟨#Hlv, -, ⟨Ht, Hx, Ho0, Ho1, Ho2, Ho3⟩, ⟨⟨%fs, Hs⟩, ⟨%fr, Hr⟩, Hbufs⟩, ⟨Hc0, Hc1, Hc2, Hc3, Hc4, Hc5, Hc6, Hc7, Hc8, Hc9, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  -- the table's share, cut into one read token per gather
  ihave Htt := (Transfers.pointsTo_toks_split (ℓ := tLoc d) (S := Finset.univ) (f := m (tLoc d)) (tq (jL L)) 8) $$ Ht
  icases Htt with ⟨Htrem, Htoks⟩
  ihave Htk := (Entails.of_eq (bigSep_fin8 (F := F) fun i : Fin 8 => (tLoc d ↦{Transfers.shareTok (tq (jL L)) 8 i} m (tLoc d) : sProp 𝕄))) $$ Htoks
  icases Htk with ⟨Ht0, Ht1, Ht2, Ht3, Ht4, Ht5, Ht6, Ht7⟩
  -- the operands in the program's spelling
  ihave Gx := (Entails.of_eq (pts_xBlk (F := F) d L _).symm) $$ Hx
  ihave Go0 := (Entails.of_eq (pts_oWin0 (F := F) d L _).symm) $$ Ho0
  ihave Go1 := (Entails.of_eq (pts_oWin1 (F := F) d L _).symm) $$ Ho1
  ihave Go2 := (Entails.of_eq (pts_oWin2 (F := F) d L _).symm) $$ Ho2
  ihave Go3 := (Entails.of_eq (pts_oWin3 (F := F) d L _).symm) $$ Ho3
  ihave Gs := (Entails.of_eq (pts_sV (F := F) d L _).symm) $$ Hs
  ihave Gr := (Entails.of_eq (pts_rV (F := F) d L _).symm) $$ Hr
  ihave Gt0 := (Entails.of_eq (pts_tV (F := F) d L _ _).symm) $$ Ht0
  ihave Gt1 := (Entails.of_eq (pts_tV (F := F) d L _ _).symm) $$ Ht1
  ihave Gt2 := (Entails.of_eq (pts_tV (F := F) d L _ _).symm) $$ Ht2
  ihave Gt3 := (Entails.of_eq (pts_tV (F := F) d L _ _).symm) $$ Ht3
  ihave Gt4 := (Entails.of_eq (pts_tV (F := F) d L _ _).symm) $$ Ht4
  ihave Gt5 := (Entails.of_eq (pts_tV (F := F) d L _ _).symm) $$ Ht5
  ihave Gt6 := (Entails.of_eq (pts_tV (F := F) d L _ _).symm) $$ Ht6
  ihave Gt7 := (Entails.of_eq (pts_tV (F := F) d L _ _).symm) $$ Ht7
  have hfx := X2_lt m d hpre
  have hB : Transfers.BatchOf (V d (cV L) (jV L)) (SemLoc.dma cc0_scratch4.sem) 4 := trivial
  sl_unfold [cc0__router_gather]
  sl_exec
  have hidx0 := fun g => ids_inb (F := F) d L (X2 m d) hfx g (tile_body.sl.dma0 m d L) rfl ![0, 0] inb_S8x128_S1x128_0_0 squeezes_S1x128_S128
  have hidx1 := fun g => ids_inb (F := F) d L (X2 m d) hfx g (tile_body.sl.dma0 m d L) rfl ![1, 0] inb_S8x128_S1x128_1_0 squeezes_S1x128_S128
  have hidx2 := fun g => ids_inb (F := F) d L (X2 m d) hfx g (tile_body.sl.dma0 m d L) rfl ![2, 0] inb_S8x128_S1x128_2_0 squeezes_S1x128_S128
  have hidx3 := fun g => ids_inb (F := F) d L (X2 m d) hfx g (tile_body.sl.dma0 m d L) rfl ![3, 0] inb_S8x128_S1x128_3_0 squeezes_S1x128_S128
  have hidx4 := fun g => ids_inb (F := F) d L (X2 m d) hfx g (tile_body.sl.dma0 m d L) rfl ![4, 0] inb_S8x128_S1x128_4_0 squeezes_S1x128_S128
  have hidx5 := fun g => ids_inb (F := F) d L (X2 m d) hfx g (tile_body.sl.dma0 m d L) rfl ![5, 0] inb_S8x128_S1x128_5_0 squeezes_S1x128_S128
  have hidx6 := fun g => ids_inb (F := F) d L (X2 m d) hfx g (tile_body.sl.dma0 m d L) rfl ![6, 0] inb_S8x128_S1x128_6_0 squeezes_S1x128_S128
  have hidx7 := fun g => ids_inb (F := F) d L (X2 m d) hfx g (tile_body.sl.dma0 m d L) rfl ![7, 0] inb_S8x128_S1x128_7_0 squeezes_S1x128_S128
  sl_exec
  sl_step
  -- what the four windows hold is the lookup of the re-laid ids
  ihave Fo0 := (Entails.of_eq (pointsTo_congr (out_window0 (F := F) d L (X2 m d) (m (tLoc d)) (m (oLoc d)) fs fr (hidx0 fs) (hidx1 fs) (hidx2 fs) (hidx3 fs) (hidx4 fs) (hidx5 fs) (hidx6 fs) (hidx7 fs)))) $$ Go0
  ihave Fo1 := (Entails.of_eq (pointsTo_congr (out_window1 (F := F) d L (X2 m d) (m (tLoc d)) (m (oLoc d)) fs fr (hidx0 fs) (hidx1 fs) (hidx2 fs) (hidx3 fs) (hidx4 fs) (hidx5 fs) (hidx6 fs) (hidx7 fs)))) $$ Go1
  ihave Fo2 := (Entails.of_eq (pointsTo_congr (out_window2 (F := F) d L (X2 m d) (m (tLoc d)) (m (oLoc d)) fs fr (hidx0 fs) (hidx1 fs) (hidx2 fs) (hidx3 fs) (hidx4 fs) (hidx5 fs) (hidx6 fs) (hidx7 fs)))) $$ Go2
  ihave Fo3 := (Entails.of_eq (pointsTo_congr (out_window3 (F := F) d L (X2 m d) (m (tLoc d)) (m (oLoc d)) fs fr (hidx0 fs) (hidx1 fs) (hidx2 fs) (hidx3 fs) (hidx4 fs) (hidx5 fs) (hidx6 fs) (hidx7 fs)))) $$ Go3
  -- the read tokens rejoin the tile's share of the table
  ihave Htoks := (Entails.of_eq (bigSep_fin8 (F := F) fun i : Fin 8 => (tLoc d ↦{Transfers.shareTok (tq (jL L)) 8 i} m (tLoc d) : sProp 𝕄)).symm) $$ [Gt0 Gt1 Gt2 Gt3 Gt4 Gt5 Gt6 Gt7]
  · isplitl [Gt0]; · iexact Gt0
    isplitl [Gt1]; · iexact Gt1
    isplitl [Gt2]; · iexact Gt2
    isplitl [Gt3]; · iexact Gt3
    isplitl [Gt4]; · iexact Gt4
    isplitl [Gt5]; · iexact Gt5
    isplitl [Gt6]; · iexact Gt6
    iexact Gt7
  ihave Ht := (Transfers.pointsTo_toks_join (ℓ := tLoc d) (S := Finset.univ) (f := m (tLoc d)) (tq (jL L)) 8) $$ [Htrem Htoks]
  · isplitl [Htrem] <;> iassumption
  isplitl [Ht Gx Fo0 Fo1 Fo2 Fo3]
  · isplitl [Ht]; · iexact Ht
    isplitl [Gx]; · iapply (Entails.of_eq (pts_xBlk (F := F) d L _)); iexact Gx
    isplitl [Fo0]; · iapply (Entails.of_eq (pts_oWin0 (F := F) d L _)); iexact Fo0
    isplitl [Fo1]; · iapply (Entails.of_eq (pts_oWin1 (F := F) d L _)); iexact Fo1
    isplitl [Fo2]; · iapply (Entails.of_eq (pts_oWin2 (F := F) d L _)); iexact Fo2
    iapply (Entails.of_eq (pts_oWin3 (F := F) d L _)); iexact Fo3
  isplitl [Gs Gr Hbufs]
  · isplitl [Gs]; · iexists _; iexact Gs
    isplitl [Gr]; · iexists _; iexact Gr
    iexact Hbufs
  isplitl [Hc0 Hc1 Hc2 Hc3 Hc4 Hc5 Hc6 Hc7 Hc8 Hc9 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    iexact Hsems
  iexists _; isplitr
  swap; · iexact HO
  ipureintro; intro p hp
  simp only [Finset.mem_insert] at hp
  rcases hp with hp | hp | hp | hp | hp | hp | hp | hp | hp | hp | hp | hp | hp | hp
  all_goals first | exact .inl hp | exact .inr (hp ▸ rfl)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__router_gather (coordsV c s)
          tV (Memref.isWhole_whole _) xV (Memref.isWhole_whole _) oV (Memref.isWhole_whole _)
          sV (Memref.isWhole_whole _) rV (Memref.isWhole_whole _) cc0_scratch2 cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.KernelIdeal.Hand

end
-- ==== Proof.IdealSide.Main.lean ====
/-
  @main on the TensorCore. Its three lines: the given ids re-laid as 128 rows of 128; the call, which takes the table,
  the re-laid ids and the output array to the SparseCore and brings them back, the output holding the table at each
  re-laid id; and the output re-laid at the given ids' shape. A lookup acts place by place, so re-laying its result
  is looking up the re-laid ids, and re-laying twice is the identity: the result is the lookup of the given ids.
  The given ids and the table are never written.
-/
import proofs.«204486_g55619826483824_cont_9to1c4b_296_25_alg».proof.Proof.IdealSide.Common

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)
local notation "sV" => (Memref.whole Cert.KernelIdeal.cc0_scratch0 : Memref Cert.KernelIdeal.sig Kind.scVector Space.vmem Cert.KernelIdeal.S8x128 EltTy.i32)
local notation "rV" => (Memref.whole Cert.KernelIdeal.cc0_scratch1 : Memref Cert.KernelIdeal.sig Kind.scVector Space.vmem Cert.KernelIdeal.S8x128 EltTy.i32)

open Idealize.ShloMosaic.StableHlo (held held_split held_sdiff_result wp_hlo_within)

variable (m : (ℓ : Loc nD τ sig) → Buf (Elt F) ℓ) (ρ : Dev nD → PrngReg)

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The five arrays and the two re-layings -/

abbrev a' : DevRef τ sig := Proc.devRef .tc (main_arg0 : Ref sig .tc)
abbrev t' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 rfl shapeCasts_S4x4096_S128x128
abbrev opOut : HloOp τ sig (Elt F) := StableHlo.reshape main_v1 main_v2 rfl shapeCasts_S128x128_S4x4096

abbrev S5 : Finset (DevRef τ sig) := {a', t', x', o', r'}

abbrev aPts (d : Dev nD) : sProp 𝕄 := aLoc d ↦{fullShare} m (aLoc d)
abbrev rPts (d : Dev nD) (f : Buf (Elt F) (rLoc d)) : sProp 𝕄 := rLoc d ↦{fullShare} f

omit [FloatOps F] in
theorem held_S5 (d : Dev nD) (W : Valuation τ sig (Elt F)) :
    (held (T d) S5 W : sProp 𝕄)
      = iprop((aLoc d ↦{fullShare} W a') ∗ (tLoc d ↦{fullShare} W t') ∗ (xLoc d ↦{fullShare} W x') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (xLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first re-laying; after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (OUT m d)

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) := (opIn (F := F)).result_of_not_mem _ (show a' ∉ ({x'} : Finset (DevRef τ sig)) by decide)
theorem V1_t (d : Dev nD) : V1 m d t' = m (tLoc d) := (opIn (F := F)).result_of_not_mem _ (show t' ∉ ({x'} : Finset (DevRef τ sig)) by decide)
theorem V1_o (d : Dev nD) : V1 m d o' = m (oLoc d) := (opIn (F := F)).result_of_not_mem _ (show o' ∉ ({x'} : Finset (DevRef τ sig)) by decide)
theorem V1_r (d : Dev nD) : V1 m d r' = m (rLoc d) := (opIn (F := F)).result_of_not_mem _ (show r' ∉ ({x'} : Finset (DevRef τ sig)) by decide)
theorem V1_x (d : Dev nD) : V1 m d x' = X2 m d :=
  (StableHlo.reshape_result (Val := Elt F) main_arg0 main_v0 rfl shapeCasts_S4x4096_S128x128 ⟨by decide, rfl⟩ ⟨by decide, rfl⟩ (V0 m d)).trans rfl

theorem V2_a (d : Dev nD) : V2 m d a' = m (aLoc d) := (Function.update_of_ne (show a' ≠ o' by decide) _ _).trans (V1_a m d)
theorem V2_t (d : Dev nD) : V2 m d t' = m (tLoc d) := (Function.update_of_ne (show t' ≠ o' by decide) _ _).trans (V1_t m d)
theorem V2_x (d : Dev nD) : V2 m d x' = X2 m d := (Function.update_of_ne (show x' ≠ o' by decide) _ _).trans (V1_x m d)
theorem V2_o (d : Dev nD) : V2 m d o' = OUT m d := Function.update_self _ _ _
theorem V2_r (d : Dev nD) : V2 m d r' = m (rLoc d) := (Function.update_of_ne (show r' ≠ o' by decide) _ _).trans (V1_r m d)

/-- Re-laying the looked-up rows at the given ids' shape is looking up the given ids. -/
theorem relaid_OUT (d : Dev nD) :
    (shapeCast S4x4096 (OUT m d : IVec S128x128 32) shapeCasts_S128x128_S4x4096 : IVec S4x4096 32) = (RES m d : IVec S4x4096 32) := by
  unfold OUT RES X2
  rw [Cert.Spec.shapeCast_lookup]
  exact congrArg (fun x : IVec S4x4096 32 => Cert.Spec.lookup x (m (tLoc d) : IVec S100000 32))
    (Idealize.ShloMosaic.shapeCast_shapeCast (m (aLoc d) : IVec S4x4096 32) shapeCasts_S4x4096_S128x128 shapeCasts_S128x128_S4x4096)

theorem held_V1 (d : Dev nD) :
    (held (T d) S5 ((opIn (F := F)).result (V0 m d)) : sProp 𝕄)
      = iprop(aPts m d ∗ tPts m d ∗ xPts d (X2 m d) ∗ oPts d (m (oLoc d)) ∗ rPts d (m (rLoc d))) := by
  show held (SparseCore.T d) S5 (V1 m d) = _
  rw [held_S5, V1_a, V1_t, V1_x, V1_o, V1_r]

theorem V3_r (d : Dev nD) : (opOut (F := F)).result (V2 m d) r' = RES m d :=
  ((StableHlo.reshape_result (Val := Elt F) main_v1 main_v2 rfl shapeCasts_S128x128_S4x4096 ⟨by decide, rfl⟩ ⟨by decide, rfl⟩ (V2 m d)).trans
    (by rw [V2_o]; rfl)).trans (relaid_OUT m d)

theorem held_V3 (d : Dev nD) :
    (held (T d) S5 ((opOut (F := F)).result (V2 m d)) : sProp 𝕄)
      = iprop(aPts m d ∗ tPts m d ∗ xPts d (X2 m d) ∗ oPts d (OUT m d) ∗ rPts d (RES m d)) := by
  rw [held_S5,
    (opOut (F := F)).result_of_not_mem (V2 m d) (b := a') (show a' ∉ ({r'} : Finset (DevRef τ sig)) by decide),
    (opOut (F := F)).result_of_not_mem (V2 m d) (b := t') (show t' ∉ ({r'} : Finset (DevRef τ sig)) by decide),
    (opOut (F := F)).result_of_not_mem (V2 m d) (b := x') (show x' ∉ ({r'} : Finset (DevRef τ sig)) by decide),
    (opOut (F := F)).result_of_not_mem (V2 m d) (b := o') (show o' ∉ ({r'} : Finset (DevRef τ sig)) by decide),
    V3_r, V2_a, V2_t, V2_x, V2_o]

theorem st0_eq (d : Dev nD) : (bigSep Finset.univ fun c : Fin ((K (F := F)).nCore 0) => (P m).st 0 d c) = iprop(tPts m d ∗ xPts d (X2 m d) ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ xPts d (X2 m d) ∗ oPts d (OUT m d)) :=
  bigSep_univ_of_subsingleton (0 : Fin 1)

theorem hIn : (opIn (F := F)).bufs ⊆ S5 := show ({a', x'} : Finset (DevRef τ sig)) ⊆ S5 by decide
theorem hOut : (opOut (F := F)).bufs ⊆ S5 := show ({o', r'} : Finset (DevRef τ sig)) ⊆ S5 by decide

/-- What @main leaves the claim: the given ids and the table at their launch contents, the result at the lookup. -/
abbrev FIN (d : Dev nD) : sProp 𝕄 := iprop(aPts m d ∗ tPts m d ∗ rPts d (RES m d))

/-- @main on device `d`'s TensorCore: the re-laying of the ids, the call, the re-laying of the output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the ids re-laid
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  -- the call
  ihave Hh := (Entails.of_eq (held_V1 (F := F) m d)) $$ Hheld
  icases Hh with ⟨Ha, Ht, Hx, Ho, Hr⟩
  iapply ((K (F := F)).wp_run (D (F := F)) 𝒱 (EH := EH) (P := P m) κ d 0) $$ [Hst Ht Hx Ho Hb Ha Hr]
  isplitr; · iexact Hctx
  isplitl [Hst]; · iexact Hst
  isplitl [Ht Hx Ho]
  · rw [st0_eq]
    isplitl [Ht]; · iexact Ht
    isplitl [Hx]; · iexact Hx
    iexact Ho
  iintro ⟨Hst, Hdn⟩
  ihave Hdn' := (Entails.of_eq (dn0_eq m d)) $$ Hdn
  icases Hdn' with ⟨Ht, Hx, Ho⟩
  -- the output re-laid
  iapply (wp_hlo_within 𝒱 (SparseCore.T d) none Set.univ (op := opOut) (S := S5) hOut (V := V2 m d)) $$ [Hb Ha Ht Hx Ho Hr]
  · isplitl [Hb]; · iexact Hb
    rw [held_S5, V2_a, V2_t, V2_x, V2_o, V2_r]
    isplitl [Ha]; · iexact Ha
    isplitl [Ht]; · iexact Ht
    isplitl [Hx]; · iexact Hx
    isplitl [Ho]; · iexact Ho
    iexact Hr
  iintro ⟨Hb, Hheld⟩
  ihave Hh := (Entails.of_eq (held_V3 (F := F) m d)) $$ Hheld
  icases Hh with ⟨Ha, Ht, -, -, Hr⟩
  rw [wp_ret]; imodintro; imodintro
  isplitl [Hst]; · iexact Hst
  isplitl [Ha]; · iexact Ha
  isplitl [Ht]; · iexact Ht
  iexact Hr

def fq (d : Dev nD) (s' : Phys nD τ sig (Elt F)) : Prop :=
  s'.mem.mem (rLoc d) = RES m d ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Cert.KernelIdeal.Hand

end
-- ==== Proof.IdealSide.Launch.lean ====
/-
  The kernel's run. Sixteen tiles of one SparseCore each run the task; the TensorCore re-lays the ids, starts the
  SparseCore and waits for it, re-lays the output. With each tile's task proved at a symbolic place, the call's
  operands split among the tiles and gathered back, and @main proved on the TensorCore, the launch theorem gives:
  every weakly fair execution of the whole family of threads terminates, nothing faults, the result holds the lookup
  of the given ids, and the given ids and the table are unchanged.
-/
import proofs.«204486_g55619826483824_cont_9to1c4b_296_25_alg».proof.Proof.IdealSide.TileBody
import proofs.«204486_g55619826483824_cont_9to1c4b_296_25_alg».proof.Proof.IdealSide.Split
import proofs.«204486_g55619826483824_cont_9to1c4b_296_25_alg».proof.Proof.IdealSide.Main

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.KernelIdeal.main_arg1_scv : Memref Cert.KernelIdeal.sig Kind.scVector Space.hbm Cert.KernelIdeal.S100000 EltTy.i32)
local notation "xV" => (Memref.whole Cert.KernelIdeal.main_v0_scv : Memref Cert.KernelIdeal.sig Kind.scVector Space.hbm Cert.KernelIdeal.S128x128 EltTy.i32)
local notation "oV" => (Memref.whole Cert.KernelIdeal.main_v1_scv : Memref Cert.KernelIdeal.sig Kind.scVector Space.hbm Cert.KernelIdeal.S128x128 EltTy.i32)
local notation "sV" => (Memref.whole Cert.KernelIdeal.cc0_scratch0 : Memref Cert.KernelIdeal.sig Kind.scVector Space.vmem Cert.KernelIdeal.S8x128 EltTy.i32)
local notation "rV" => (Memref.whole Cert.KernelIdeal.cc0_scratch1 : Memref Cert.KernelIdeal.sig Kind.scVector Space.vmem Cert.KernelIdeal.S8x128 EltTy.i32)

variable (m : (ℓ : Loc nD τ sig) → Buf (Elt F) ℓ)
variable [FloatOps F]

/-! ## The program's run -/

/-- What the run leaves: on every device the result holds the lookup of the given ids, and the given ids and the
    table are as they were. -/
def QC : PUnit × MemSt nD τ sig (Elt F) → Prop := fun r =>
  ∀ c : Dev nD, r.2.mem (rLoc c) = RES m c ∧ r.2.mem (aLoc c) = m (aLoc c) ∧ r.2.mem (tLoc c) = m (tLoc c)

variable (ρ : Dev nD → PrngReg)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Hand

end
-- ==== Proof.BitsSide.Common.lean ====
/-
  What the parts of the kernel's certificate share. The program as the launch theorem sees it; the ghost state
  (the handshakes' rounds beside a copy of the transfers' counters: a tile only starts local copies and waits for
  them, so no schedule is needed); the five arrays of a device and what each holds at each moment — the ids
  re-laid as 128 rows of 128, the table, the rows looked up, and their re-laying as the result —; the eight rows of
  the ids and of the output that tile `i` owns, and the share of the table it reads.
-/
import proofs.«204486_g55619826483824_cont_9to1c4b_296_25_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Value
import Idealize.ShloMosaic.Lib.Tactic
import proofs.«204486_g55619826483824_cont_9to1c4b_296_25_alg».proof.Proof.Gen.Kernel
import proofs.«204486_g55619826483824_cont_9to1c4b_296_25_alg».proof.Proof.Gen.Kernel.Skeleton
import proofs.«204486_g55619826483824_cont_9to1c4b_296_25_alg».proof.Proof.Spec

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The ids as given (4 × 4096), the table, the ids re-laid (128 × 128), the rows looked up (128 × 128), the
    result (4 × 4096): as locations of device `d`. -/
abbrev aLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- What the re-laid ids hold once @main's first line has run: the given ids at the new shape. -/
def X2 (d : Dev nD) : Buf (Elt F) (xLoc d) := (shapeCast S128x128 (m (aLoc d) : IVec S4x4096 32) shapeCasts_S4x4096_S128x128 : IVec S128x128 32)
/-- What the looked-up rows hold once the call is over: the table at each re-laid id. -/
def OUT (d : Dev nD) : Buf (Elt F) (oLoc d) := (Cert.Spec.lookup (X2 m d : IVec S128x128 32) (m (tLoc d) : IVec S100000 32) : IVec S128x128 32)
/-- What the result holds at the end: the looked-up rows at the given ids' shape — the lookup of the given ids. -/
def RES (d : Dev nD) : Buf (Elt F) (rLoc d) := (Cert.Spec.lookup (m (aLoc d) : IVec S4x4096 32) (m (tLoc d) : IVec S100000 32) : IVec S4x4096 32)

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)

/-- Tile `i` owns rows `8i … 8i+7` of the re-laid ids and of the looked-up rows: the `i`-th of sixteen parts along
    axis 0 (pairwise disjoint, covering the array). -/
theorem rdiv : 16 ∣ S128x128.size 0 := ⟨8, rfl⟩
abbrev rowsOf (i : Fin 16) : Rect S128x128 := Rect.part (s := S128x128) (a₀ := 0) rdiv i
abbrev xRowSet (i : Fin 16) : Finset S128x128.Idx := ((xV).view.slice (rowsOf i)).set

/-- The output's 128 rows as 64 windows of two rows; tile `i` owns windows `4i … 4i+3`, one per copy-out. -/
theorem wdiv : 64 ∣ S128x128.size 0 := ⟨2, rfl⟩
abbrev winOf (k : Fin 64) : Rect S128x128 := Rect.part (s := S128x128) (a₀ := 0) wdiv k
abbrev oWinSet (k : Fin 64) : Finset S128x128.Idx := ((oV).view.slice (winOf k)).set
def wix (i : Fin 16) (r : Fin 4) : Fin 64 := ⟨r.val + 4 * i.val, by omega⟩

/-- Tile `i`'s read share of the table: the `i`-th of sixteen tokens of the full share. -/
abbrev tq (i : Fin 16) : PosShare TreeShare := Transfers.shareTok fullShare 16 i

variable [FloatOps F]

/-! ## What the handshakes carry -/

abbrev tPts (d : Dev nD) : sProp 𝕄 := tLoc d ↦{fullShare} m (tLoc d)
abbrev xPts (d : Dev nD) (f : Buf (Elt F) (xLoc d)) : sProp 𝕄 := xLoc d ↦{fullShare} f
abbrev oPts (d : Dev nD) (f : Buf (Elt F) (oLoc d)) : sProp 𝕄 := oLoc d ↦{fullShare} f
abbrev tShPts (d : Dev nD) (i : Fin 16) : sProp 𝕄 := tLoc d ↦{tq i} m (tLoc d)
abbrev xRowPts (d : Dev nD) (i : Fin 16) (f : Buf (Elt F) (xLoc d)) : sProp 𝕄 := xLoc d ↦[xRowSet i]{fullShare} f
abbrev oWinPts (d : Dev nD) (k : Fin 64) (f : Buf (Elt F) (oLoc d)) : sProp 𝕄 := oLoc d ↦[oWinSet k]{fullShare} f
abbrev oRowPts (d : Dev nD) (i : Fin 16) (f : Buf (Elt F) (oLoc d)) : sProp 𝕄 := bigSep Finset.univ fun r : Fin 4 => oWinPts d (wix i r) f

/-- The one call takes the table, the re-laid ids and the output array whole; each task its share of the table, its
    eight rows of the ids and of the output, and brings them back, the output's rows holding the table at those ids. -/
def P : (K (F := F)).Pay (nD := nD) (Val := Elt F) (Name := ℕ) (U := UU) where
  st := fun q d _ => match q with | 0 => iprop(tPts m d ∗ xPts d (X2 m d) ∗ oPts d (m (oLoc d)))
  dn := fun q d _ => match q with | 0 => iprop(tPts m d ∗ xPts d (X2 m d) ∗ oPts d (OUT m d))
  go := fun q d _ i => match q with
    | 0 => iprop(tShPts m d (Fin.cast nSub_zero i) ∗ xRowPts d (Fin.cast nSub_zero i) (X2 m d) ∗ oRowPts d (Fin.cast nSub_zero i) (m (oLoc d)))
  td := fun q d _ i => match q with
    | 0 => iprop(tShPts m d (Fin.cast nSub_zero i) ∗ xRowPts d (Fin.cast nSub_zero i) (X2 m d) ∗ oRowPts d (Fin.cast nSub_zero i) (OUT m d))
  x := fun _ _ => iprop(emp)

instance P_storable : (P (F := F) m).IsStorable where
  st q d _ := match q with
    | 0 => (inferInstance : BI.Storable (upEmb : UEmb _ 𝕄) iprop(tPts m d ∗ xPts d (X2 m d) ∗ oPts d (m (oLoc d))))
  dn q d _ := match q with
    | 0 => (inferInstance : BI.Storable (upEmb : UEmb _ 𝕄) iprop(tPts m d ∗ xPts d (X2 m d) ∗ oPts d (OUT m d)))
  go q d _ i := match q with
    | 0 => (inferInstance : BI.Storable (upEmb : UEmb _ 𝕄)
      iprop(tShPts m d (Fin.cast nSub_zero i) ∗ xRowPts d (Fin.cast nSub_zero i) (X2 m d) ∗ oRowPts d (Fin.cast nSub_zero i) (m (oLoc d))))
  td q d _ i := match q with
    | 0 => (inferInstance : BI.Storable (upEmb : UEmb _ 𝕄)
      iprop(tShPts m d (Fin.cast nSub_zero i) ∗ xRowPts d (Fin.cast nSub_zero i) (X2 m d) ∗ oRowPts d (Fin.cast nSub_zero i) (OUT m d)))

/-- What the proof asks of the launch memory: every id is below 100000, a row of the table. -/
def PreOK : Prop := ∀ (d : Dev nD) (j : S4x4096.Idx), ((m (aLoc d) : IVec S4x4096 32) j).toNat < 100000

end Cert.Kernel.Hand

end
-- ==== Proof.BitsSide.TileDefs.lean ====
/-
  A tile's task, named. The tile at grid point `L` runs on vector subcore `L 1` of SparseCore `L 0`. It copies its
  eight rows of the re-laid ids into its index scratch; for each row `j` it gathers, into row `j` of its value
  scratch, the table's words at the ids of that row; and it copies the value scratch out, two rows at a time, to its
  eight rows of the output. Here: the memrefs as the program slices them, and the contents each copy carries — the
  ids as they land, the words row `j`'s gather brings, the value scratch once all eight rows are written, and the two
  rows each copy-out reads of it.
-/
import proofs.«204486_g55619826483824_cont_9to1c4b_296_25_alg».proof.Proof.BitsSide.Common

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)
local notation "sV" => (Memref.whole Cert.Kernel.cc0_scratch0 : Memref Cert.Kernel.sig Kind.scVector Space.vmem Cert.Kernel.S8x128 EltTy.i32)
local notation "rV" => (Memref.whole Cert.Kernel.cc0_scratch1 : Memref Cert.Kernel.sig Kind.scVector Space.vmem Cert.Kernel.S8x128 EltTy.i32)

variable [FloatOps F]
variable (d : Dev nD) (L : grid0.Coords)

/-- The SparseCore and the vector subcore of grid point `L`. -/
abbrev cV (L : grid0.Coords) : Fin τ.nSC := (L 0).castLE hcore0
abbrev jV (L : grid0.Coords) : Fin τ.nSub := (L 1).castLE hsub0

/-- The tile's eight rows of the re-laid ids, its four two-row windows of the output, and the whole table: as the
    program slices them. -/
abbrev xBlk (L : grid0.Coords) : Memref sig .scVector .hbm S8x128 .i32 := (xV).slice (Rect.unit (s := S128x128) (k0_off1 L) S8x128.size (k0_off1_inb L)) (fun _ => rfl)
abbrev oWin0 (L : grid0.Coords) : Memref sig .scVector .hbm S2x128 .i32 := (oV).slice (Rect.unit (s := S128x128) (k0_off2 L 0#32) S2x128.size (k0_off2_inb L 0)) (fun _ => rfl)
abbrev oWin1 (L : grid0.Coords) : Memref sig .scVector .hbm S2x128 .i32 := (oV).slice (Rect.unit (s := S128x128) (k0_off2 L 2#32) S2x128.size (k0_off2_inb L 1)) (fun _ => rfl)
abbrev oWin2 (L : grid0.Coords) : Memref sig .scVector .hbm S2x128 .i32 := (oV).slice (Rect.unit (s := S128x128) (k0_off2 L 4#32) S2x128.size (k0_off2_inb L 2)) (fun _ => rfl)
abbrev oWin3 (L : grid0.Coords) : Memref sig .scVector .hbm S2x128 .i32 := (oV).slice (Rect.unit (s := S128x128) (k0_off2 L 6#32) S2x128.size (k0_off2_inb L 3)) (fun _ => rfl)
abbrev tAll : Memref sig .scVector .hbm S100000 .i32 := (tV).slice (Rect.unit (s := S100000) ![0] S100000.size inb_S100000_S100000_0) (fun _ => rfl)

/-- Row `j` of the index scratch and of the value scratch, as a vector of 128 words; rows `j, j+1` of the value
    scratch as a 2 × 128 block. -/
abbrev sRow (j : ℕ) (hk : ∀ a, (![j, 0] : Fin 2 → Nat) a + S1x128.size a ≤ S8x128.size a) : Memref sig .scVector .vmem S128 .i32 :=
  ((sV).slice (Rect.unit (s := S8x128) ![j, 0] S1x128.size hk) (fun _ => rfl)).squeeze S128 squeezes_S1x128_S128
abbrev rRow (j : ℕ) (hk : ∀ a, (![j, 0] : Fin 2 → Nat) a + S1x128.size a ≤ S8x128.size a) : Memref sig .scVector .vmem S128 .i32 :=
  ((rV).slice (Rect.unit (s := S8x128) ![j, 0] S1x128.size hk) (fun _ => rfl)).squeeze S128 squeezes_S1x128_S128
abbrev rPair (j : ℕ) (hk : ∀ a, (![j, 0] : Fin 2 → Nat) a + S2x128.size a ≤ S8x128.size a) : Memref sig .scVector .vmem S2x128 .i32 :=
  (rV).slice (Rect.unit (s := S8x128) ![j, 0] S2x128.size hk) (fun _ => rfl)

/-- The eight gathers' DMA semaphores, as the program names them. -/
abbrev gsem0 : DmaSem sig := ((cc0_scratch3.slice (Rect.unit (s := S8) ![0] S1.size inb_S8_S1_0)).squeeze S_ squeezes_S1_S_).sem
abbrev gsem1 : DmaSem sig := ((cc0_scratch3.slice (Rect.unit (s := S8) ![1] S1.size inb_S8_S1_1)).squeeze S_ squeezes_S1_S_).sem
abbrev gsem2 : DmaSem sig := ((cc0_scratch3.slice (Rect.unit (s := S8) ![2] S1.size inb_S8_S1_2)).squeeze S_ squeezes_S1_S_).sem
abbrev gsem3 : DmaSem sig := ((cc0_scratch3.slice (Rect.unit (s := S8) ![3] S1.size inb_S8_S1_3)).squeeze S_ squeezes_S1_S_).sem
abbrev gsem4 : DmaSem sig := ((cc0_scratch3.slice (Rect.unit (s := S8) ![4] S1.size inb_S8_S1_4)).squeeze S_ squeezes_S1_S_).sem
abbrev gsem5 : DmaSem sig := ((cc0_scratch3.slice (Rect.unit (s := S8) ![5] S1.size inb_S8_S1_5)).squeeze S_ squeezes_S1_S_).sem
abbrev gsem6 : DmaSem sig := ((cc0_scratch3.slice (Rect.unit (s := S8) ![6] S1.size inb_S8_S1_6)).squeeze S_ squeezes_S1_S_).sem
abbrev gsem7 : DmaSem sig := ((cc0_scratch3.slice (Rect.unit (s := S8) ![7] S1.size inb_S8_S1_7)).squeeze S_ squeezes_S1_S_).sem

/-- The ids as they land in the index scratch: the tile's eight rows of the re-laid ids `fx`. -/
abbrev idsLanded (L : grid0.Coords) (fx : Buf (Elt F) (xLoc d)) : S8x128.Idx → Elt F .i32 :=
  ReadAs.same.apply ((xBlk L).view.read (Elt F) fx)

/-- The index scratch after the fetch (whatever it held before: `fs`). -/
abbrev idsBuf (L : grid0.Coords) (fx : Buf (Elt F) (xLoc d)) (fs : Buf (Elt F) ((V d (cV L) (jV L)).loc cc0_scratch0)) :
    Buf (Elt F) ((V d (cV L) (jV L)).loc cc0_scratch0) := View.write (Elt F) (sV).view fs (idsLanded d L fx) Finset.univ

/-- Every id the tile fetched is a row of the table, when every re-laid id is: stated for each row `row` of the index
    scratch read as a list, over whatever the scratch held before. -/
theorem ids_inb (fx : Buf (Elt F) (xLoc d)) (hfx : ∀ j, ((fx : IVec S128x128 32) j).toNat < 100000)
    (fs : Buf (Elt F) ((V d (cV L) (jV L)).loc cc0_scratch0)) (pay : S8x128.Idx → Elt F .i32) (hpay : pay = idsLanded d L fx)
    (row : Fin 2 → Nat) (hk : ∀ a, row a + S1x128.size a ≤ S8x128.size a) (hq : (Rect.unit (s := S8x128) row S1x128.size hk).shape.Squeezes S128) :
    ∀ x, (View.read (Elt F) (((sV).slice (Rect.unit (s := S8x128) row S1x128.size hk) (fun _ => rfl)).squeeze S128 hq).view
      (View.write (Elt F) (sV).view fs pay Finset.univ) x).toNat < 100000 := by
  subst hpay; intro x
  rw [View.write_whole_univ]; unfold idsLanded; rw [ReadAs.apply_same, View.read_apply]
  rw [show ∀ j, (xBlk L).view.read (Elt F) fx j = fx ((xBlk L).view.emb j) from fun j => (View.read_apply _ _).trans (cast_eq _ _)]
  exact hfx _

/-- What row `j`'s gather brings: for each of the row's 128 places, the table's word at the id found there. -/
abbrev gathered (L : grid0.Coords) (fx : Buf (Elt F) (xLoc d)) (ft : Buf (Elt F) (tLoc d)) (fs : Buf (Elt F) ((V d (cV L) (jV L)).loc cc0_scratch0))
    (j : ℕ) (hk : ∀ a, (![j, 0] : Fin 2 → Nat) a + S1x128.size a ≤ S8x128.size a)
    (hin : ∀ x, (View.read (Elt F) (sRow j hk).view (idsBuf d L fx fs) x).toNat < S100000.size gathers_S100000_S128.axis) : S128.Idx → Elt F .i32 :=
  SparseCore.gatherPayload gathers_S100000_S128 (View.read (Elt F) (tAll).view ft)
    (SparseCore.rows (View.read (Elt F) (sRow j hk).view (idsBuf d L fx fs)) (rfl : S128.numel = S128.size gathers_S100000_S128.axis') hin)

/-- The value scratch once the eight rows `g 0 … g 7` are written over what it held before (`fr`). -/
abbrev valBuf (L : grid0.Coords) (fr : Buf (Elt F) ((V d (cV L) (jV L)).loc cc0_scratch1)) (g0 g1 g2 g3 g4 g5 g6 g7 : S128.Idx → Elt F .i32) :
    Buf (Elt F) ((V d (cV L) (jV L)).loc cc0_scratch1) :=
  View.write (Elt F) (rRow 7 inb_S8x128_S1x128_7_0).view
    (View.write (Elt F) (rRow 6 inb_S8x128_S1x128_6_0).view
      (View.write (Elt F) (rRow 5 inb_S8x128_S1x128_5_0).view
        (View.write (Elt F) (rRow 4 inb_S8x128_S1x128_4_0).view
          (View.write (Elt F) (rRow 3 inb_S8x128_S1x128_3_0).view
            (View.write (Elt F) (rRow 2 inb_S8x128_S1x128_2_0).view
              (View.write (Elt F) (rRow 1 inb_S8x128_S1x128_1_0).view
                (View.write (Elt F) (rRow 0 inb_S8x128_S1x128_0_0).view fr g0 Finset.univ)
                g1 Finset.univ) g2 Finset.univ) g3 Finset.univ) g4 Finset.univ) g5 Finset.univ) g6 Finset.univ) g7 Finset.univ

/-- What the copy-out of rows `j, j+1` carries: those two rows of the value scratch. -/
abbrev outPay (L : grid0.Coords) (j : ℕ) (hk : ∀ a, (![j, 0] : Fin 2 → Nat) a + S2x128.size a ≤ S8x128.size a)
    (w : Buf (Elt F) ((V d (cV L) (jV L)).loc cc0_scratch1)) : S2x128.Idx → Elt F .i32 :=
  ReadAs.same.apply (View.read (Elt F) (rPair j hk).view w)

end Cert.Kernel.Hand

end
-- ==== Proof.BitsSide.TileGeom.lean ====
/-
  Where things sit in a tile's two scratch arrays. Row `k` of an 8 × 128 scratch, taken as a vector of 128 words (the
  1 × 128 block at row `k` with its unit axis dropped), puts column `b` of the vector at place (`k`, `b`) of the scratch;
  the 2 × 128 block at row `j` puts its place (`a`, `b`) at (`j + a`, `b`). So a write through row `k` changes exactly the
  places whose row coordinate is `k`, and after the eight rows have been written one after the other, place (`a`, `b`)
  holds column `b` of the `a`-th payload, whatever the scratch held before. Likewise the index scratch, once the tile's
  8 × 128 block of ids has been copied over it whole, read through its row `j` gives row `j` of that block.
-/
import proofs.«204486_g55619826483824_cont_9to1c4b_296_25_alg».proof.Proof.BitsSide.TileDefs

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UU ℕ

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)
local notation "sV" => (Memref.whole Cert.Kernel.cc0_scratch0 : Memref Cert.Kernel.sig Kind.scVector Space.vmem Cert.Kernel.S8x128 EltTy.i32)
local notation "rV" => (Memref.whole Cert.Kernel.cc0_scratch1 : Memref Cert.Kernel.sig Kind.scVector Space.vmem Cert.Kernel.S8x128 EltTy.i32)

variable [FloatOps F]
variable (d : Dev nD) (L : grid0.Coords)

/-- Dropping the unit axis: the place of column `b` of a 128-vector in the 1 × 128 block it was squeezed from. -/
theorem sq_ix1 (h : S128.numel = (⟨2, ![1, 128]⟩ : Shape).numel) (b : Fin 128) :
    Shape.reshapeEquiv h (ix1 b) = ix2 (0 : Fin 1) b :=
  Shape.reshapeEquiv_eq_of_rowMajor h (by rw [Shape.rowMajor_val_two, Shape.rowMajor_val_one]; simp)

theorem rRow_emb (k : ℕ) (hk : ∀ a, (![k, 0] : Fin 2 → Nat) a + S1x128.size a ≤ S8x128.size a) (hk8 : k < 8) (b : Fin 128) :
    (rRow k hk).view.emb (ix1 b) = ix2 (⟨k, hk8⟩ : Fin 8) b := by
  funext a; apply Fin.ext
  show ((Rect.unit (s := S8x128) ![k, 0] S1x128.size hk).emb (Shape.reshapeEquiv _ (ix1 b)) a).val = _
  rw [Rect.emb_apply, sq_ix1]
  match a with
  | ⟨0, _⟩ => simp
  | ⟨1, _⟩ => simp

/-- The elements row `k` of the value scratch occupies: the indices whose row coordinate is `k`. -/
theorem rRow_not_mem (k : ℕ) (hk : ∀ a, (![k, 0] : Fin 2 → Nat) a + S1x128.size a ≤ S8x128.size a) (a : Fin 8) (b : Fin 128)
    (hne : a.val ≠ k) : (ix2 a b : S8x128.Idx) ∉ (rRow k hk).view.setOn Finset.univ := by
  rw [View.setOn_univ, Memref.set_view_squeeze]
  show _ ∉ ((rV).view.slice (Rect.unit (s := S8x128) ![k, 0] S1x128.size hk)).set
  rw [View.set_slice_whole, Rect.mem_set_unit]
  intro h
  obtain ⟨h1, h2⟩ := h 0
  have h1' : k ≤ a.val := h1
  have h2' : a.val < k + 1 := h2
  omega

/-- One row's write, read at any place of the scratch: the payload's column on the written row, the old contents elsewhere. -/
theorem rRow_write_ix2 (k : ℕ) (hk : ∀ a, (![k, 0] : Fin 2 → Nat) a + S1x128.size a ≤ S8x128.size a) (hk8 : k < 8)
    (f : (rRow k hk).view.ty.Contents (Elt F)) (g : S128.Idx → Elt F .i32) (a : Fin 8) (b : Fin 128) :
    View.write (Elt F) (rRow k hk).view f g Finset.univ (ix2 a b) = if a.val = k then g (ix1 b) else f (ix2 a b) := by
  by_cases h : a.val = k
  · rw [if_pos h]
    have e : (ix2 a b : S8x128.Idx) = (rRow k hk).view.emb (ix1 b) := by
      rw [rRow_emb k hk hk8 b]; congr 1; exact Fin.ext h
    rw [e, View.write_emb_of_mem _ _ (Finset.mem_univ _)]; exact cast_eq _ _
  · rw [if_neg h]; exact View.write_of_not_mem _ _ _ (rRow_not_mem k hk a b h)

/-- The value scratch after the eight row writes, read at row `a`, column `b`: row `a`'s payload at column `b`. -/
theorem valBuf_row (fr : Buf (Elt F) ((V d (cV L) (jV L)).loc cc0_scratch1)) (g0 g1 g2 g3 g4 g5 g6 g7 : S128.Idx → Elt F .i32)
    (a : Fin 8) (b : Fin 128) :
    valBuf d L fr g0 g1 g2 g3 g4 g5 g6 g7 (ix2 a b) = (![g0, g1, g2, g3, g4, g5, g6, g7] a) (ix1 b) := by
  unfold valBuf
  rw [rRow_write_ix2 7 _ (by omega), rRow_write_ix2 6 _ (by omega), rRow_write_ix2 5 _ (by omega), rRow_write_ix2 4 _ (by omega),
    rRow_write_ix2 3 _ (by omega), rRow_write_ix2 2 _ (by omega), rRow_write_ix2 1 _ (by omega), rRow_write_ix2 0 _ (by omega)]
  fin_cases a <;> rfl

theorem sRow_emb (k : ℕ) (hk : ∀ a, (![k, 0] : Fin 2 → Nat) a + S1x128.size a ≤ S8x128.size a) (hk8 : k < 8) (b : Fin 128) :
    (sRow k hk).view.emb (ix1 b) = ix2 (⟨k, hk8⟩ : Fin 8) b := by
  funext a; apply Fin.ext
  show ((Rect.unit (s := S8x128) ![k, 0] S1x128.size hk).emb (Shape.reshapeEquiv _ (ix1 b)) a).val = _
  rw [Rect.emb_apply, sq_ix1]
  match a with
  | ⟨0, _⟩ => simp
  | ⟨1, _⟩ => simp

/-- The index scratch after the fetch, read through row `j`: the tile's block of the ids at row `j`. -/
theorem idsBuf_row (fx : Buf (Elt F) (xLoc d)) (fs : Buf (Elt F) ((V d (cV L) (jV L)).loc cc0_scratch0))
    (j : ℕ) (hk : ∀ a, (![j, 0] : Fin 2 → Nat) a + S1x128.size a ≤ S8x128.size a) (hj : j < 8) (b : Fin 128) :
    View.read (Elt F) (sRow j hk).view (idsBuf d L fx fs) (ix1 b)
      = (fx : IVec S128x128 32) ((xBlk L).view.emb (ix2 (⟨j, hj⟩ : Fin 8) b)) := by
  rw [View.read_apply, sRow_emb j hk hj b]
  unfold idsBuf
  rw [View.write_whole_univ]; unfold idsLanded; rw [ReadAs.apply_same, View.read_apply]
  rfl

/-- A rank-one index is found again from its row-major position, which is its one coordinate. -/
theorem rowMajor_symm_ix1 (b : Fin 128) (k : Fin S128.numel) (hk : k.val = b.val) : S128.rowMajor.symm k = ix1 b := by
  rw [Equiv.symm_apply_eq]; apply Fin.ext; rw [Shape.rowMajor_val_one]; exact hk

/-- Rows `j, j+1` of the value scratch as a 2 × 128 block: place (`ya`, `yb`) of the block is row `j + ya`, column `yb`. -/
theorem rPair_emb (j : ℕ) (hk : ∀ a, (![j, 0] : Fin 2 → Nat) a + S2x128.size a ≤ S8x128.size a) (ya : Fin 2) (yb : Fin 128)
    (hj : j + ya.val < 8) : (rPair j hk).view.emb (ix2 ya yb) = ix2 (⟨j + ya.val, hj⟩ : Fin 8) yb := by
  funext a; apply Fin.ext
  show ((Rect.unit (s := S8x128) ![j, 0] S2x128.size hk).emb (ix2 ya yb) a).val = _
  rw [Rect.emb_apply]
  match a with
  | ⟨0, _⟩ => simp
  | ⟨1, _⟩ => simp

end Cert.Kernel.Hand

end
-- ==== Proof.BitsSide.TileValue.lean ====
/-
  What a tile's copy-outs write is the lookup. Row `j`'s gather brings, at column `b`, the table's word at the row named
  by the id at (`j`, `b`) of the tile's block of ids; an id below 100000 names its own row, so this is the lookup's value at
  that id. Hence the value scratch, once the eight gathers have landed, holds at (`a`, `b`) the lookup of the id at
  (`a`, `b`) of the block. The copy-out of rows `j, j+1` lands on the two-row window of the output that starts `j` rows
  below the tile's first row; place (`a`, `b`) of that window and place (`j + a`, `b`) of the tile's block of ids are the
  same index of the 128 × 128 array, so every element of the window ends up holding the lookup at its own index.
-/
import proofs.«204486_g55619826483824_cont_9to1c4b_296_25_alg».proof.Proof.BitsSide.TileGeom

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UU ℕ

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)
local notation "sV" => (Memref.whole Cert.Kernel.cc0_scratch0 : Memref Cert.Kernel.sig Kind.scVector Space.vmem Cert.Kernel.S8x128 EltTy.i32)
local notation "rV" => (Memref.whole Cert.Kernel.cc0_scratch1 : Memref Cert.Kernel.sig Kind.scVector Space.vmem Cert.Kernel.S8x128 EltTy.i32)

variable [FloatOps F]
variable (d : Dev nD) (L : grid0.Coords)

/-- What row `j`'s gather brings at column `b`: the table read at the row the id at (row `j`, column `b`) of the tile's block names. -/
theorem gathered_apply (fx : Buf (Elt F) (xLoc d)) (ft : Buf (Elt F) (tLoc d)) (fs : Buf (Elt F) ((V d (cV L) (jV L)).loc cc0_scratch0))
    (j : ℕ) (hk : ∀ a, (![j, 0] : Fin 2 → Nat) a + S1x128.size a ≤ S8x128.size a)
    (hin : ∀ x, (View.read (Elt F) (sRow j hk).view (idsBuf d L fx fs) x).toNat < S100000.size gathers_S100000_S128.axis)
    (hj : j < 8) (b : Fin 128) :
    gathered d L fx ft fs j hk hin (ix1 b)
      = Cert.Spec.tableAt (ft : IVec S100000 32) ((fx : IVec S128x128 32) ((xBlk L).view.emb (ix2 (⟨j, hj⟩ : Fin 8) b))) := by
  have hw := idsBuf_row d L fx fs j hk hj b
  have hlt := hin (ix1 b)
  rw [hw] at hlt
  unfold gathered SparseCore.gatherPayload Cert.Spec.tableAt
  rw [View.read_apply]
  refine (cast_eq _ _).trans (congrArg (ft : IVec S100000 32) ?_)
  funext a; apply Fin.ext
  match a with
  | ⟨0, _⟩ =>
    show 0 + 1 * ((gathers_S100000_S128.idx _ (ix1 b)) gathers_S100000_S128.axis).val = min _ 99999
    rw [Shape.Gathers.idx_axis]
    show 0 + 1 * (View.read (Elt F) (sRow j hk).view (idsBuf d L fx fs) (S128.rowMajor.symm _)).toNat = _
    rw [rowMajor_symm_ix1 b]
    · rw [hw]
      have : S100000.size gathers_S100000_S128.axis = 100000 := rfl
      omega
    · rfl

/-- The value scratch once all eight gathers have landed holds, at row `a` and column `b`, the table's word at the
    id found at row `a`, column `b` of the tile's block of ids. -/
theorem valBuf_lookup (fx : Buf (Elt F) (xLoc d)) (ft : Buf (Elt F) (tLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis)
    (a : Fin 8) (b : Fin 128) :
    valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7) (ix2 a b)
      = Cert.Spec.tableAt (ft : IVec S100000 32) ((fx : IVec S128x128 32) ((xBlk L).view.emb (ix2 a b))) := by
  rw [valBuf_row]
  fin_cases a
  · exact gathered_apply d L fx ft fs 0 _ h0 (by omega) b
  · exact gathered_apply d L fx ft fs 1 _ h1 (by omega) b
  · exact gathered_apply d L fx ft fs 2 _ h2 (by omega) b
  · exact gathered_apply d L fx ft fs 3 _ h3 (by omega) b
  · exact gathered_apply d L fx ft fs 4 _ h4 (by omega) b
  · exact gathered_apply d L fx ft fs 5 _ h5 (by omega) b
  · exact gathered_apply d L fx ft fs 6 _ h6 (by omega) b
  · exact gathered_apply d L fx ft fs 7 _ h7 (by omega) b

/-- One copy-out, read back: a two-row window of the output placed `j` rows below the tile's first row, written whole with
    rows `j, j+1` of a value scratch that holds the looked-up words of the tile's block, holds the lookup on its elements. -/
theorem out_window_gen (off : Fin 2 → ℕ) (inb : ∀ a, off a + S2x128.size a ≤ S128x128.size a)
    (j : ℕ) (hk : ∀ a, (![j, 0] : Fin 2 → Nat) a + S2x128.size a ≤ S8x128.size a) (hj : j + 2 ≤ 8)
    (hoff : off = ![8 * (L 1).val + 8 * (L 0).val + j, 0])
    (fx : Buf (Elt F) (xLoc d)) (ft : Buf (Elt F) (tLoc d)) (fo : Buf (Elt F) (oLoc d))
    (W : Buf (Elt F) ((V d (cV L) (jV L)).loc cc0_scratch1))
    (hW : ∀ (a : Fin 8) (b : Fin 128), W (ix2 a b)
      = Cert.Spec.tableAt (ft : IVec S100000 32) ((fx : IVec S128x128 32) ((xBlk L).view.emb (ix2 a b)))) :
    ∀ i ∈ ((oV).slice (Rect.unit (s := S128x128) off S2x128.size inb) (fun _ => rfl)).view.set,
      (((oV).slice (Rect.unit (s := S128x128) off S2x128.size inb) (fun _ => rfl)).view.writes (Elt F) fo
          [⟨Rect.whole S2x128, outPay d L j hk W⟩]) i
        = (Cert.Spec.lookup (fx : IVec S128x128 32) (ft : IVec S100000 32) : IVec S128x128 32) i := by
  intro i hi
  obtain ⟨y, -, rfl⟩ := Finset.mem_map.mp hi
  have hrd := congrFun (View.read_writes_whole ((oV).slice (Rect.unit (s := S128x128) off S2x128.size inb) (fun _ => rfl)).view fo (outPay d L j hk W)) y
  rw [View.read_apply] at hrd
  refine ((cast_eq _ _).symm.trans hrd).trans ?_
  obtain ⟨ya, yb, rfl⟩ : ∃ (ya : Fin 2) (yb : Fin 128), y = ix2 ya yb := ⟨y 0, y 1, eq_ix2 y⟩
  unfold outPay
  rw [ReadAs.apply_same, View.read_apply]
  refine (cast_eq _ _).trans ?_
  rw [rPair_emb j hk ya yb (by omega), hW, Cert.Spec.lookup_apply]
  refine congrArg (fun z => Cert.Spec.tableAt (ft : IVec S100000 32) ((fx : IVec S128x128 32) z)) ?_
  subst hoff
  funext a; apply Fin.ext
  show (k0_off1 L a + 1 * (ix2 (⟨j + ya.val, _⟩ : Fin 8) yb a).val) = (![8 * (L 1).val + 8 * (L 0).val + j, 0] : Fin 2 → ℕ) a + 1 * (ix2 ya yb a).val
  rw [k0_off1_eq]
  match a with
  | ⟨0, _⟩ =>
    show 8 * (L 1).val + 8 * (L 0).val + 1 * (j + ya.val) = 8 * (L 1).val + 8 * (L 0).val + j + 1 * ya.val
    omega
  | ⟨1, _⟩ => rfl

/-- The copy-out of rows 0, 1 of the value scratch: every element of the tile's output window 0 holds the lookup. -/
theorem out_window0 (fx : Buf (Elt F) (xLoc d)) (ft : Buf (Elt F) (tLoc d)) (fo : Buf (Elt F) (oLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis) :
    ∀ i ∈ (oWin0 L).view.set,
      ((oWin0 L).view.writes (Elt F) fo [⟨Rect.whole S2x128, outPay d L 0 inb_S8x128_S2x128_0_0
        (valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7))⟩]) i
        = (Cert.Spec.lookup (fx : IVec S128x128 32) (ft : IVec S100000 32) : IVec S128x128 32) i :=
  out_window_gen d L _ (k0_off2_inb L 0) 0 inb_S8x128_S2x128_0_0 (by omega) (k0_off2_eq L 0) fx ft fo _
    (valBuf_lookup d L fx ft fs fr h0 h1 h2 h3 h4 h5 h6 h7)

/-- The copy-out of rows 2, 3 of the value scratch: every element of the tile's output window 1 holds the lookup. -/
theorem out_window1 (fx : Buf (Elt F) (xLoc d)) (ft : Buf (Elt F) (tLoc d)) (fo : Buf (Elt F) (oLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis) :
    ∀ i ∈ (oWin1 L).view.set,
      ((oWin1 L).view.writes (Elt F) fo [⟨Rect.whole S2x128, outPay d L 2 inb_S8x128_S2x128_2_0
        (valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7))⟩]) i
        = (Cert.Spec.lookup (fx : IVec S128x128 32) (ft : IVec S100000 32) : IVec S128x128 32) i :=
  out_window_gen d L _ (k0_off2_inb L 1) 2 inb_S8x128_S2x128_2_0 (by omega) (k0_off2_eq L 1) fx ft fo _
    (valBuf_lookup d L fx ft fs fr h0 h1 h2 h3 h4 h5 h6 h7)

/-- The copy-out of rows 4, 5 of the value scratch: every element of the tile's output window 2 holds the lookup. -/
theorem out_window2 (fx : Buf (Elt F) (xLoc d)) (ft : Buf (Elt F) (tLoc d)) (fo : Buf (Elt F) (oLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis) :
    ∀ i ∈ (oWin2 L).view.set,
      ((oWin2 L).view.writes (Elt F) fo [⟨Rect.whole S2x128, outPay d L 4 inb_S8x128_S2x128_4_0
        (valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7))⟩]) i
        = (Cert.Spec.lookup (fx : IVec S128x128 32) (ft : IVec S100000 32) : IVec S128x128 32) i :=
  out_window_gen d L _ (k0_off2_inb L 2) 4 inb_S8x128_S2x128_4_0 (by omega) (k0_off2_eq L 2) fx ft fo _
    (valBuf_lookup d L fx ft fs fr h0 h1 h2 h3 h4 h5 h6 h7)

/-- The copy-out of rows 6, 7 of the value scratch: every element of the tile's output window 3 holds the lookup. -/
theorem out_window3 (fx : Buf (Elt F) (xLoc d)) (ft : Buf (Elt F) (tLoc d)) (fo : Buf (Elt F) (oLoc d))
    (fs : Buf (Elt F) ((V d (cV L) (jV L)).loc cc0_scratch0)) (fr : Buf (Elt F) ((V d (cV L) (jV L)).loc cc0_scratch1))
    (h0 : ∀ x, (View.read (Elt F) (sRow 0 inb_S8x128_S1x128_0_0).view (idsBuf d L fx fs) x).toNat < S100000.size gathers_S100000_S128.axis)
    (h1 : ∀ x, (View.read (Elt F) (sRow 1 inb_S8x128_S1x128_1_0).view (idsBuf d L fx fs) x).toNat < S100000.size gathers_S100000_S128.axis)
    (h2 : ∀ x, (View.read (Elt F) (sRow 2 inb_S8x128_S1x128_2_0).view (idsBuf d L fx fs) x).toNat < S100000.size gathers_S100000_S128.axis)
    (h3 : ∀ x, (View.read (Elt F) (sRow 3 inb_S8x128_S1x128_3_0).view (idsBuf d L fx fs) x).toNat < S100000.size gathers_S100000_S128.axis)
    (h4 : ∀ x, (View.read (Elt F) (sRow 4 inb_S8x128_S1x128_4_0).view (idsBuf d L fx fs) x).toNat < S100000.size gathers_S100000_S128.axis)
    (h5 : ∀ x, (View.read (Elt F) (sRow 5 inb_S8x128_S1x128_5_0).view (idsBuf d L fx fs) x).toNat < S100000.size gathers_S100000_S128.axis)
    (h6 : ∀ x, (View.read (Elt F) (sRow 6 inb_S8x128_S1x128_6_0).view (idsBuf d L fx fs) x).toNat < S100000.size gathers_S100000_S128.axis)
    (h7 : ∀ x, (View.read (Elt F) (sRow 7 inb_S8x128_S1x128_7_0).view (idsBuf d L fx fs) x).toNat < S100000.size gathers_S100000_S128.axis) :
    ∀ i ∈ (oWin3 L).view.set,
      ((oWin3 L).view.writes (Elt F) fo [⟨Rect.whole S2x128, outPay d L 6 inb_S8x128_S2x128_6_0
        (valBuf d L fr
          (gathered d L fx ft fs 0 inb_S8x128_S1x128_0_0 h0)
          (gathered d L fx ft fs 1 inb_S8x128_S1x128_1_0 h1)
          (gathered d L fx ft fs 2 inb_S8x128_S1x128_2_0 h2)
          (gathered d L fx ft fs 3 inb_S8x128_S1x128_3_0 h3)
          (gathered d L fx ft fs 4 inb_S8x128_S1x128_4_0 h4)
          (gathered d L fx ft fs 5 inb_S8x128_S1x128_5_0 h5)
          (gathered d L fx ft fs 6 inb_S8x128_S1x128_6_0 h6)
          (gathered d L fx ft fs 7 inb_S8x128_S1x128_7_0 h7))⟩]) i
        = (Cert.Spec.lookup (fx : IVec S128x128 32) (ft : IVec S100000 32) : IVec S128x128 32) i :=
  out_window_gen d L _ (k0_off2_inb L 3) 6 inb_S8x128_S2x128_6_0 (by omega) (k0_off2_eq L 3) fx ft fo _
    (valBuf_lookup d L fx ft fs fr h0 h1 h2 h3 h4 h5 h6 h7)

end Cert.Kernel.Hand

end
-- ==== Proof.BitsSide.Rows.lean ====
/-
  The program's slices are the parts the launch deals. The tile at grid point `L` fetches rows `8·(L 1) … 8·(L 1)+7`
  of the re-laid ids: part `L 1` of the sixteen eight-row parts. Its copy-out number `r` lands on rows
  `8·(L 1)+2r, 8·(L 1)+2r+1` of the output: part `4·(L 1)+r` of the sixty-four two-row parts. (The grid has one
  SparseCore, so the core coordinate `L 0` is zero and adds nothing to an offset.) And the whole arrays are the
  disjoint unions of their parts: the ids of sixteen, the output of sixty-four, taken four by four.
-/
import proofs.«204486_g55619826483824_cont_9to1c4b_296_25_alg».proof.Proof.BitsSide.TileDefs

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)
local notation "sV" => (Memref.whole Cert.Kernel.cc0_scratch0 : Memref Cert.Kernel.sig Kind.scVector Space.vmem Cert.Kernel.S8x128 EltTy.i32)
local notation "rV" => (Memref.whole Cert.Kernel.cc0_scratch1 : Memref Cert.Kernel.sig Kind.scVector Space.vmem Cert.Kernel.S8x128 EltTy.i32)

variable (L : grid0.Coords)

theorem bound_one : grid0.bound 1 = 16 := rfl
/-- The tile's number among the sixteen. -/
abbrev jL (L : grid0.Coords) : Fin 16 := Fin.cast bound_one (L 1)

/-- The grid has one SparseCore. -/
theorem core_zero : (L 0).val = 0 := by
  have h : (L 0).val < 1 := (L 0).isLt
  omega

theorem xBlk_rect_eq : Rect.unit (s := S128x128) (k0_off1 L) S8x128.size (k0_off1_inb L) = rowsOf (jL L) := by
  unfold rowsOf Rect.part Rect.block
  congr 1 <;> funext a
  · rw [k0_off1_eq, core_zero]
    match a with
    | 0 => simp [Shape.partIx, Shape.partSize]; omega
    | 1 => simp [Shape.partIx, Shape.partSize]
  · match a with
    | 0 => simp [Shape.partSize]
    | 1 => simp [Shape.partSize]

theorem off2_eq (r : Fin 4) : k0_off2 L (BitVec.ofNat 32 (2 * r.val)) = ![8 * (L 1).val + 2 * r.val, 0] := by
  rw [k0_off2_eq, core_zero]; simp

theorem oWin_rect_eq (r : Fin 4) :
    Rect.unit (s := S128x128) (k0_off2 L (BitVec.ofNat 32 (2 * r.val))) S2x128.size (k0_off2_inb L r) = winOf (wix (jL L) r) := by
  unfold winOf Rect.part Rect.block
  congr 1 <;> funext a
  · rw [off2_eq]
    match a with
    | 0 => simp [Shape.partIx, Shape.partSize, wix]; omega
    | 1 => simp [Shape.partIx, Shape.partSize]
  · match a with
    | 0 => simp [Shape.partSize]
    | 1 => simp [Shape.partSize]

theorem set_xBlk : (xBlk L).view.set = xRowSet (jL L) := by
  show ((xV).view.slice (Rect.unit (s := S128x128) (k0_off1 L) S8x128.size (k0_off1_inb L))).set = ((xV).view.slice (rowsOf (jL L))).set
  rw [xBlk_rect_eq]
theorem set_oWin0 : (oWin0 L).view.set = oWinSet (wix (jL L) 0) := by
  show ((oV).view.slice (Rect.unit (s := S128x128) (k0_off2 L (BitVec.ofNat 32 (2 * (0 : Fin 4).val))) S2x128.size (k0_off2_inb L 0))).set = _
  rw [oWin_rect_eq]
theorem set_oWin1 : (oWin1 L).view.set = oWinSet (wix (jL L) 1) := by
  show ((oV).view.slice (Rect.unit (s := S128x128) (k0_off2 L (BitVec.ofNat 32 (2 * (1 : Fin 4).val))) S2x128.size (k0_off2_inb L 1))).set = _
  rw [oWin_rect_eq]
theorem set_oWin2 : (oWin2 L).view.set = oWinSet (wix (jL L) 2) := by
  show ((oV).view.slice (Rect.unit (s := S128x128) (k0_off2 L (BitVec.ofNat 32 (2 * (2 : Fin 4).val))) S2x128.size (k0_off2_inb L 2))).set = _
  rw [oWin_rect_eq]
theorem set_oWin3 : (oWin3 L).view.set = oWinSet (wix (jL L) 3) := by
  show ((oV).view.slice (Rect.unit (s := S128x128) (k0_off2 L (BitVec.ofNat 32 (2 * (3 : Fin 4).val))) S2x128.size (k0_off2_inb L 3))).set = _
  rw [oWin_rect_eq]

end Cert.Kernel.Hand

end
-- ==== Proof.BitsSide.Split.lean ====
/-
  How the call's operands split among the sixteen tiles and come back. The table is read by every tile and written
  by none: the full share gives each tile one read token and keeps a remainder, and remainder and tokens join back to
  the full share. The re-laid ids are the disjoint union of sixteen eight-row parts, one per tile. The output is the
  disjoint union of sixty-four two-row windows; window number r + 4·i is tile i's r-th, so the sixty-four regroup as
  sixteen fours. Each array's whole points-to is therefore the separating product of its parts', at any contents:
  the same equation splits the output at its launch contents and joins it at its final contents.
-/
import proofs.«204486_g55619826483824_cont_9to1c4b_296_25_alg».proof.Proof.BitsSide.Rows

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)

variable (m : (ℓ : Loc nD τ sig) → Buf (Elt F) ℓ)

/-! ## The parts are disjoint and cover -/

/-- A tile's rows of the ids, as elements of the array: the part's own elements. -/
theorem xRowSet_eq (i : Fin 16) : xRowSet i = (rowsOf i).set := by
  show ((View.whole (main_v0_scv : Ref sig .scVector)).slice (rowsOf i)).set = _
  rw [View.set_slice]; exact Finset.map_refl
/-- A window of the output, as elements of the array: the part's own elements. -/
theorem oWinSet_eq (k : Fin 64) : oWinSet k = (winOf k).set := by
  show ((View.whole (main_v1_scv : Ref sig .scVector)).slice (winOf k)).set = _
  rw [View.set_slice]; exact Finset.map_refl

theorem xrows_disjoint : ∀ i ∈ (Finset.univ : Finset (Fin 16)), ∀ j ∈ (Finset.univ : Finset (Fin 16)), i ≠ j → Disjoint (xRowSet i) (xRowSet j) :=
  fun i _ j _ h => by rw [xRowSet_eq, xRowSet_eq]; exact Rect.part_disjoint rdiv h
theorem owins_disjoint : ∀ k ∈ (Finset.univ : Finset (Fin 64)), ∀ l ∈ (Finset.univ : Finset (Fin 64)), k ≠ l → Disjoint (oWinSet k) (oWinSet l) :=
  fun k _ l _ h => by rw [oWinSet_eq, oWinSet_eq]; exact Rect.part_disjoint wdiv h
theorem xrows_cover : (Finset.univ : Finset (Fin 16)).biUnion xRowSet = Finset.univ :=
  (Finset.biUnion_congr rfl fun i _ => xRowSet_eq i).trans (Rect.biUnion_part rdiv)
theorem owins_cover : (Finset.univ : Finset (Fin 64)).biUnion oWinSet = Finset.univ :=
  (Finset.biUnion_congr rfl fun k _ => oWinSet_eq k).trans (Rect.biUnion_part wdiv)

/-! ## Sixty-four windows are sixteen fours -/

/-- A separating product over the sixty-four windows, taken tile by tile and, within a tile, copy-out by copy-out:
    window r + 4·i is the pair (i, r) under the usual numbering of a product of two finite ranges. -/
theorem bigSep_wins (Φ : Fin 64 → sProp 𝕄) :
    bigSep Finset.univ Φ = bigSep Finset.univ fun i : Fin 16 => bigSep Finset.univ fun r : Fin 4 => Φ (wix i r) := by
  rw [bigSep_univ_equiv (finProdFinEquiv : Fin 16 × Fin 4 ≃ Fin 64) Φ, bigSep_univ_prod]
  exact bigSep_congr fun i _ => bigSep_congr fun r _ => congrArg Φ (Fin.ext rfl)

/-- A separating product over the tasks of the call is one over the sixteen tile numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The whole arrays as the products of their parts -/

/-- The ids whole are the sixteen tiles' rows. -/
theorem xPts_rows (d : Dev nD) (f : Buf (Elt F) (xLoc d)) :
    (xPts d f : sProp 𝕄) = bigSep Finset.univ fun i : Fin 16 => xRowPts d i f := by
  show (xLoc d ↦{fullShare} f : sProp 𝕄) = bigSep Finset.univ fun i : Fin 16 => xLoc d ↦[xRowSet i]{fullShare} f
  rw [← pointsTo_biUnion Finset.univ (ℓ := xLoc d) xRowSet xrows_disjoint, xrows_cover]; try rfl

/-- The output whole is its sixty-four windows … -/
theorem oPts_wins (d : Dev nD) (f : Buf (Elt F) (oLoc d)) :
    (oPts d f : sProp 𝕄) = bigSep Finset.univ fun k : Fin 64 => oWinPts d k f := by
  show (oLoc d ↦{fullShare} f : sProp 𝕄) = bigSep Finset.univ fun k : Fin 64 => oLoc d ↦[oWinSet k]{fullShare} f
  rw [← pointsTo_biUnion Finset.univ (ℓ := oLoc d) oWinSet owins_disjoint, owins_cover]; try rfl

/-- … that is, the sixteen tiles' four windows each. -/
theorem oPts_rows (d : Dev nD) (f : Buf (Elt F) (oLoc d)) :
    (oPts d f : sProp 𝕄) = bigSep Finset.univ fun i : Fin 16 => oRowPts d i f := by
  rw [oPts_wins, bigSep_wins]

/-- A tile's four windows, spelt out. -/
theorem oRowPts_four (d : Dev nD) (i : Fin 16) (f : Buf (Elt F) (oLoc d)) :
    (oRowPts d i f : sProp 𝕄) = iprop(oWinPts d (wix i 0) f ∗ oWinPts d (wix i 1) f ∗ oWinPts d (wix i 2) f ∗ oWinPts d (wix i 3) f) := by
  show (bigSep (Finset.univ : Finset (Fin 4)) fun r => oWinPts d (wix i r) f) = _
  rw [show (Finset.univ : Finset (Fin 4)) = {0, 1, 2, 3} by decide, SparseCore.bigSep_insert' (by decide),
    SparseCore.bigSep_insert' (by decide), SparseCore.bigSep_insert' (by decide), bigSep_singleton]

/-! ## The split -/

variable [FloatOps F]

theorem vecSplit : (K (F := F)).VecSplit' (P m) 0 := by
  intro d c
  show iprop(tPts m d ∗ xPts d (X2 m d) ∗ oPts d (m (oLoc d))) ⊢ |={Set.univ}=> iprop(
      (bigSep Finset.univ fun i : Fin ((K (F := F)).nSub 0) =>
        iprop(tShPts m d (Fin.cast nSub_zero i) ∗ xRowPts d (Fin.cast nSub_zero i) (X2 m d) ∗ oRowPts d (Fin.cast nSub_zero i) (m (oLoc d))))
      ∗ ((bigSep Finset.univ fun i : Fin ((K (F := F)).nSub 0) =>
          iprop(tShPts m d (Fin.cast nSub_zero i) ∗ xRowPts d (Fin.cast nSub_zero i) (X2 m d) ∗ oRowPts d (Fin.cast nSub_zero i) (OUT m d)))
          -∗ iprop(tPts m d ∗ xPts d (X2 m d) ∗ oPts d (OUT m d))))
  rw [bigSep_tasks (F := F) (fun i => iprop(tShPts m d i ∗ xRowPts d i (X2 m d) ∗ oRowPts d i (m (oLoc d)))),
    bigSep_tasks (F := F) (fun i => iprop(tShPts m d i ∗ xRowPts d i (X2 m d) ∗ oRowPts d i (OUT m d))),
    bigSep_sep', bigSep_sep', bigSep_sep', bigSep_sep']
  rw [xPts_rows d (X2 m d), oPts_rows d (m (oLoc d)), oPts_rows d (OUT m d)]
  iintro ⟨Ht, Hx, Ho⟩
  -- the table: one read token per tile, the remainder kept for the way back
  ihave Ht' := (Transfers.pointsTo_toks_split fullShare 16) $$ Ht
  icases Ht' with ⟨Hrem, Htoks⟩
  imodintro
  isplitl [Htoks Hx Ho]
  · isplitl [Htoks]; · iexact Htoks
    isplitl [Hx]; · iexact Hx
    iexact Ho
  iintro ⟨Htoks, Hx, Ho⟩
  isplitl [Hrem Htoks]
  · iapply (Transfers.pointsTo_toks_join fullShare 16)
    isplitl [Hrem]; · iexact Hrem
    iexact Htoks
  isplitl [Hx]; · iexact Hx
  iexact Ho

end Cert.Kernel.Hand

end
-- ==== Proof.BitsSide.TileBody.lean ====
/-
  A tile's task, run once at a symbolic grid point. The tile is handed its read share of the table, its eight rows of
  the re-laid ids and its four two-row windows of the output, and owns two scratch buffers and ten DMA semaphores.
  No copy it starts touches the source or the destination of another copy that is still pending: the fetch is waited
  for before any row of the index scratch is read as a list; row `j`'s gather writes row `j` of the value scratch
  only, and the copy-out of rows `2r, 2r+1` starts after those two gathers were waited for; the four copy-outs land
  on four disjoint windows. Every id is a row of the table (the precondition), so every gather's list names rows that
  exist. At the end each window holds the table at the ids of its two rows (the value lemmas), the shares and the
  scratch are back, every semaphore is at zero.
-/
import proofs.«204486_g55619826483824_cont_9to1c4b_296_25_alg».proof.Proof.BitsSide.TileValue
import proofs.«204486_g55619826483824_cont_9to1c4b_296_25_alg».proof.Proof.BitsSide.Split

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)
local notation "sV" => (Memref.whole Cert.Kernel.cc0_scratch0 : Memref Cert.Kernel.sig Kind.scVector Space.vmem Cert.Kernel.S8x128 EltTy.i32)
local notation "rV" => (Memref.whole Cert.Kernel.cc0_scratch1 : Memref Cert.Kernel.sig Kind.scVector Space.vmem Cert.Kernel.S8x128 EltTy.i32)

variable (m : (ℓ : Loc nD τ sig) → Buf (Elt F) ℓ)
variable [FloatOps F]
variable (d : Dev nD) (L : grid0.Coords)

/-! ## The tile's own semaphores and scratch buffers -/

abbrev cell0 (d : Dev nD) (L : grid0.Coords) : GSem nD τ sig := (V d (cV L) (jV L), SemLoc.dma (cc0_scratch2.sem))
abbrev cell1 (d : Dev nD) (L : grid0.Coords) : GSem nD τ sig := (V d (cV L) (jV L), SemLoc.dma gsem0)
abbrev cell2 (d : Dev nD) (L : grid0.Coords) : GSem nD τ sig := (V d (cV L) (jV L), SemLoc.dma gsem1)
abbrev cell3 (d : Dev nD) (L : grid0.Coords) : GSem nD τ sig := (V d (cV L) (jV L), SemLoc.dma gsem2)
abbrev cell4 (d : Dev nD) (L : grid0.Coords) : GSem nD τ sig := (V d (cV L) (jV L), SemLoc.dma gsem3)
abbrev cell5 (d : Dev nD) (L : grid0.Coords) : GSem nD τ sig := (V d (cV L) (jV L), SemLoc.dma gsem4)
abbrev cell6 (d : Dev nD) (L : grid0.Coords) : GSem nD τ sig := (V d (cV L) (jV L), SemLoc.dma gsem5)
abbrev cell7 (d : Dev nD) (L : grid0.Coords) : GSem nD τ sig := (V d (cV L) (jV L), SemLoc.dma gsem6)
abbrev cell8 (d : Dev nD) (L : grid0.Coords) : GSem nD τ sig := (V d (cV L) (jV L), SemLoc.dma gsem7)
abbrev cell9 (d : Dev nD) (L : grid0.Coords) : GSem nD τ sig := (V d (cV L) (jV L), SemLoc.dma (cc0_scratch4.sem))

omit [FloatOps F] in
theorem cell_ne {a b : DmaSem sig} (h : a ≠ b) : ((V d (cV L) (jV L), SemLoc.dma a) : GSem nD τ sig) ≠ (V d (cV L) (jV L), SemLoc.dma b) :=
  fun e => h (SemLoc.dma.inj (Prod.mk.inj e).2)

/-- The cells that are none of the ten. -/
abbrev restCells (d : Dev nD) (L : grid0.Coords) : Finset (GSem nD τ sig) := (((((((((((ownCells (V d (cV L) (jV L))).erase (cell0 d L)).erase (cell1 d L)).erase (cell2 d L)).erase (cell3 d L)).erase (cell4 d L)).erase (cell5 d L)).erase (cell6 d L)).erase (cell7 d L)).erase (cell8 d L)).erase (cell9 d L))

omit [FloatOps F] in
/-- The tile's own semaphores at zero: the fetch's, the eight gathers', the copy-outs', and the rest. -/
theorem ownSems0_V :
    (ownSems0 (V d (cV L) (jV L)) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0 ∗ semVal (cell7 d L) 0 ∗ semVal (cell8 d L) 0 ∗ semVal (cell9 d L) 0
          ∗ bigSep (restCells d L) fun g => semVal g 0) := by
  unfold SparseCore.Cfg.ownSems0
  rw [SparseCore.bigSep_erase' ((mem_ownCells (g := cell0 d L)).mpr ⟨rfl, by show (SemLoc.dma (cc0_scratch2.sem) : SemLoc sig).isScoped .scVector = true; decide⟩),
    SparseCore.bigSep_erase' (Finset.mem_erase.mpr ⟨cell_ne d L (by decide), (mem_ownCells (g := cell1 d L)).mpr ⟨rfl, by show (SemLoc.dma gsem0 : SemLoc sig).isScoped .scVector = true; decide⟩⟩),
    SparseCore.bigSep_erase' (Finset.mem_erase.mpr ⟨cell_ne d L (by decide), Finset.mem_erase.mpr ⟨cell_ne d L (by decide), (mem_ownCells (g := cell2 d L)).mpr ⟨rfl, by show (SemLoc.dma gsem1 : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell3 d L)).mpr ⟨rfl, by show (SemLoc.dma gsem2 : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell4 d L)).mpr ⟨rfl, by show (SemLoc.dma gsem3 : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell5 d L)).mpr ⟨rfl, by show (SemLoc.dma gsem4 : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell6 d L)).mpr ⟨rfl, by show (SemLoc.dma gsem5 : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell7 d L)).mpr ⟨rfl, by show (SemLoc.dma gsem6 : SemLoc sig).isScoped .scVector = true; decide⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell8 d L)).mpr ⟨rfl, by show (SemLoc.dma gsem7 : SemLoc sig).isScoped .scVector = true; decide⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell9 d L)).mpr ⟨rfl, by show (SemLoc.dma (cc0_scratch4.sem) : SemLoc sig).isScoped .scVector = true; decide⟩⟩⟩⟩⟩⟩⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem pts_xBlk (f : Buf (Elt F) (xLoc d)) :
    ((xBlk L).view.loc (V d (cV L) (jV L)) ↦[(xBlk L).view.set]{fullShare} f : sProp 𝕄) = xLoc d ↦[xRowSet (jL L)]{fullShare} f := by
  rw [set_xBlk]
omit [FloatOps F] in
theorem pts_oWin0 (f : Buf (Elt F) (oLoc d)) :
    ((oWin0 L).view.loc (V d (cV L) (jV L)) ↦[(oWin0 L).view.set]{fullShare} f : sProp 𝕄) = oWinPts d (wix (jL L) 0) f := by
  rw [set_oWin0]
omit [FloatOps F] in
theorem pts_oWin1 (f : Buf (Elt F) (oLoc d)) :
    ((oWin1 L).view.loc (V d (cV L) (jV L)) ↦[(oWin1 L).view.set]{fullShare} f : sProp 𝕄) = oWinPts d (wix (jL L) 1) f := by
  rw [set_oWin1]
omit [FloatOps F] in
theorem pts_oWin2 (f : Buf (Elt F) (oLoc d)) :
    ((oWin2 L).view.loc (V d (cV L) (jV L)) ↦[(oWin2 L).view.set]{fullShare} f : sProp 𝕄) = oWinPts d (wix (jL L) 2) f := by
  rw [set_oWin2]
omit [FloatOps F] in
theorem pts_oWin3 (f : Buf (Elt F) (oLoc d)) :
    ((oWin3 L).view.loc (V d (cV L) (jV L)) ↦[(oWin3 L).view.set]{fullShare} f : sProp 𝕄) = oWinPts d (wix (jL L) 3) f := by
  rw [set_oWin3]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- Every re-laid id is a row of the table when every given id is. -/
theorem X2_lt (hpre : PreOK m) : ∀ j, ((X2 m d : IVec S128x128 32) j).toNat < 100000 := by
  intro j; exact hpre d _

set_option maxHeartbeats 8000000 in
/-- The task on vector subcore `(L 0, L 1)` of device `d`: the fetch of its eight rows of ids and its wait; the eight
    gathers, each reading the table through its own read token; their waits two by two, each pair followed by the
    copy-out of its two rows; the four copy-outs' waits. At the end the tile's four output windows hold the table at
    the ids of its rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tShPts m d (jL L) ∗ xRowPts d (jL L) (X2 m d) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__router_gather L tV (Memref.isWhole_whole _) xV (Memref.isWhole_whole _) oV (Memref.isWhole_whole _)
            sV (Memref.isWhole_whole _) rV (Memref.isWhole_whole _) cc0_scratch2 cc0_scratch3 cc0_scratch4)
          fun _ => iprop((tShPts m d (jL L) ∗ xRowPts d (jL L) (X2 m d) ∗ oRowPts d (jL L) (OUT m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V,
    oRowPts_four, oRowPts_four]
  iintro ⟨#Hlv, -, ⟨Ht, Hx, Ho0, Ho1, Ho2, Ho3⟩, ⟨⟨%fs, Hs⟩, ⟨%fr, Hr⟩, Hbufs⟩, ⟨Hc0, Hc1, Hc2, Hc3, Hc4, Hc5, Hc6, Hc7, Hc8, Hc9, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  -- the table's share, cut into one read token per gather
  ihave Htt := (Transfers.pointsTo_toks_split (ℓ := tLoc d) (S := Finset.univ) (f := m (tLoc d)) (tq (jL L)) 8) $$ Ht
  icases Htt with ⟨Htrem, Htoks⟩
  ihave Htk := (Entails.of_eq (bigSep_fin8 (F := F) fun i : Fin 8 => (tLoc d ↦{Transfers.shareTok (tq (jL L)) 8 i} m (tLoc d) : sProp 𝕄))) $$ Htoks
  icases Htk with ⟨Ht0, Ht1, Ht2, Ht3, Ht4, Ht5, Ht6, Ht7⟩
  -- the operands in the program's spelling
  ihave Gx := (Entails.of_eq (pts_xBlk (F := F) d L _).symm) $$ Hx
  ihave Go0 := (Entails.of_eq (pts_oWin0 (F := F) d L _).symm) $$ Ho0
  ihave Go1 := (Entails.of_eq (pts_oWin1 (F := F) d L _).symm) $$ Ho1
  ihave Go2 := (Entails.of_eq (pts_oWin2 (F := F) d L _).symm) $$ Ho2
  ihave Go3 := (Entails.of_eq (pts_oWin3 (F := F) d L _).symm) $$ Ho3
  ihave Gs := (Entails.of_eq (pts_sV (F := F) d L _).symm) $$ Hs
  ihave Gr := (Entails.of_eq (pts_rV (F := F) d L _).symm) $$ Hr
  ihave Gt0 := (Entails.of_eq (pts_tV (F := F) d L _ _).symm) $$ Ht0
  ihave Gt1 := (Entails.of_eq (pts_tV (F := F) d L _ _).symm) $$ Ht1
  ihave Gt2 := (Entails.of_eq (pts_tV (F := F) d L _ _).symm) $$ Ht2
  ihave Gt3 := (Entails.of_eq (pts_tV (F := F) d L _ _).symm) $$ Ht3
  ihave Gt4 := (Entails.of_eq (pts_tV (F := F) d L _ _).symm) $$ Ht4
  ihave Gt5 := (Entails.of_eq (pts_tV (F := F) d L _ _).symm) $$ Ht5
  ihave Gt6 := (Entails.of_eq (pts_tV (F := F) d L _ _).symm) $$ Ht6
  ihave Gt7 := (Entails.of_eq (pts_tV (F := F) d L _ _).symm) $$ Ht7
  have hfx := X2_lt m d hpre
  have hB : Transfers.BatchOf (V d (cV L) (jV L)) (SemLoc.dma cc0_scratch4.sem) 4 := trivial
  sl_unfold [cc0__router_gather]
  sl_exec
  have hidx0 := fun g => ids_inb (F := F) d L (X2 m d) hfx g (tile_body.sl.dma0 m d L) rfl ![0, 0] inb_S8x128_S1x128_0_0 squeezes_S1x128_S128
  have hidx1 := fun g => ids_inb (F := F) d L (X2 m d) hfx g (tile_body.sl.dma0 m d L) rfl ![1, 0] inb_S8x128_S1x128_1_0 squeezes_S1x128_S128
  have hidx2 := fun g => ids_inb (F := F) d L (X2 m d) hfx g (tile_body.sl.dma0 m d L) rfl ![2, 0] inb_S8x128_S1x128_2_0 squeezes_S1x128_S128
  have hidx3 := fun g => ids_inb (F := F) d L (X2 m d) hfx g (tile_body.sl.dma0 m d L) rfl ![3, 0] inb_S8x128_S1x128_3_0 squeezes_S1x128_S128
  have hidx4 := fun g => ids_inb (F := F) d L (X2 m d) hfx g (tile_body.sl.dma0 m d L) rfl ![4, 0] inb_S8x128_S1x128_4_0 squeezes_S1x128_S128
  have hidx5 := fun g => ids_inb (F := F) d L (X2 m d) hfx g (tile_body.sl.dma0 m d L) rfl ![5, 0] inb_S8x128_S1x128_5_0 squeezes_S1x128_S128
  have hidx6 := fun g => ids_inb (F := F) d L (X2 m d) hfx g (tile_body.sl.dma0 m d L) rfl ![6, 0] inb_S8x128_S1x128_6_0 squeezes_S1x128_S128
  have hidx7 := fun g => ids_inb (F := F) d L (X2 m d) hfx g (tile_body.sl.dma0 m d L) rfl ![7, 0] inb_S8x128_S1x128_7_0 squeezes_S1x128_S128
  sl_exec
  sl_step
  -- what the four windows hold is the lookup of the re-laid ids
  ihave Fo0 := (Entails.of_eq (pointsTo_congr (out_window0 (F := F) d L (X2 m d) (m (tLoc d)) (m (oLoc d)) fs fr (hidx0 fs) (hidx1 fs) (hidx2 fs) (hidx3 fs) (hidx4 fs) (hidx5 fs) (hidx6 fs) (hidx7 fs)))) $$ Go0
  ihave Fo1 := (Entails.of_eq (pointsTo_congr (out_window1 (F := F) d L (X2 m d) (m (tLoc d)) (m (oLoc d)) fs fr (hidx0 fs) (hidx1 fs) (hidx2 fs) (hidx3 fs) (hidx4 fs) (hidx5 fs) (hidx6 fs) (hidx7 fs)))) $$ Go1
  ihave Fo2 := (Entails.of_eq (pointsTo_congr (out_window2 (F := F) d L (X2 m d) (m (tLoc d)) (m (oLoc d)) fs fr (hidx0 fs) (hidx1 fs) (hidx2 fs) (hidx3 fs) (hidx4 fs) (hidx5 fs) (hidx6 fs) (hidx7 fs)))) $$ Go2
  ihave Fo3 := (Entails.of_eq (pointsTo_congr (out_window3 (F := F) d L (X2 m d) (m (tLoc d)) (m (oLoc d)) fs fr (hidx0 fs) (hidx1 fs) (hidx2 fs) (hidx3 fs) (hidx4 fs) (hidx5 fs) (hidx6 fs) (hidx7 fs)))) $$ Go3
  -- the read tokens rejoin the tile's share of the table
  ihave Htoks := (Entails.of_eq (bigSep_fin8 (F := F) fun i : Fin 8 => (tLoc d ↦{Transfers.shareTok (tq (jL L)) 8 i} m (tLoc d) : sProp 𝕄)).symm) $$ [Gt0 Gt1 Gt2 Gt3 Gt4 Gt5 Gt6 Gt7]
  · isplitl [Gt0]; · iexact Gt0
    isplitl [Gt1]; · iexact Gt1
    isplitl [Gt2]; · iexact Gt2
    isplitl [Gt3]; · iexact Gt3
    isplitl [Gt4]; · iexact Gt4
    isplitl [Gt5]; · iexact Gt5
    isplitl [Gt6]; · iexact Gt6
    iexact Gt7
  ihave Ht := (Transfers.pointsTo_toks_join (ℓ := tLoc d) (S := Finset.univ) (f := m (tLoc d)) (tq (jL L)) 8) $$ [Htrem Htoks]
  · isplitl [Htrem] <;> iassumption
  isplitl [Ht Gx Fo0 Fo1 Fo2 Fo3]
  · isplitl [Ht]; · iexact Ht
    isplitl [Gx]; · iapply (Entails.of_eq (pts_xBlk (F := F) d L _)); iexact Gx
    isplitl [Fo0]; · iapply (Entails.of_eq (pts_oWin0 (F := F) d L _)); iexact Fo0
    isplitl [Fo1]; · iapply (Entails.of_eq (pts_oWin1 (F := F) d L _)); iexact Fo1
    isplitl [Fo2]; · iapply (Entails.of_eq (pts_oWin2 (F := F) d L _)); iexact Fo2
    iapply (Entails.of_eq (pts_oWin3 (F := F) d L _)); iexact Fo3
  isplitl [Gs Gr Hbufs]
  · isplitl [Gs]; · iexists _; iexact Gs
    isplitl [Gr]; · iexists _; iexact Gr
    iexact Hbufs
  isplitl [Hc0 Hc1 Hc2 Hc3 Hc4 Hc5 Hc6 Hc7 Hc8 Hc9 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    iexact Hsems
  iexists _; isplitr
  swap; · iexact HO
  ipureintro; intro p hp
  simp only [Finset.mem_insert] at hp
  rcases hp with hp | hp | hp | hp | hp | hp | hp | hp | hp | hp | hp | hp | hp | hp
  all_goals first | exact .inl hp | exact .inr (hp ▸ rfl)

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__router_gather (coordsV c s)
          tV (Memref.isWhole_whole _) xV (Memref.isWhole_whole _) oV (Memref.isWhole_whole _)
          sV (Memref.isWhole_whole _) rV (Memref.isWhole_whole _) cc0_scratch2 cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Kernel.Hand

end
-- ==== Proof.BitsSide.Main.lean ====
/-
  @main on the TensorCore. Its three lines: the given ids re-laid as 128 rows of 128; the call, which takes the table,
  the re-laid ids and the output array to the SparseCore and brings them back, the output holding the table at each
  re-laid id; and the output re-laid at the given ids' shape. A lookup acts place by place, so re-laying its result
  is looking up the re-laid ids, and re-laying twice is the identity: the result is the lookup of the given ids.
  The given ids and the table are never written.
-/
import proofs.«204486_g55619826483824_cont_9to1c4b_296_25_alg».proof.Proof.BitsSide.Common

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)
local notation "sV" => (Memref.whole Cert.Kernel.cc0_scratch0 : Memref Cert.Kernel.sig Kind.scVector Space.vmem Cert.Kernel.S8x128 EltTy.i32)
local notation "rV" => (Memref.whole Cert.Kernel.cc0_scratch1 : Memref Cert.Kernel.sig Kind.scVector Space.vmem Cert.Kernel.S8x128 EltTy.i32)

open Idealize.ShloMosaic.StableHlo (held held_split held_sdiff_result wp_hlo_within)

variable (m : (ℓ : Loc nD τ sig) → Buf (Elt F) ℓ) (ρ : Dev nD → PrngReg)

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The five arrays and the two re-layings -/

abbrev a' : DevRef τ sig := Proc.devRef .tc (main_arg0 : Ref sig .tc)
abbrev t' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 rfl shapeCasts_S4x4096_S128x128
abbrev opOut : HloOp τ sig (Elt F) := StableHlo.reshape main_v1 main_v2 rfl shapeCasts_S128x128_S4x4096

abbrev S5 : Finset (DevRef τ sig) := {a', t', x', o', r'}

abbrev aPts (d : Dev nD) : sProp 𝕄 := aLoc d ↦{fullShare} m (aLoc d)
abbrev rPts (d : Dev nD) (f : Buf (Elt F) (rLoc d)) : sProp 𝕄 := rLoc d ↦{fullShare} f

omit [FloatOps F] in
theorem held_S5 (d : Dev nD) (W : Valuation τ sig (Elt F)) :
    (held (T d) S5 W : sProp 𝕄)
      = iprop((aLoc d ↦{fullShare} W a') ∗ (tLoc d ↦{fullShare} W t') ∗ (xLoc d ↦{fullShare} W x') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (xLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first re-laying; after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (OUT m d)

theorem unscoped_held (d : Dev nD) : (unscopedBufs d (fun b => m ((SparseCore.T d).loc b)) : sProp 𝕄) = held (T d) S5 (V0 m d) := by
  rw [unscopedBufs_eq, held_S5]; rfl

theorem V1_a (d : Dev nD) : V1 m d a' = m (aLoc d) := (opIn (F := F)).result_of_not_mem _ (show a' ∉ ({x'} : Finset (DevRef τ sig)) by decide)
theorem V1_t (d : Dev nD) : V1 m d t' = m (tLoc d) := (opIn (F := F)).result_of_not_mem _ (show t' ∉ ({x'} : Finset (DevRef τ sig)) by decide)
theorem V1_o (d : Dev nD) : V1 m d o' = m (oLoc d) := (opIn (F := F)).result_of_not_mem _ (show o' ∉ ({x'} : Finset (DevRef τ sig)) by decide)
theorem V1_r (d : Dev nD) : V1 m d r' = m (rLoc d) := (opIn (F := F)).result_of_not_mem _ (show r' ∉ ({x'} : Finset (DevRef τ sig)) by decide)
theorem V1_x (d : Dev nD) : V1 m d x' = X2 m d :=
  (StableHlo.reshape_result (Val := Elt F) main_arg0 main_v0 rfl shapeCasts_S4x4096_S128x128 ⟨by decide, rfl⟩ ⟨by decide, rfl⟩ (V0 m d)).trans rfl

theorem V2_a (d : Dev nD) : V2 m d a' = m (aLoc d) := (Function.update_of_ne (show a' ≠ o' by decide) _ _).trans (V1_a m d)
theorem V2_t (d : Dev nD) : V2 m d t' = m (tLoc d) := (Function.update_of_ne (show t' ≠ o' by decide) _ _).trans (V1_t m d)
theorem V2_x (d : Dev nD) : V2 m d x' = X2 m d := (Function.update_of_ne (show x' ≠ o' by decide) _ _).trans (V1_x m d)
theorem V2_o (d : Dev nD) : V2 m d o' = OUT m d := Function.update_self _ _ _
theorem V2_r (d : Dev nD) : V2 m d r' = m (rLoc d) := (Function.update_of_ne (show r' ≠ o' by decide) _ _).trans (V1_r m d)

/-- Re-laying the looked-up rows at the given ids' shape is looking up the given ids. -/
theorem relaid_OUT (d : Dev nD) :
    (shapeCast S4x4096 (OUT m d : IVec S128x128 32) shapeCasts_S128x128_S4x4096 : IVec S4x4096 32) = (RES m d : IVec S4x4096 32) := by
  unfold OUT RES X2
  rw [Cert.Spec.shapeCast_lookup]
  exact congrArg (fun x : IVec S4x4096 32 => Cert.Spec.lookup x (m (tLoc d) : IVec S100000 32))
    (Idealize.ShloMosaic.shapeCast_shapeCast (m (aLoc d) : IVec S4x4096 32) shapeCasts_S4x4096_S128x128 shapeCasts_S128x128_S4x4096)

theorem held_V1 (d : Dev nD) :
    (held (T d) S5 ((opIn (F := F)).result (V0 m d)) : sProp 𝕄)
      = iprop(aPts m d ∗ tPts m d ∗ xPts d (X2 m d) ∗ oPts d (m (oLoc d)) ∗ rPts d (m (rLoc d))) := by
  show held (SparseCore.T d) S5 (V1 m d) = _
  rw [held_S5, V1_a, V1_t, V1_x, V1_o, V1_r]

theorem V3_r (d : Dev nD) : (opOut (F := F)).result (V2 m d) r' = RES m d :=
  ((StableHlo.reshape_result (Val := Elt F) main_v1 main_v2 rfl shapeCasts_S128x128_S4x4096 ⟨by decide, rfl⟩ ⟨by decide, rfl⟩ (V2 m d)).trans
    (by rw [V2_o]; rfl)).trans (relaid_OUT m d)

theorem held_V3 (d : Dev nD) :
    (held (T d) S5 ((opOut (F := F)).result (V2 m d)) : sProp 𝕄)
      = iprop(aPts m d ∗ tPts m d ∗ xPts d (X2 m d) ∗ oPts d (OUT m d) ∗ rPts d (RES m d)) := by
  rw [held_S5,
    (opOut (F := F)).result_of_not_mem (V2 m d) (b := a') (show a' ∉ ({r'} : Finset (DevRef τ sig)) by decide),
    (opOut (F := F)).result_of_not_mem (V2 m d) (b := t') (show t' ∉ ({r'} : Finset (DevRef τ sig)) by decide),
    (opOut (F := F)).result_of_not_mem (V2 m d) (b := x') (show x' ∉ ({r'} : Finset (DevRef τ sig)) by decide),
    (opOut (F := F)).result_of_not_mem (V2 m d) (b := o') (show o' ∉ ({r'} : Finset (DevRef τ sig)) by decide),
    V3_r, V2_a, V2_t, V2_x, V2_o]

theorem st0_eq (d : Dev nD) : (bigSep Finset.univ fun c : Fin ((K (F := F)).nCore 0) => (P m).st 0 d c) = iprop(tPts m d ∗ xPts d (X2 m d) ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ xPts d (X2 m d) ∗ oPts d (OUT m d)) :=
  bigSep_univ_of_subsingleton (0 : Fin 1)

theorem hIn : (opIn (F := F)).bufs ⊆ S5 := show ({a', x'} : Finset (DevRef τ sig)) ⊆ S5 by decide
theorem hOut : (opOut (F := F)).bufs ⊆ S5 := show ({o', r'} : Finset (DevRef τ sig)) ⊆ S5 by decide

/-- What @main leaves the claim: the given ids and the table at their launch contents, the result at the lookup. -/
abbrev FIN (d : Dev nD) : sProp 𝕄 := iprop(aPts m d ∗ tPts m d ∗ rPts d (RES m d))

/-- @main on device `d`'s TensorCore: the re-laying of the ids, the call, the re-laying of the output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the ids re-laid
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  -- the call
  ihave Hh := (Entails.of_eq (held_V1 (F := F) m d)) $$ Hheld
  icases Hh with ⟨Ha, Ht, Hx, Ho, Hr⟩
  iapply ((K (F := F)).wp_run (D (F := F)) 𝒱 (EH := EH) (P := P m) κ d 0) $$ [Hst Ht Hx Ho Hb Ha Hr]
  isplitr; · iexact Hctx
  isplitl [Hst]; · iexact Hst
  isplitl [Ht Hx Ho]
  · rw [st0_eq]
    isplitl [Ht]; · iexact Ht
    isplitl [Hx]; · iexact Hx
    iexact Ho
  iintro ⟨Hst, Hdn⟩
  ihave Hdn' := (Entails.of_eq (dn0_eq m d)) $$ Hdn
  icases Hdn' with ⟨Ht, Hx, Ho⟩
  -- the output re-laid
  iapply (wp_hlo_within 𝒱 (SparseCore.T d) none Set.univ (op := opOut) (S := S5) hOut (V := V2 m d)) $$ [Hb Ha Ht Hx Ho Hr]
  · isplitl [Hb]; · iexact Hb
    rw [held_S5, V2_a, V2_t, V2_x, V2_o, V2_r]
    isplitl [Ha]; · iexact Ha
    isplitl [Ht]; · iexact Ht
    isplitl [Hx]; · iexact Hx
    isplitl [Ho]; · iexact Ho
    iexact Hr
  iintro ⟨Hb, Hheld⟩
  ihave Hh := (Entails.of_eq (held_V3 (F := F) m d)) $$ Hheld
  icases Hh with ⟨Ha, Ht, -, -, Hr⟩
  rw [wp_ret]; imodintro; imodintro
  isplitl [Hst]; · iexact Hst
  isplitl [Ha]; · iexact Ha
  isplitl [Ht]; · iexact Ht
  iexact Hr

def fq (d : Dev nD) (s' : Phys nD τ sig (Elt F)) : Prop :=
  s'.mem.mem (rLoc d) = RES m d ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Cert.Kernel.Hand

end
-- ==== Proof.BitsSide.Launch.lean ====
/-
  The kernel's run. Sixteen tiles of one SparseCore each run the task; the TensorCore re-lays the ids, starts the
  SparseCore and waits for it, re-lays the output. With each tile's task proved at a symbolic place, the call's
  operands split among the tiles and gathered back, and @main proved on the TensorCore, the launch theorem gives:
  every weakly fair execution of the whole family of threads terminates, nothing faults, the result holds the lookup
  of the given ids, and the given ids and the table are unchanged.
-/
import proofs.«204486_g55619826483824_cont_9to1c4b_296_25_alg».proof.Proof.BitsSide.TileBody
import proofs.«204486_g55619826483824_cont_9to1c4b_296_25_alg».proof.Proof.BitsSide.Split
import proofs.«204486_g55619826483824_cont_9to1c4b_296_25_alg».proof.Proof.BitsSide.Main

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "tV" => (Memref.whole Cert.Kernel.main_arg1_scv : Memref Cert.Kernel.sig Kind.scVector Space.hbm Cert.Kernel.S100000 EltTy.i32)
local notation "xV" => (Memref.whole Cert.Kernel.main_v0_scv : Memref Cert.Kernel.sig Kind.scVector Space.hbm Cert.Kernel.S128x128 EltTy.i32)
local notation "oV" => (Memref.whole Cert.Kernel.main_v1_scv : Memref Cert.Kernel.sig Kind.scVector Space.hbm Cert.Kernel.S128x128 EltTy.i32)
local notation "sV" => (Memref.whole Cert.Kernel.cc0_scratch0 : Memref Cert.Kernel.sig Kind.scVector Space.vmem Cert.Kernel.S8x128 EltTy.i32)
local notation "rV" => (Memref.whole Cert.Kernel.cc0_scratch1 : Memref Cert.Kernel.sig Kind.scVector Space.vmem Cert.Kernel.S8x128 EltTy.i32)

variable (m : (ℓ : Loc nD τ sig) → Buf (Elt F) ℓ)
variable [FloatOps F]

/-! ## The program's run -/

/-- What the run leaves: on every device the result holds the lookup of the given ids, and the given ids and the
    table are as they were. -/
def QC : PUnit × MemSt nD τ sig (Elt F) → Prop := fun r =>
  ∀ c : Dev nD, r.2.mem (rLoc c) = RES m c ∧ r.2.mem (aLoc c) = m (aLoc c) ∧ r.2.mem (tLoc c) = m (tLoc c)

variable (ρ : Dev nD → PrngReg)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Hand

end
-- ==== Proof.lean ====
/-
  The certificate's five claims. Both programs compute one lookup: every entry of the result is the table's word at
  the token id found at that place. The kernel re-lays the ids as 128 rows of 128, has sixteen tiles each look up
  eight rows through indirect copies, and re-lays the rows found; the reference clamps and masks each id and gathers
  on the host. Under the precondition every id is between 0 and 99999, a row of the table: the reference's
  wrap-around of negative ids and its fill value are never taken, and every list a tile hands the copy engine names
  rows that exist, so no copy is abandoned and every wait returns. The frames of the two kernel programs are the
  kernel's run with the value dropped; the reference's frame is its run with the value dropped; the idealization
  rewrote nothing; and the two idealized programs end at the same function of the arguments, the lookup.
-/
import proofs.«204486_g55619826483824_cont_9to1c4b_296_25_alg».proof.Defs
import proofs.«204486_g55619826483824_cont_9to1c4b_296_25_alg».proof.Proof.Gen.Kernel
import proofs.«204486_g55619826483824_cont_9to1c4b_296_25_alg».proof.Proof.Gen.Kernel.Skeleton
import proofs.«204486_g55619826483824_cont_9to1c4b_296_25_alg».proof.Proof.Gen.KernelIdeal
import proofs.«204486_g55619826483824_cont_9to1c4b_296_25_alg».proof.Proof.Gen.KernelIdeal.Skeleton
import proofs.«204486_g55619826483824_cont_9to1c4b_296_25_alg».proof.Proof.Gen.ReferenceIdeal
import proofs.«204486_g55619826483824_cont_9to1c4b_296_25_alg».proof.Proof.Gen.Pre_input_domain
import proofs.«204486_g55619826483824_cont_9to1c4b_296_25_alg».proof.Proof.PreRange
import proofs.«204486_g55619826483824_cont_9to1c4b_296_25_alg».proof.Proof.RefRun
import proofs.«204486_g55619826483824_cont_9to1c4b_296_25_alg».proof.Proof.IdealSide.Launch
import proofs.«204486_g55619826483824_cont_9to1c4b_296_25_alg».proof.Proof.BitsSide.Launch
import Idealize.ShloMosaic.Adequacy
import Idealize.ShloMosaic.Init

noncomputable section

namespace Cert.Proof

open Idealize.ShloMosaic Idealize.SL.Sem

/-- Under the precondition every given id is a row of the table: for the program as printed, -/
theorem ok_bits (m : (ℓ : Loc Cert.Kernel.nD Cert.Kernel.τ Cert.Kernel.sig) → Buf (Elt Bits) ℓ) (h : Cert.Pre_Kernel m) :
    Cert.Kernel.Hand.PreOK (F := Bits) m :=
  fun d j => Cert.PreRange.ids_lt (F := Bits) _ _ (h d) j

/-- and for its idealization. -/
theorem ok_ideal (m : (ℓ : Loc Cert.KernelIdeal.nD Cert.KernelIdeal.τ Cert.KernelIdeal.sig) → Buf (Elt Ideal) ℓ) (h : Cert.Pre_KernelIdeal m) :
    Cert.KernelIdeal.Hand.PreOK (F := Ideal) m :=
  fun d j => Cert.PreRange.ids_lt (F := Ideal) _ _ (h d) j

theorem frame_p : Cert.frame_Kernel := fun m g hpre =>
  (θ_run Cert.Kernel.defs _ _).mono (fun _ h c => (h c).2) (Cert.Kernel.Hand.run_main (F := Bits) m g (ok_bits m hpre))

theorem frame_pi : Cert.frame_KernelIdeal := fun m g hpre =>
  (θ_run Cert.KernelIdeal.defs _ _).mono (fun _ h c => (h c).2) (Cert.KernelIdeal.Hand.run_main (F := Ideal) m g (ok_ideal m hpre))

theorem frame_ri : Cert.frame_ReferenceIdeal := fun m g hpre =>
  (θ_run Cert.ReferenceIdeal.defs _ _).mono (fun _ h c => (h c).2) (Cert.ReferenceIdeal.RefRun.run m g hpre)

/-- From memories that agree on the ids and the table, the idealized kernel and the idealized reference both end
    with the result at the lookup of the ids in the table. -/
theorem algebraic : Cert.algebraic_KernelIdeal_ReferenceIdeal := by
  intro m g m' g' hpre hagree
  have hpre' : Cert.Pre_ReferenceIdeal m' := fun c => by
    have h := hpre c
    rw [← (hagree c).1, ← (hagree c).2] at h
    exact h
  refine ⟨fun c => Cert.KernelIdeal.Hand.RES m c, Cert.KernelIdeal.Hand.run_main (F := Ideal) m g (ok_ideal m hpre), ?_⟩
  refine (θ_run Cert.ReferenceIdeal.defs _ _).mono (fun _ h c => ⟨(h c).1.trans ?_, (h c).2⟩) (Cert.ReferenceIdeal.RefRun.run m' g' hpre')
  rw [(hagree c).1, (hagree c).2]
  rfl

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Proof

end
